-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16384x1024 : Shape := ⟨3, ![2, 16384, 1024]⟩
abbrev S1024 : Shape := ⟨1, ![1024]⟩
abbrev S_ : Shape := ⟨0, ![]⟩

class Facts : Prop where
  bcast_S_S2x16384x1024 : S_.BroadcastsInDim S2x16384x1024 (![] : Fin 0 → Fin S2x16384x1024.rank)
  reducesTo_S2x16384x1024_S_d0_1_2 : S2x16384x1024.ReducesTo [0, 1, 2] S_
  h_S_ : 0 < S_.numel
  bcast_S_S1024 : S_.BroadcastsInDim S1024 (![] : Fin 0 → Fin S1024.rank)
  reducesTo_S1024_S_d0 : S1024.ReducesTo [0] S_

variable [Facts]

def fn_part4 {F : FTy → Type} [FloatOps F] (main_arg14 : FVec F S1024 .f32) (main_arg15 : FVec F S1024 .f32) (main_arg16 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S1024 .f32 := Host.absf main_arg15
  let main_cst_28 : FVec F S_ .f32 := constant S_ .f32 0x7F800000#32
  let main_v75 : FVec F S1024 .f32 := broadcastInDim S1024 ![] bcast_S_S1024 main_cst_28
  let main_v76 : IVec S1024 1 := cmpf .olt main_v74 main_v75
  let main_c_29 : IVec S_ 1 := constantI S_ 1 1#1
  let main_v77 : IVec S_ 1 := (fun x v => Host.reduce IntOp.andi x v reducesTo_S1024_S_d0 h_S_) main_v76 main_c_29
  let main_v78 : IVec S_ 1 := andi main_v73 main_v77
  let main_v79 : FVec F S1024 .f32 := Host.absf main_arg16
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  main_v83

def fn_part3 {F : FTy → Type} [FloatOps F] (main_arg11 : FVec F S1024 .f32) (main_arg12 : FVec F S1024 .f32) (main_arg13 : FVec F S1024 .f32) (main_arg14 : FVec F S1024 .f32) (main_arg15 : FVec F S1024 .f32) (main_arg16 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_arg14 main_arg15 main_arg16 main_v63 main_v67

def fn_part2 {F : FTy → Type} [FloatOps F] (main_arg7 : FVec F S1024 .f32) (main_arg8 : FVec F S1024 .f32) (main_arg9 : FVec F S1024 .f32) (main_arg10 : FVec F S1024 .f32) (main_arg11 : FVec F S1024 .f32) (main_arg12 : FVec F S1024 .f32) (main_arg13 : FVec F S1024 .f32) (main_arg14 : FVec F S1024 .f32) (main_arg15 : FVec F S1024 .f32) (main_arg16 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_arg15 main_arg16 main_v48 main_v49 main_v50

def fn_part1 {F : FTy → Type} [FloatOps F] (main_arg4 : FVec F S1024 .f32) (main_arg5 : FVec F S1024 .f32) (main_arg6 : FVec F S1024 .f32) (main_arg7 : FVec F S1024 .f32) (main_arg8 : FVec F S1024 .f32) (main_arg9 : FVec F S1024 .f32) (main_arg10 : FVec F S1024 .f32) (main_arg11 : FVec F S1024 .f32) (main_arg12 : FVec F S1024 .f32) (main_arg13 : FVec F S1024 .f32) (main_arg14 : FVec F S1024 .f32) (main_arg15 : FVec F S1024 .f32) (main_arg16 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S2x16384x1024 .f32) (main_arg1 : FVec F S2x16384x1024 .f32) (main_arg2 : FVec F S2x16384x1024 .f32) (main_arg3 : FVec F S1024 .f32) (main_arg4 : FVec F S1024 .f32) (main_arg5 : FVec F S1024 .f32) (main_arg6 : FVec F S1024 .f32) (main_arg7 : FVec F S1024 .f32) (main_arg8 : FVec F S1024 .f32) (main_arg9 : FVec F S1024 .f32) (main_arg10 : FVec F S1024 .f32) (main_arg11 : FVec F S1024 .f32) (main_arg12 : FVec F S1024 .f32) (main_arg13 : FVec F S1024 .f32) (main_arg14 : FVec F S1024 .f32) (main_arg15 : FVec F S1024 .f32) (main_arg16 : FVec F S1024 .f32) : IVec S_ 1 :=
  let main_v0 : FVec F S2x16384x1024 .f32 := Host.absf main_arg0
  let main_cst : FVec F S_ .f32 := constant S_ .f32 0x7F800000#32
  let main_v1 : FVec F S2x16384x1024 .f32 := broadcastInDim S2x16384x1024 ![] bcast_S_S2x16384x1024 main_cst
  let main_v2 : IVec S2x16384x1024 1 := cmpf .olt main_v0 main_v1
  let main_c : IVec S_ 1 := constantI S_ 1 1#1
  let main_v3 : IVec S_ 1 := (fun x v => Host.reduce IntOp.andi x v reducesTo_S2x16384x1024_S_d0_1_2 h_S_) main_v2 main_c
  let main_v4 : FVec F S2x16384x1024 .f32 := Host.absf main_arg1
  let main_cst_0 : FVec F S_ .f32 := constant S_ .f32 0x7F800000#32
  let main_v5 : FVec F S2x16384x1024 .f32 := broadcastInDim S2x16384x1024 ![] bcast_S_S2x16384x1024 main_cst_0
  let main_v6 : IVec S2x16384x1024 1 := cmpf .olt main_v4 main_v5
  let main_c_1 : IVec S_ 1 := constantI S_ 1 1#1
  let main_v7 : IVec S_ 1 := (fun x v => Host.reduce IntOp.andi x v reducesTo_S2x16384x1024_S_d0_1_2 h_S_) main_v6 main_c_1
  let main_v8 : IVec S_ 1 := andi main_v3 main_v7
  let main_v9 : FVec F S2x16384x1024 .f32 := Host.absf main_arg2
  let main_cst_2 : FVec F S_ .f32 := constant S_ .f32 0x7F800000#32
  let main_v10 : FVec F S2x16384x1024 .f32 := broadcastInDim S2x16384x1024 ![] bcast_S_S2x16384x1024 main_cst_2
  let main_v11 : IVec S2x16384x1024 1 := cmpf .olt main_v9 main_v10
  let main_c_3 : IVec S_ 1 := constantI S_ 1 1#1
  let main_v12 : IVec S_ 1 := (fun x v => Host.reduce IntOp.andi x v reducesTo_S2x16384x1024_S_d0_1_2 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S2x16384x1024 : Shape := ⟨3, ![2, 16384, 1024]⟩
abbrev S1024 : Shape := ⟨1, ![1024]⟩
abbrev S2x4x256x256 : Shape := ⟨4, ![2, 4, 256, 256]⟩
abbrev S1x2048x256 : Shape := ⟨3, ![1, 2048, 256]⟩
abbrev S256 : Shape := ⟨1, ![256]⟩
abbrev S1x1x256x256 : Shape := ⟨4, ![1, 1, 256, 256]⟩
abbrev S256x256 : Shape := ⟨2, ![256, 256]⟩
abbrev S2048x256 : Shape := ⟨2, ![2048, 256]⟩
abbrev S1x256 : Shape := ⟨2, ![1, 256]⟩
abbrev S256x1 : Shape := ⟨2, ![256, 1]⟩
abbrev S1x4096x256 : Shape := ⟨3, ![1, 4096, 256]⟩
abbrev S4096x256 : Shape := ⟨2, ![4096, 256]⟩

abbrev nBuf : Space → Nat
  | .hbm => 20
  | .vmem => 46
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .f32⟩
  | .hbm, ⟨2, _⟩ => ⟨S2x16384x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S2x4x256x256, .f32⟩
  | .hbm, ⟨18, _⟩ => ⟨S2x4x256x256, .f32⟩
  | .hbm, ⟨19, _⟩ => ⟨S2x16384x1024, .f32⟩
  | .local _ .vmem, ⟨0, _⟩ => ⟨S1x2048x256, .f32⟩
  | .local _ .vmem, ⟨1, _⟩ => ⟨S1x2048x256, .f32⟩
  | .local _ .vmem, ⟨2, _⟩ => ⟨S1x2048x256, .f32⟩
  | .local _ .vmem, ⟨3, _⟩ => ⟨S1x2048x256, .f32⟩
  | .local _ .vmem, ⟨4, _⟩ => ⟨S256, .f32⟩
  | .local _ .vmem, ⟨5, _⟩ => ⟨S256, .f32⟩
  | .local _ .vmem, ⟨6, _⟩ => ⟨S256, .f32⟩
  | .local _ .vmem, ⟨7, _⟩ => ⟨S256, .f32⟩
  | .local _ .vmem, ⟨8, _⟩ => ⟨S256, .f32⟩
  | .local _ .vmem, ⟨9, _⟩ => ⟨S256, .f32⟩
  | .local _ .vmem, ⟨10, _⟩ => ⟨S256, .f32⟩
  | .local _ .vmem, ⟨11, _⟩ => ⟨S256, .f32⟩
  | .local _ .vmem, ⟨12, _⟩ => ⟨S256, .f32⟩
  | .local _ .vmem, ⟨13, _⟩ => ⟨S256, .f32⟩
  | .local _ .vmem, ⟨14, _⟩ => ⟨S256, .f32⟩
  | .local _ .vmem, ⟨15, _⟩ => ⟨S256, .f32⟩
  | .local _ .vmem, ⟨16, _⟩ => ⟨S256, .f32⟩
  | .local _ .vmem, ⟨17, _⟩ => ⟨S256, .f32⟩
  | .local _ .vmem, ⟨18, _⟩ => ⟨S256, .f32⟩
  | .local _ .vmem, ⟨19, _⟩ => ⟨S256, .f32⟩
  | .local _ .vmem, ⟨20, _⟩ => ⟨S1x1x256x256, .f32⟩
  | .local _ .vmem, ⟨21, _⟩ => ⟨S1x1x256x256, .f32⟩
  | .local _ .vmem, ⟨22, _⟩ => ⟨S1x1x256x256, .f32⟩
  | .local _ .vmem, ⟨23, _⟩ => ⟨S1x1x256x256, .f32⟩
  | .local _ .vmem, ⟨24, _⟩ => ⟨S256x256, .f32⟩
  | .local _ .vmem, ⟨25, _⟩ => ⟨S256x256, .f32⟩
  | .local _ .vmem, ⟨26, _⟩ => ⟨S1x4096x256, .f32⟩
  | .local _ .vmem, ⟨27, _⟩ => ⟨S1x4096x256, .f32⟩
  | .local _ .vmem, ⟨28, _⟩ => ⟨S256, .f32⟩
  | .local _ .vmem, ⟨29, _⟩ => ⟨S256, .f32⟩
  | .local _ .vmem, ⟨30, _⟩ => ⟨S256, .f32⟩
  | .local _ .vmem, ⟨31, _⟩ => ⟨S256, .f32⟩
  | .local _ .vmem, ⟨32, _⟩ => ⟨S256, .f32⟩
  | .local _ .vmem, ⟨33, _⟩ => ⟨S256, .f32⟩
  | .local _ .vmem, ⟨34, _⟩ => ⟨S256, .f32⟩
  | .local _ .vmem, ⟨35, _⟩ => ⟨S256, .f32⟩
  | .local _ .vmem, ⟨36, _⟩ => ⟨S256, .f32⟩
  | .local _ .vmem, ⟨37, _⟩ => ⟨S256, .f32⟩
  | .local _ .vmem, ⟨38, _⟩ => ⟨S256, .f32⟩
  | .local _ .vmem, ⟨39, _⟩ => ⟨S256, .f32⟩
  | .local _ .vmem, ⟨40, _⟩ => ⟨S1x1x256x256, .f32⟩
  | .local _ .vmem, ⟨41, _⟩ => ⟨S1x1x256x256, .f32⟩
  | .local _ .vmem, ⟨42, _⟩ => ⟨S1x1x256x256, .f32⟩
  | .local _ .vmem, ⟨43, _⟩ => ⟨S1x1x256x256, .f32⟩
  | .local _ .vmem, ⟨44, _⟩ => ⟨S1x4096x256, .f32⟩
  | .local _ .vmem, ⟨45, _⟩ => ⟨S1x4096x256, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0_0 : Ref sig .tc := ⟨.hbm, 17, rfl⟩
abbrev main_v0_1 : Ref sig .tc := ⟨.hbm, 18, rfl⟩
abbrev main_v1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc1_stg0_0 : Ref sig .tc := ⟨.vmem, 26, rfl⟩
abbrev cc1_stg0_1 : Ref sig .tc := ⟨.vmem, 27, rfl⟩
abbrev cc1_stg1_0 : Ref sig .tc := ⟨.vmem, 28, rfl⟩
abbrev cc1_stg1_1 : Ref sig .tc := ⟨.vmem, 29, rfl⟩
abbrev cc1_stg2_0 : Ref sig .tc := ⟨.vmem, 30, rfl⟩
abbrev cc1_stg2_1 : Ref sig .tc := ⟨.vmem, 31, rfl⟩
abbrev cc1_stg3_0 : Ref sig .tc := ⟨.vmem, 32, rfl⟩
abbrev cc1_stg3_1 : Ref sig .tc := ⟨.vmem, 33, rfl⟩
abbrev cc1_stg4_0 : Ref sig .tc := ⟨.vmem, 34, rfl⟩
abbrev cc1_stg4_1 : Ref sig .tc := ⟨.vmem, 35, rfl⟩
abbrev cc1_stg5_0 : Ref sig .tc := ⟨.vmem, 36, rfl⟩
abbrev cc1_stg5_1 : Ref sig .tc := ⟨.vmem, 37, rfl⟩
abbrev cc1_stg6_0 : Ref sig .tc := ⟨.vmem, 38, rfl⟩
abbrev cc1_stg6_1 : Ref sig .tc := ⟨.vmem, 39, rfl⟩
abbrev cc1_stg7_0 : Ref sig .tc := ⟨.vmem, 40, rfl⟩
abbrev cc1_stg7_1 : Ref sig .tc := ⟨.vmem, 41, rfl⟩
abbrev cc1_stg8_0 : Ref sig .tc := ⟨.vmem, 42, rfl⟩
abbrev cc1_stg8_1 : Ref sig .tc := ⟨.vmem, 43, rfl⟩
abbrev cc1_stg9_0 : Ref sig .tc := ⟨.vmem, 44, rfl⟩
abbrev cc1_stg9_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc1_sem0_0 : DmaSem sig := 24
abbrev cc1_sem0_1 : DmaSem sig := 25
abbrev cc1_sem1_0 : DmaSem sig := 26
abbrev cc1_sem1_1 : DmaSem sig := 27
abbrev cc1_sem2_0 : DmaSem sig := 28
abbrev cc1_sem2_1 : DmaSem sig := 29
abbrev cc1_sem3_0 : DmaSem sig := 30
abbrev cc1_sem3_1 : DmaSem sig := 31
abbrev cc1_sem4_0 : DmaSem sig := 32
abbrev cc1_sem4_1 : DmaSem sig := 33
abbrev cc1_sem5_0 : DmaSem sig := 34
abbrev cc1_sem5_1 : DmaSem sig := 35
abbrev cc1_sem6_0 : DmaSem sig := 36
abbrev cc1_sem6_1 : DmaSem sig := 37
abbrev cc1_sem7_0 : DmaSem sig := 38
abbrev cc1_sem7_1 : DmaSem sig := 39
abbrev cc1_sem8_0 : DmaSem sig := 40
abbrev cc1_sem8_1 : DmaSem sig := 41
abbrev cc1_sem9_0 : DmaSem sig := 42
abbrev cc1_sem9_1 : DmaSem sig := 43

abbrev nD : Nat := 1
abbrev τ : Topo := Topo.v7x

variable {F : FTy → Type} [FloatOps F]

abbrev grid0 : Pipeline.Grid := ⟨3, ![2, 4, 8], ![false, false, false]⟩

def k0_cond2 (i : grid0.Coords) : BitVec 1 :=
  let arg2 : BitVec 32 := BitVec.ofNat 32 (i 2).val
  let c7_i32 : BitVec 32 := 7#32
  let v51 : BitVec 1 := Scalar.cmpi .eq arg2 c7_i32
  let v52 : BitVec 32 := Scalar.extui v51
  let c0_i32_23 : BitVec 32 := 0#32
  let v53 : BitVec 1 := Scalar.cmpi .ne v52 c0_i32_23
  v53

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_3 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_4 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_5 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_6 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_7 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_8 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_9 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, false]

abbrev stage0_10 : Fin 2 → Memref sig .tc .vmem S1x1x256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S1x1x256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

abbrev grid1 : Pipeline.Grid := ⟨3, ![2, 4, 4], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_1 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc1_transform_2 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc1_transform_3 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc1_transform_4 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc1_transform_5 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc1_transform_6 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc1_transform_7 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_8 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_9 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage1_0 : Fin 2 → Memref sig .tc .vmem S1x4096x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, false]

abbrev stage1_2 : Fin 2 → Memref sig .tc .vmem S256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, false]

abbrev stage1_4 : Fin 2 → Memref sig .tc .vmem S256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true, false]

abbrev stage1_5 : Fin 2 → Memref sig .tc .vmem S256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true, false]

abbrev stage1_6 : Fin 2 → Memref sig .tc .vmem S256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true, false]

abbrev stage1_7 : Fin 2 → Memref sig .tc .vmem S1x1x256x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true, false]

abbrev stage1_8 : Fin 2 → Memref sig .tc .vmem S1x1x256x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true, false]

abbrev stage1_9 : Fin 2 → Memref sig .tc .vmem S1x4096x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true, true]

class Facts₀ : Prop where
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  inb_S256_S256_0 : ∀ a, (![0] : Fin 1 → Nat) a + S256.size a ≤ S256.size a
  h_S256 : 0 < S256.numel
  shapeCasts_S256_S1x256 : S256.ShapeCasts S1x256
  broadcasts_S1x256_S2048x256 : S1x256.Broadcasts S2048x256
  reduces_S256x256_S256 : S256x256.Reduces [1] S256
  shapeCasts_S256_S256x1 : S256.ShapeCasts S256x1
  broadcasts_S256x1_S256x256 : S256x1.Broadcasts S256x256
  inb_S1x1x256x256_S1x1x256x256_0_0_0_0 : ∀ a, (![0, 0, 0, 0] : Fin 4 → Nat) a + S1x1x256x256.size a ≤ S1x1x256x256.size a
  h_S1x1x256x256 : 0 < S1x1x256x256.numel
  shapeCasts_S1x1x256x256_S256x256 : S1x1x256x256.ShapeCasts S256x256
  shapeCasts_S256x256_S1x1x256x256 : S256x256.ShapeCasts S1x1x256x256
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  broadcasts_S1x256_S4096x256 : S1x256.Broadcasts S4096x256
  bitsLt_bf16_f32 : FTy.bits .bf16 < FTy.bits .f32
  shapeCasts_S4096x256_S1x4096x256 : S4096x256.ShapeCasts S1x4096x256
  dot_S2048x256_S2048x256_S256x256_0_0_1_1_n_n_wf : DotDims.WF S2048x256 S2048x256 S256x256 [0] [0] [1] [1] [] []
  dot_S4096x256_S256x256_S4096x256_1_1_0_0_n_n_wf : DotDims.WF S4096x256 S256x256 S4096x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S2x16384x1024.size a
  hwx0_0 : ∀ i : grid0.Coords, EltTy.bits .f32 = 32 ∨ (Rect.block (s := S2x16384x1024) S1x2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x256.size a ≤ S2x16384x1024.size a
  hwx0_1 : ∀ i : grid0.Coords, EltTy.bits .f32 = 32 ∨ (Rect.block (s := S2x16384x1024) S1x2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S1024.size a
  hwx0_2 : ∀ i : grid0.Coords, EltTy.bits .f32 = 32 ∨ (Rect.block (s := S1024) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S1024.size a
  hwx0_3 : ∀ i : grid0.Coords, EltTy.bits .f32 = 32 ∨ (Rect.block (s := S1024) S256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S1024.size a
  hwx0_4 : ∀ i : grid0.Coords, EltTy.bits .f32 = 32 ∨ (Rect.block (s := S1024) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S1024.size a
  hwx0_5 : ∀ i : grid0.Coords, EltTy.bits .f32 = 32 ∨ (Rect.block (s := S1024) S256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S1024.size a
  hwx0_6 : ∀ i : grid0.Coords, EltTy.bits .f32 = 32 ∨ (Rect.block (s := S1024) S256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S1024.size a
  hwx0_7 : ∀ i : grid0.Coords, EltTy.bits .f32 = 32 ∨ (Rect.block (s := S1024) S256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S1024.size a
  hwx0_8 : ∀ i : grid0.Coords, EltTy.bits .f32 = 32 ∨ (Rect.block (s := S1024) S256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256.size a ≤ S1024.size a
  hwx0_9 : ∀ i : grid0.Coords, EltTy.bits .f32 = 32 ∨ (Rect.block (s := S1024) S256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1x256x256.size a ≤ S2x4x256x256.size a
  hwx0_10 : ∀ i : grid0.Coords, EltTy.bits .f32 = 32 ∨ (Rect.block (s := S2x4x256x256) S1x1x256x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x1x256x256.size a ≤ S2x4x256x256.size a
  hwx0_11 : ∀ i : grid0.Coords, EltTy.bits .f32 = 32 ∨ (Rect.block (s := S2x4x256x256) S1x1x256x256.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x4096x256.size a ≤ S2x16384x1024.size a
  hwx1_0 : ∀ i : grid1.Coords, EltTy.bits .f32 = 32 ∨ (Rect.block (s := S2x16384x1024) S1x4096x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256.size a ≤ S1024.size a
  hwx1_1 : ∀ i : grid1.Coords, EltTy.bits .f32 = 32 ∨ (Rect.block (s := S1024) S256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S1024.size a
  hwx1_2 : ∀ i : grid1.Coords, EltTy.bits .f32 = 32 ∨ (Rect.block (s := S1024) S256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256.size a ≤ S1024.size a
  hwx1_3 : ∀ i : grid1.Coords, EltTy.bits .f32 = 32 ∨ (Rect.block (s := S1024) S256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S1024.size a
  hwx1_4 : ∀ i : grid1.Coords, EltTy.bits .f32 = 32 ∨ (Rect.block (s := S1024) S256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256.size a ≤ S1024.size a
  hwx1_5 : ∀ i : grid1.Coords, EltTy.bits .f32 = 32 ∨ (Rect.block (s := S1024) S256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S256.size a ≤ S1024.size a
  hwx1_6 : ∀ i : grid1.Coords, EltTy.bits .f32 = 32 ∨ (Rect.block (s := S1024) S256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x1x256x256.size a ≤ S2x4x256x256.size a
  hwx1_7 : ∀ i : grid1.Coords, EltTy.bits .f32 = 32 ∨ (Rect.block (s := S2x4x256x256) S1x1x256x256.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x1x256x256.size a ≤ S2x4x256x256.size a
  hwx1_8 : ∀ i : grid1.Coords, EltTy.bits .f32 = 32 ∨ (Rect.block (s := S2x4x256x256) S1x1x256x256.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1x4096x256.size a ≤ S2x16384x1024.size a
  hwx1_9 : ∀ i : grid1.Coords, EltTy.bits .f32 = 32 ∨ (Rect.block (s := S2x16384x1024) S1x4096x256.size (cc1_transform_9 i) (hinb1_9 i)).WholeWords (EltTy.packing .f32)

variable [Facts₀]

def dot_S2048x256_S2048x256_S256x256_0_0_1_1_n_n : DotDims S2048x256 S2048x256 S256x256 where
  lhsContracting := [0]
  rhsContracting := [0]
  lhsNonContracting := [1]
  rhsNonContracting := [1]
  lhsBatch := []
  rhsBatch := []
  wf := dot_S2048x256_S2048x256_S256x256_0_0_1_1_n_n_wf
def dot_S4096x256_S256x256_S4096x256_1_1_0_0_n_n : DotDims S4096x256 S256x256 S4096x256 where
  lhsContracting := [1]
  rhsContracting := [1]
  lhsNonContracting := [0]
  rhsNonContracting := [0]
  lhsBatch := []
  rhsBatch := []
  wf := dot_S4096x256_S256x256_S4096x256_1_1_0_0_n_n_wf

abbrev win0_0 : Pipeline.Window sig grid0 :=
  Pipeline.Window.ofSpec (Memref.whole main_arg0) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg9) S256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg10) S256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg11) S256.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg12) S256.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v0_0) S1x1x256x256.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v0_1) S1x1x256x256.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev idle0 : Fin 12 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond2 i == 1#1) | 11 => fun i => !(k0_cond2 i == 1#1) | ⟨_ + 12, h⟩ => absurd h (Nat.not_lt.2 (Nat.le_add_left _ _))

abbrev win1_0 : Pipeline.Window sig grid1 :=
  Pipeline.Window.ofSpec (Memref.whole main_arg2) S1x4096x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg13) S256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg14) S256.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg15) S256.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_arg16) S256.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v0_0) S1x1x256x256.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_v0_1) S1x1x256x256.size cc1_transform_8 reads1_8 false false 2 stage1_8 sem1_8
    hrank1 hreads1_8 hinb1_8 nbuf1_8 (Memref.isWhole_whole _) hwx1_8 hstage1_8

abbrev win1_9 : Pipeline.Window sig grid1 :=
  Pipeline.Window.ofSpec (Memref.whole main_v1) S1x4096x256.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S2x16384x1024 : Shape := ⟨3, ![2, 16384, 1024]⟩
abbrev S1024 : Shape := ⟨1, ![1024]⟩
abbrev S1x1x1024 : Shape := ⟨3, ![1, 1, 1024]⟩
abbrev S2x16384x4x256 : Shape := ⟨4, ![2, 16384, 4, 256]⟩
abbrev S2x4x256x16384 : Shape := ⟨4, ![2, 4, 256, 16384]⟩
abbrev S2x4x256x256 : Shape := ⟨4, ![2, 4, 256, 256]⟩
abbrev S_ : Shape := ⟨0, ![]⟩
abbrev S2x4x256 : Shape := ⟨3, ![2, 4, 256]⟩
abbrev S2x4x256x1 : Shape := ⟨4, ![2, 4, 256, 1]⟩

abbrev nBuf : Space → Nat
  | .hbm => 117
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .f32⟩
  | .hbm, ⟨2, _⟩ => ⟨S2x16384x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S1x1x1024, .f32⟩
  | .hbm, ⟨18, _⟩ => ⟨S2x16384x1024, .f32⟩
  | .hbm, ⟨19, _⟩ => ⟨S2x16384x1024, .f32⟩
  | .hbm, ⟨20, _⟩ => ⟨S1x1x1024, .f32⟩
  | .hbm, ⟨21, _⟩ => ⟨S2x16384x1024, .f32⟩
  | .hbm, ⟨22, _⟩ => ⟨S2x16384x1024, .f32⟩
  | .hbm, ⟨23, _⟩ => ⟨S1x1x1024, .f32⟩
  | .hbm, ⟨24, _⟩ => ⟨S2x16384x1024, .f32⟩
  | .hbm, ⟨25, _⟩ => ⟨S2x16384x1024, .f32⟩
  | .hbm, ⟨26, _⟩ => ⟨S1x1x1024, .f32⟩
  | .hbm, ⟨27, _⟩ => ⟨S2x16384x1024, .f32⟩
  | .hbm, ⟨28, _⟩ => ⟨S2x16384x1024, .f32⟩
  | .hbm, ⟨29, _⟩ => ⟨S1x1x1024, .f32⟩
  | .hbm, ⟨30, _⟩ => ⟨S2x16384x1024, .f32⟩
  | .hbm, ⟨31, _⟩ => ⟨S2x16384x1024, .f32⟩
  | .hbm, ⟨32, _⟩ => ⟨S1x1x1024, .f32⟩
  | .hbm, ⟨33, _⟩ => ⟨S2x16384x1024, .f32⟩
  | .hbm, ⟨34, _⟩ => ⟨S2x16384x1024, .f32⟩
  | .hbm, ⟨35, _⟩ => ⟨S2x16384x4x256, .f32⟩
  | .hbm, ⟨36, _⟩ => ⟨S2x4x256x16384, .f32⟩
  | .hbm, ⟨37, _⟩ => ⟨S2x16384x4x256, .f32⟩
  | .hbm, ⟨38, _⟩ => ⟨S2x4x256x16384, .f32⟩
  | .hbm, ⟨39, _⟩ => ⟨S2x16384x4x256, .f32⟩
  | .hbm, ⟨40, _⟩ => ⟨S2x4x256x16384, .f32⟩
  | .hbm, ⟨41, _⟩ => ⟨S2x4x256x256, .f32⟩
  | .hbm, ⟨42, _⟩ => ⟨S_, .f32⟩
  | .hbm, ⟨43, _⟩ => ⟨S2x4x256x256, .f32⟩
  | .hbm, ⟨44, _⟩ => ⟨S2x4x256x256, .f32⟩
  | .hbm, ⟨45, _⟩ => ⟨S_, .f32⟩
  | .hbm, ⟨46, _⟩ => ⟨S2x4x256, .f32⟩
  | .hbm, ⟨47, _⟩ => ⟨S_, .f32⟩
  | .hbm, ⟨48, _⟩ => ⟨S2x4x256, .f32⟩
  | .hbm, ⟨49, _⟩ => ⟨S2x4x256, .f32⟩
  | .hbm, ⟨50, _⟩ => ⟨S2x4x256x1, .f32⟩
  | .hbm, ⟨51, _⟩ => ⟨S2x4x256x256, .f32⟩
  | .hbm, ⟨52, _⟩ => ⟨S2x4x256x256, .f32⟩
  | .hbm, ⟨53, _⟩ => ⟨S2x4x256x256, .f32⟩
  | .hbm, ⟨54, _⟩ => ⟨S_, .f32⟩
  | .hbm, ⟨55, _⟩ => ⟨S2x4x256, .f32⟩
  | .hbm, ⟨56, _⟩ => ⟨S2x4x256x1, .f32⟩
  | .hbm, ⟨57, _⟩ => ⟨S2x4x256x256, .f32⟩
  | .hbm, ⟨58, _⟩ => ⟨S2x4x256x256, .f32⟩
  | .hbm, ⟨59, _⟩ => ⟨S2x4x256x16384, .f32⟩
  | .hbm, ⟨60, _⟩ => ⟨S2x16384x4x256, .f32⟩
  | .hbm, ⟨61, _⟩ => ⟨S2x16384x1024, .f32⟩
  | .hbm, ⟨62, _⟩ => ⟨S1x1x1024, .f32⟩
  | .hbm, ⟨63, _⟩ => ⟨S2x16384x1024, .f32⟩
  | .hbm, ⟨64, _⟩ => ⟨S2x16384x1024, .f32⟩
  | .hbm, ⟨65, _⟩ => ⟨S1x1x1024, .f32⟩
  | .hbm, ⟨66, _⟩ => ⟨S2x16384x1024, .f32⟩
  | .hbm, ⟨67, _⟩ => ⟨S2x16384x1024, .f32⟩
  | .hbm, ⟨68, _⟩ => ⟨S1x1x1024, .f32⟩
  | .hbm, ⟨69, _⟩ => ⟨S2x16384x1024, .f32⟩
  | .hbm, ⟨70, _⟩ => ⟨S2x16384x1024, .f32⟩
  | .hbm, ⟨71, _⟩ => ⟨S1x1x1024, .f32⟩
  | .hbm, ⟨72, _⟩ => ⟨S2x16384x1024, .f32⟩
  | .hbm, ⟨73, _⟩ => ⟨S2x16384x1024, .f32⟩
  | .hbm, ⟨74, _⟩ => ⟨S1x1x1024, .f32⟩
  | .hbm, ⟨75, _⟩ => ⟨S2x16384x1024, .f32⟩
  | .hbm, ⟨76, _⟩ => ⟨S2x16384x1024, .f32⟩
  | .hbm, ⟨77, _⟩ => ⟨S1x1x1024, .f32⟩
  | .hbm, ⟨78, _⟩ => ⟨S2x16384x1024, .f32⟩
  | .hbm, ⟨79, _⟩ => ⟨S2x16384x1024, .f32⟩
  | .hbm, ⟨80, _⟩ => ⟨S2x16384x4x256, .f32⟩
  | .hbm, ⟨81, _⟩ => ⟨S2x4x256x16384, .f32⟩
  | .hbm, ⟨82, _⟩ => ⟨S2x16384x4x256, .f32⟩
  | .hbm, ⟨83, _⟩ => ⟨S2x4x256x16384, .f32⟩
  | .hbm, ⟨84, _⟩ => ⟨S2x16384x4x256, .f32⟩
  | .hbm, ⟨85, _⟩ => ⟨S2x4x256x16384, .f32⟩
  | .hbm, ⟨86, _⟩ => ⟨S2x4x256x256, .f32⟩
  | .hbm, ⟨87, _⟩ => ⟨S_, .f32⟩
  | .hbm, ⟨88, _⟩ => ⟨S2x4x256x256, .f32⟩
  | .hbm, ⟨89, _⟩ => ⟨S2x4x256x256, .f32⟩
  | .hbm, ⟨90, _⟩ => ⟨S_, .f32⟩
  | .hbm, ⟨91, _⟩ => ⟨S2x4x256, .f32⟩
  | .hbm, ⟨92, _⟩ => ⟨S_, .f32⟩
  | .hbm, ⟨93, _⟩ => ⟨S2x4x256, .f32⟩
  | .hbm, ⟨94, _⟩ => ⟨S2x4x256, .f32⟩
  | .hbm, ⟨95, _⟩ => ⟨S2x4x256x1, .f32⟩
  | .hbm, ⟨96, _⟩ => ⟨S2x4x256x256, .f32⟩
  | .hbm, ⟨97, _⟩ => ⟨S2x4x256x256, .f32⟩
  | .hbm, ⟨98, _⟩ => ⟨S2x4x256x256, .f32⟩
  | .hbm, ⟨99, _⟩ => ⟨S_, .f32⟩
  | .hbm, ⟨100, _⟩ => ⟨S2x4x256, .f32⟩
  | .hbm, ⟨101, _⟩ => ⟨S2x4x256x1, .f32⟩
  | .hbm, ⟨102, _⟩ => ⟨S2x4x256x256, .f32⟩
  | .hbm, ⟨103, _⟩ => ⟨S2x4x256x256, .f32⟩
  | .hbm, ⟨104, _⟩ => ⟨S2x4x256x16384, .f32⟩
  | .hbm, ⟨105, _⟩ => ⟨S2x16384x4x256, .f32⟩
  | .hbm, ⟨106, _⟩ => ⟨S2x16384x1024, .f32⟩
  | .hbm, ⟨107, _⟩ => ⟨S2x16384x1024, .f32⟩
  | .hbm, ⟨108, _⟩ => ⟨S_, .f32⟩
  | .hbm, ⟨109, _⟩ => ⟨S2x16384x1024, .f32⟩
  | .hbm, ⟨110, _⟩ => ⟨S2x16384x1024, .f32⟩
  | .hbm, ⟨111, _⟩ => ⟨S1x1x1024, .f32⟩
  | .hbm, ⟨112, _⟩ => ⟨S2x16384x1024, .f32⟩
  | .hbm, ⟨113, _⟩ => ⟨S2x16384x1024, .f32⟩
  | .hbm, ⟨114, _⟩ => ⟨S1x1x1024, .f32⟩
  | .hbm, ⟨115, _⟩ => ⟨S2x16384x1024, .f32⟩
  | .hbm, ⟨116, _⟩ => ⟨S2x16384x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst : Ref sig .tc := ⟨.hbm, 42, rfl⟩
abbrev main_v25 : Ref sig .tc := ⟨.hbm, 43, rfl⟩
abbrev main_v26 : Ref sig .tc := ⟨.hbm, 44, rfl⟩
abbrev main_cst_0 : Ref sig .tc := ⟨.hbm, 45, rfl⟩
abbrev main_v27 : Ref sig .tc := ⟨.hbm, 46, rfl⟩
abbrev main_cst_1 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_2 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_3 : Ref sig .tc := ⟨.hbm, 87, rfl⟩
abbrev main_v66 : Ref sig .tc := ⟨.hbm, 88, rfl⟩
abbrev main_v67 : Ref sig .tc := ⟨.hbm, 89, rfl⟩
abbrev main_cst_4 : Ref sig .tc := ⟨.hbm, 90, rfl⟩
abbrev main_v68 : Ref sig .tc := ⟨.hbm, 91, rfl⟩
abbrev main_cst_5 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_6 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_7 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S2x16384x1024_0_1_2 : S1x1x1024.BroadcastsInDim S2x16384x1024 (![0, 1, 2] : Fin 3 → Fin S2x16384x1024.rank)
  shapeCasts_S2x16384x1024_S2x16384x4x256 : S2x16384x1024.ShapeCasts S2x16384x4x256
  transposes_S2x16384x4x256_S2x4x256x16384_0_2_3_1 : S2x16384x4x256.Transposes [0, 2, 3, 1] S2x4x256x16384
  bcast_S_S2x4x256x256 : S_.BroadcastsInDim S2x4x256x256 (![] : Fin 0 → Fin S2x4x256x256.rank)
  reducesTo_S2x4x256x256_S2x4x256_d3 : S2x4x256x256.ReducesTo [3] S2x4x256
  h_S_ : 0 < S_.numel
  bcast_S_S2x4x256 : S_.BroadcastsInDim S2x4x256 (![] : Fin 0 → Fin S2x4x256.rank)
  bcast_S2x4x256_S2x4x256x1_0_1_2 : S2x4x256.BroadcastsInDim S2x4x256x1 (![0, 1, 2] : Fin 3 → Fin S2x4x256x1.rank)
  bcast_S2x4x256x1_S2x4x256x256_0_1_2_3 : S2x4x256x1.BroadcastsInDim S2x4x256x256 (![0, 1, 2, 3] : Fin 4 → Fin S2x4x256x256.rank)
  transposes_S2x4x256x16384_S2x16384x4x256_0_3_1_2 : S2x4x256x16384.Transposes [0, 3, 1, 2] S2x16384x4x256
  shapeCasts_S2x16384x4x256_S2x16384x1024 : S2x16384x4x256.ShapeCasts S2x16384x1024
  bcast_S_S2x16384x1024 : S_.BroadcastsInDim S2x16384x1024 (![] : Fin 0 → Fin S2x16384x1024.rank)
  dot_S2x4x256x16384_S2x4x256x16384_S2x4x256x256_3_3_2_2_01_01_wf : DotDims.WF S2x4x256x16384 S2x4x256x16384 S2x4x256x256 [3] [3] [2] [2] [0, 1] [0, 1]
  dot_S2x4x256x256_S2x4x256x16384_S2x4x256x16384_3_2_2_3_01_01_wf : DotDims.WF S2x4x256x256 S2x4x256x16384 S2x4x256x16384 [3] [2] [2] [3] [0, 1] [0, 1]

variable [Facts₀]

def dot_S2x4x256x16384_S2x4x256x16384_S2x4x256x256_3_3_2_2_01_01 : DotDims S2x4x256x16384 S2x4x256x16384 S2x4x256x256 where
  lhsContracting := [3]
  rhsContracting := [3]
  lhsNonContracting := [2]
  rhsNonContracting := [2]
  lhsBatch := [0, 1]
  rhsBatch := [0, 1]
  wf := dot_S2x4x256x16384_S2x4x256x16384_S2x4x256x256_3_3_2_2_01_01_wf
def dot_S2x4x256x256_S2x4x256x16384_S2x4x256x16384_3_2_2_3_01_01 : DotDims S2x4x256x256 S2x4x256x16384 S2x4x256x16384 where
  lhsContracting := [3]
  rhsContracting := [2]
  lhsNonContracting := [2]
  rhsNonContracting := [3]
  lhsBatch := [0, 1]
  rhsBatch := [0, 1]
  wf := dot_S2x4x256x256_S2x4x256x16384_S2x4x256x16384_3_2_2_3_01_01_wf

class Facts : Prop extends Facts₀ where

variable [Facts]
-- ==== Proof.BitsR0Defs.lean ====
import proofs.«137963_j12481174962634_2_alg».proof.Proof.Gen.Kernel.Launch
import proofs.«137963_j12481174962634_2_alg».proof.Proof.Gen.Kernel.Skeleton
import proofs.«137963_j12481174962634_2_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! The first kernel's two branch conditions, read off the grid coordinates: the accumulators are reset at the
    first tile of each (batch, head) pair and the softmax is written at the last. -/

abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

end Cert.Kernel.Hand

end
-- ==== Proof.BitsRun0A.lean ====
import proofs.«137963_j12481174962634_2_alg».proof.Proof.BitsR0Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! The first kernel's body at the first tile of a (batch, head) pair: both accumulators are zeroed, then each takes
    its tile's product.  The output blocks are not touched. -/

set_option maxHeartbeats 4000000 in
noncomputable def kernelRun0_A (c : Dev nD) (i : grid0.Coords) (arg3 : Memref sig .tc .vmem S1x2048x256 .f32) (harg3 : arg3.IsWhole) (arg4 : Memref sig .tc .vmem S1x2048x256 .f32) (harg4 : arg4.IsWhole) (arg5 : Memref sig .tc .vmem S256 .f32) (harg5 : arg5.IsWhole) (arg6 : Memref sig .tc .vmem S256 .f32) (harg6 : arg6.IsWhole) (arg7 : Memref sig .tc .vmem S256 .f32) (harg7 : arg7.IsWhole) (arg8 : Memref sig .tc .vmem S256 .f32) (harg8 : arg8.IsWhole) (arg9 : Memref sig .tc .vmem S256 .f32) (harg9 : arg9.IsWhole) (arg10 : Memref sig .tc .vmem S256 .f32) (harg10 : arg10.IsWhole) (arg11 : Memref sig .tc .vmem S256 .f32) (harg11 : arg11.IsWhole) (arg12 : Memref sig .tc .vmem S256 .f32) (harg12 : arg12.IsWhole) (arg13 : Memref sig .tc .vmem S1x1x256x256 .f32) (harg13 : arg13.IsWhole) (arg14 : Memref sig .tc .vmem S1x1x256x256 .f32) (harg14 : arg14.IsWhole) (arg15 : Memref sig .tc .vmem S256x256 .f32) (harg15 : arg15.IsWhole) (arg16 : Memref sig .tc .vmem S256x256 .f32) (harg16 : arg16.IsWhole) (hc0 : cond0_0 i) (hc1 : ¬cond0_1 i)
    (x0 : Vec F S1x2048x256 .f32) (x1 : Vec F S1x2048x256 .f32) (x2 : Vec F S256 .f32) (x3 : Vec F S256 .f32) (x4 : Vec F S256 .f32) (x5 : Vec F S256 .f32) (x6 : Vec F S256 .f32) (x7 : Vec F S256 .f32) (x8 : Vec F S256 .f32) (x9 : Vec F S256 .f32) :
    Σ' (LS0 : List (View.Piece (Elt F) S256x256 .f32)), { LS1 : List (View.Piece (Elt F) S256x256 .f32) //
      ∀ (xi10 xi11 : Vec F S1x1x256x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare xi10 ∗ owns (c : Thread nD τ) arg14 fullShare xi11 ∗ (∃ d, owns (c : Thread nD τ) arg15 fullShare d) ∗ (∃ d, owns (c : Thread nD τ) arg16 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare xi10 ∗ owns (c : Thread nD τ) arg14 fullShare xi11 ∗ (∃ f, arg15.view.loc (c : Thread nD τ) ↦[arg15.view.set]{fullShare} arg15.view.writes (Elt F) f LS0) ∗ (∃ f, arg16.view.loc (c : Thread nD τ) ↦[arg16.view.set]{fullShare} arg16.view.writes (Elt F) f LS1)) -∗ K ⟨⟩))
          ⊢ wp frame (wpE (defs₀ (F := F)) Variants.none c none) E (cc0__attn_scores_kernel i arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, fun xi10 xi11 E K => ?run⟩
  case run =>
    simp only [cc0__attn_scores_kernel_eq_skeleton]; unfold cc0__attn_scores_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [HS0]; · iexists _; iexact HS0
    iexists _; iexact HS1

end Cert.Kernel.Hand

end
-- ==== Proof.BitsRun0B.lean ====
import proofs.«137963_j12481174962634_2_alg».proof.Proof.BitsR0Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! The first kernel's body at a middle tile: each accumulator, at what the tile before left, takes its tile's
    product.  The output blocks are not touched. -/

set_option maxHeartbeats 4000000 in
noncomputable def kernelRun0_B (c : Dev nD) (i : grid0.Coords) (arg3 : Memref sig .tc .vmem S1x2048x256 .f32) (harg3 : arg3.IsWhole) (arg4 : Memref sig .tc .vmem S1x2048x256 .f32) (harg4 : arg4.IsWhole) (arg5 : Memref sig .tc .vmem S256 .f32) (harg5 : arg5.IsWhole) (arg6 : Memref sig .tc .vmem S256 .f32) (harg6 : arg6.IsWhole) (arg7 : Memref sig .tc .vmem S256 .f32) (harg7 : arg7.IsWhole) (arg8 : Memref sig .tc .vmem S256 .f32) (harg8 : arg8.IsWhole) (arg9 : Memref sig .tc .vmem S256 .f32) (harg9 : arg9.IsWhole) (arg10 : Memref sig .tc .vmem S256 .f32) (harg10 : arg10.IsWhole) (arg11 : Memref sig .tc .vmem S256 .f32) (harg11 : arg11.IsWhole) (arg12 : Memref sig .tc .vmem S256 .f32) (harg12 : arg12.IsWhole) (arg13 : Memref sig .tc .vmem S1x1x256x256 .f32) (harg13 : arg13.IsWhole) (arg14 : Memref sig .tc .vmem S1x1x256x256 .f32) (harg14 : arg14.IsWhole) (arg15 : Memref sig .tc .vmem S256x256 .f32) (harg15 : arg15.IsWhole) (arg16 : Memref sig .tc .vmem S256x256 .f32) (harg16 : arg16.IsWhole) (hc0 : ¬cond0_0 i) (hc1 : ¬cond0_1 i)
    (x0 : Vec F S1x2048x256 .f32) (x1 : Vec F S1x2048x256 .f32) (x2 : Vec F S256 .f32) (x3 : Vec F S256 .f32) (x4 : Vec F S256 .f32) (x5 : Vec F S256 .f32) (x6 : Vec F S256 .f32) (x7 : Vec F S256 .f32) (x8 : Vec F S256 .f32) (x9 : Vec F S256 .f32) (xs0 xs1 : Vec F S256x256 .f32) :
    Σ' (LS0 : List (View.Piece (Elt F) S256x256 .f32)), { LS1 : List (View.Piece (Elt F) S256x256 .f32) //
      ∀ (xi10 xi11 : Vec F S1x1x256x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare xi10 ∗ owns (c : Thread nD τ) arg14 fullShare xi11 ∗ owns (c : Thread nD τ) arg15 fullShare xs0 ∗ owns (c : Thread nD τ) arg16 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare xi10 ∗ owns (c : Thread nD τ) arg14 fullShare xi11 ∗ (∃ f, arg15.view.loc (c : Thread nD τ) ↦[arg15.view.set]{fullShare} arg15.view.writes (Elt F) f LS0) ∗ (∃ f, arg16.view.loc (c : Thread nD τ) ↦[arg16.view.set]{fullShare} arg16.view.writes (Elt F) f LS1)) -∗ K ⟨⟩))
          ⊢ wp frame (wpE (defs₀ (F := F)) Variants.none c none) E (cc0__attn_scores_kernel i arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, fun xi10 xi11 E K => ?run⟩
  case run =>
    simp only [cc0__attn_scores_kernel_eq_skeleton]; unfold cc0__attn_scores_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hfs0; obtain rfl := harg16.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [HS0]; · iexists _; iexact HS0
    iexists _; iexact HS1

end Cert.Kernel.Hand

end
-- ==== Proof.BitsRun0C.lean ====
import proofs.«137963_j12481174962634_2_alg».proof.Proof.BitsR0Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! The first kernel's body at the last tile: each accumulator takes its tile's product and the row softmax of the
    scaled total is stored into the output block, whole. -/

set_option maxHeartbeats 4000000 in
noncomputable def kernelRun0_C (c : Dev nD) (i : grid0.Coords) (arg3 : Memref sig .tc .vmem S1x2048x256 .f32) (harg3 : arg3.IsWhole) (arg4 : Memref sig .tc .vmem S1x2048x256 .f32) (harg4 : arg4.IsWhole) (arg5 : Memref sig .tc .vmem S256 .f32) (harg5 : arg5.IsWhole) (arg6 : Memref sig .tc .vmem S256 .f32) (harg6 : arg6.IsWhole) (arg7 : Memref sig .tc .vmem S256 .f32) (harg7 : arg7.IsWhole) (arg8 : Memref sig .tc .vmem S256 .f32) (harg8 : arg8.IsWhole) (arg9 : Memref sig .tc .vmem S256 .f32) (harg9 : arg9.IsWhole) (arg10 : Memref sig .tc .vmem S256 .f32) (harg10 : arg10.IsWhole) (arg11 : Memref sig .tc .vmem S256 .f32) (harg11 : arg11.IsWhole) (arg12 : Memref sig .tc .vmem S256 .f32) (harg12 : arg12.IsWhole) (arg13 : Memref sig .tc .vmem S1x1x256x256 .f32) (harg13 : arg13.IsWhole) (arg14 : Memref sig .tc .vmem S1x1x256x256 .f32) (harg14 : arg14.IsWhole) (arg15 : Memref sig .tc .vmem S256x256 .f32) (harg15 : arg15.IsWhole) (arg16 : Memref sig .tc .vmem S256x256 .f32) (harg16 : arg16.IsWhole) (hc0 : ¬cond0_0 i) (hc1 : cond0_1 i)
    (x0 : Vec F S1x2048x256 .f32) (x1 : Vec F S1x2048x256 .f32) (x2 : Vec F S256 .f32) (x3 : Vec F S256 .f32) (x4 : Vec F S256 .f32) (x5 : Vec F S256 .f32) (x6 : Vec F S256 .f32) (x7 : Vec F S256 .f32) (x8 : Vec F S256 .f32) (x9 : Vec F S256 .f32) (xs0 xs1 : Vec F S256x256 .f32) :
    Σ' (L10 : List (View.Piece (Elt F) S1x1x256x256 .f32)) (L11 : List (View.Piece (Elt F) S1x1x256x256 .f32)) (LS0 : List (View.Piece (Elt F) S256x256 .f32)), { LS1 : List (View.Piece (Elt F) S256x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ d, owns (c : Thread nD τ) arg13 fullShare d) ∗ (∃ d, owns (c : Thread nD τ) arg14 fullShare d) ∗ owns (c : Thread nD τ) arg15 fullShare xs0 ∗ owns (c : Thread nD τ) arg16 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ f, arg13.view.loc (c : Thread nD τ) ↦[arg13.view.set]{fullShare} arg13.view.writes (Elt F) f L10) ∗ (∃ f, arg14.view.loc (c : Thread nD τ) ↦[arg14.view.set]{fullShare} arg14.view.writes (Elt F) f L11) ∗ (∃ f, arg15.view.loc (c : Thread nD τ) ↦[arg15.view.set]{fullShare} arg15.view.writes (Elt F) f LS0) ∗ (∃ f, arg16.view.loc (c : Thread nD τ) ↦[arg16.view.set]{fullShare} arg16.view.writes (Elt F) f LS1)) -∗ K ⟨⟩))
          ⊢ wp frame (wpE (defs₀ (F := F)) Variants.none c none) E (cc0__attn_scores_kernel i arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, fun E K => ?run⟩
  case run =>
    simp only [cc0__attn_scores_kernel_eq_skeleton]; unfold cc0__attn_scores_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg15.eq_unread hfs0; obtain rfl := harg16.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]; · iexists _; iexact H10
    isplitl [H11]; · iexists _; iexact H11
    isplitl [HS0]; · iexists _; iexact HS0
    iexists _; iexact HS1

end Cert.Kernel.Hand

end
-- ==== Proof.BitsFrame0.lean ====
import proofs.«137963_j12481174962634_2_alg».proof.Proof.BitsRun0A
import proofs.«137963_j12481174962634_2_alg».proof.Proof.BitsRun0B
import proofs.«137963_j12481174962634_2_alg».proof.Proof.BitsRun0C

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! The first kernel over its grid.  At each (batch, head) pair the eight tiles are visited in order: the two score
    accumulators (scratch) are zeroed at the first tile, take one tile's product at every tile, and at the last tile
    their scaled row softmax is stored into the two output blocks, which are written back there and nowhere else. -/

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

/-! ## Where the output windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem liveAt0_8 : ∀ t : Fin cfg0.N, cfg0.idle 8 (grid0.coords t) = false := by decide +kernel
theorem liveAt0_9 : ∀ t : Fin cfg0.N, cfg0.idle 9 (grid0.coords t) = false := by decide +kernel
theorem idleAt0_10 : ∀ t : Fin cfg0.N, ¬cond0_1 (grid0.coords t) → cfg0.idle 10 (grid0.coords t) = true := by decide +kernel
theorem noFlush0_10 : ∀ t : Fin cfg0.N, ¬cond0_1 (grid0.coords t) → (cfg0.win 10).flush t = false := by decide +kernel
theorem liveAt0_10 : ∀ t : Fin cfg0.N, cond0_1 (grid0.coords t) → cfg0.idle 10 (grid0.coords t) = false := by decide +kernel
theorem idleAt0_11 : ∀ t : Fin cfg0.N, ¬cond0_1 (grid0.coords t) → cfg0.idle 11 (grid0.coords t) = true := by decide +kernel
theorem noFlush0_11 : ∀ t : Fin cfg0.N, ¬cond0_1 (grid0.coords t) → (cfg0.win 11).flush t = false := by decide +kernel
theorem liveAt0_11 : ∀ t : Fin cfg0.N, cond0_1 (grid0.coords t) → cfg0.idle 11 (grid0.coords t) = false := by decide +kernel

/-! ## The memrefs the body is called with at a point -/

abbrev ms0_0 (t : Fin cfg0.N) := win0_0.stage (cfg0.slots t 0)
abbrev hs0_0 (t : Fin cfg0.N) : (ms0_0 t).IsWhole := hstage0_0 ((cfg0.slots t 0).cast nbuf0_0)
abbrev ms0_1 (t : Fin cfg0.N) := win0_1.stage (cfg0.slots t 1)
abbrev hs0_1 (t : Fin cfg0.N) : (ms0_1 t).IsWhole := hstage0_1 ((cfg0.slots t 1).cast nbuf0_1)
abbrev ms0_2 (t : Fin cfg0.N) := win0_2.stage (cfg0.slots t 2)
abbrev hs0_2 (t : Fin cfg0.N) : (ms0_2 t).IsWhole := hstage0_2 ((cfg0.slots t 2).cast nbuf0_2)
abbrev ms0_3 (t : Fin cfg0.N) := win0_3.stage (cfg0.slots t 3)
abbrev hs0_3 (t : Fin cfg0.N) : (ms0_3 t).IsWhole := hstage0_3 ((cfg0.slots t 3).cast nbuf0_3)
abbrev ms0_4 (t : Fin cfg0.N) := win0_4.stage (cfg0.slots t 4)
abbrev hs0_4 (t : Fin cfg0.N) : (ms0_4 t).IsWhole := hstage0_4 ((cfg0.slots t 4).cast nbuf0_4)
abbrev ms0_5 (t : Fin cfg0.N) := win0_5.stage (cfg0.slots t 5)
abbrev hs0_5 (t : Fin cfg0.N) : (ms0_5 t).IsWhole := hstage0_5 ((cfg0.slots t 5).cast nbuf0_5)
abbrev ms0_6 (t : Fin cfg0.N) := win0_6.stage (cfg0.slots t 6)
abbrev hs0_6 (t : Fin cfg0.N) : (ms0_6 t).IsWhole := hstage0_6 ((cfg0.slots t 6).cast nbuf0_6)
abbrev ms0_7 (t : Fin cfg0.N) := win0_7.stage (cfg0.slots t 7)
abbrev hs0_7 (t : Fin cfg0.N) : (ms0_7 t).IsWhole := hstage0_7 ((cfg0.slots t 7).cast nbuf0_7)
abbrev ms0_8 (t : Fin cfg0.N) := win0_8.stage (cfg0.slots t 8)
abbrev hs0_8 (t : Fin cfg0.N) : (ms0_8 t).IsWhole := hstage0_8 ((cfg0.slots t 8).cast nbuf0_8)
abbrev ms0_9 (t : Fin cfg0.N) := win0_9.stage (cfg0.slots t 9)
abbrev hs0_9 (t : Fin cfg0.N) : (ms0_9 t).IsWhole := hstage0_9 ((cfg0.slots t 9).cast nbuf0_9)
abbrev ms0_10 (t : Fin cfg0.N) := win0_10.stage (cfg0.slots t 10)
abbrev hs0_10 (t : Fin cfg0.N) : (ms0_10 t).IsWhole := hstage0_10 ((cfg0.slots t 10).cast nbuf0_10)
abbrev ms0_11 (t : Fin cfg0.N) := win0_11.stage (cfg0.slots t 11)
abbrev hs0_11 (t : Fin cfg0.N) : (ms0_11 t).IsWhole := hstage0_11 ((cfg0.slots t 11).cast nbuf0_11)
abbrev scM0_0 : Memref sig .tc .vmem S256x256 .f32 := Memref.whole cc0_scratch0
abbrev scM0_1 : Memref sig .tc .vmem S256x256 .f32 := Memref.whole cc0_scratch1
abbrev VS0_0 : View sig .tc .vmem S256x256 .f32 := scM0_0.view
abbrev VS0_1 : View sig .tc .vmem S256x256 .f32 := scM0_1.view
abbrev VO0_10 : View sig .tc .vmem S1x1x256x256 .f32 := (Memref.whole cc0_stg10_0 : Memref sig .tc .vmem S1x1x256x256 .f32).view
abbrev VO0_11 : View sig .tc .vmem S1x1x256x256 .f32 := (Memref.whole cc0_stg11_0 : Memref sig .tc .vmem S1x1x256x256 .f32).view

/-- The scoped buffers the first kernel never names: the second kernel's staging buffers, each at some contents. -/
def restScoped0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg8_1), ((c : Thread nD τ).loc cc1_stg8_1) ↦{fullShare} f) ∗ (∃ f : Buf (Elt F) ((c : Thread nD τ).loc cc1_stg9_0), ((c : Thread nD τ).loc cc1_stg9_0) ↦{fullShare} f) ∗ (∃ f : Buf (Elt F) ((c : Thread nD τ).loc cc1_stg9_1), ((c : Thread nD τ).loc cc1_stg9_1) ↦{fullShare} f))

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ restScoped0 (F := F) c) ∗ (∃ r, prngReg c r)) := by
  unfold Pipeline.ΦA restScoped0; rw [scopedRest0_eq]; simp only [scM0_0, scM0_1, owns_whole]; try rfl

/-! ## The three runs at a point of the grid -/

def runA (c : Dev nD) (t : Fin cfg0.N) (h0 : t.val % 8 = 0) (h1 : ¬t.val % 8 = 7) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
def runB (c : Dev nD) (t : Fin cfg0.N) (h0 : ¬t.val % 8 = 0) (h1 : ¬t.val % 8 = 7) (xs0 xs1 : Vec F S256x256 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) xs0 xs1
def runC (c : Dev nD) (t : Fin cfg0.N) (h0 : ¬t.val % 8 = 0) (h1 : t.val % 8 = 7) (xs0 xs1 : Vec F S256x256 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) xs0 xs1

theorem scoverA_0 (c : Dev nD) (t : Fin cfg0.N) (h0 : t.val % 8 = 0) (h1 : ¬t.val % 8 = 7) (y : S256x256.Idx) : ∃ pc ∈ (runA V c t h0 h1).1, y ∈ pc.1.set :=
  View.cover_of_tiledL (runA V c t h0 h1).1 S256x256.size (by sl_kernel_rfl) y
theorem scoverA_1 (c : Dev nD) (t : Fin cfg0.N) (h0 : t.val % 8 = 0) (h1 : ¬t.val % 8 = 7) (y : S256x256.Idx) : ∃ pc ∈ (runA V c t h0 h1).2.1, y ∈ pc.1.set :=
  View.cover_of_tiledL (runA V c t h0 h1).2.1 S256x256.size (by sl_kernel_rfl) y
theorem scoverB_0 (c : Dev nD) (t : Fin cfg0.N) (h0 : ¬t.val % 8 = 0) (h1 : ¬t.val % 8 = 7) (xs0 xs1) (y : S256x256.Idx) : ∃ pc ∈ (runB V c t h0 h1 xs0 xs1).1, y ∈ pc.1.set :=
  View.cover_of_tiledL (runB V c t h0 h1 xs0 xs1).1 S256x256.size (by sl_kernel_rfl) y
theorem scoverB_1 (c : Dev nD) (t : Fin cfg0.N) (h0 : ¬t.val % 8 = 0) (h1 : ¬t.val % 8 = 7) (xs0 xs1) (y : S256x256.Idx) : ∃ pc ∈ (runB V c t h0 h1 xs0 xs1).2.1, y ∈ pc.1.set :=
  View.cover_of_tiledL (runB V c t h0 h1 xs0 xs1).2.1 S256x256.size (by sl_kernel_rfl) y
theorem coverC_10 (c : Dev nD) (t : Fin cfg0.N) (h0 : ¬t.val % 8 = 0) (h1 : t.val % 8 = 7) (xs0 xs1) (y : S1x1x256x256.Idx) : ∃ pc ∈ (runC V c t h0 h1 xs0 xs1).1, y ∈ pc.1.set :=
  View.cover_of_tiledL (runC V c t h0 h1 xs0 xs1).1 S1x1x256x256.size (by sl_kernel_rfl) y
theorem coverC_11 (c : Dev nD) (t : Fin cfg0.N) (h0 : ¬t.val % 8 = 0) (h1 : t.val % 8 = 7) (xs0 xs1) (y : S1x1x256x256.Idx) : ∃ pc ∈ (runC V c t h0 h1 xs0 xs1).2.1, y ∈ pc.1.set :=
  View.cover_of_tiledL (runC V c t h0 h1 xs0 xs1).2.1 S1x1x256x256.size (by sl_kernel_rfl) y
theorem scoverC_0 (c : Dev nD) (t : Fin cfg0.N) (h0 : ¬t.val % 8 = 0) (h1 : t.val % 8 = 7) (xs0 xs1) (y : S256x256.Idx) : ∃ pc ∈ (runC V c t h0 h1 xs0 xs1).2.2.1, y ∈ pc.1.set :=
  View.cover_of_tiledL (runC V c t h0 h1 xs0 xs1).2.2.1 S256x256.size (by sl_kernel_rfl) y
theorem scoverC_1 (c : Dev nD) (t : Fin cfg0.N) (h0 : ¬t.val % 8 = 0) (h1 : t.val % 8 = 7) (xs0 xs1) (y : S256x256.Idx) : ∃ pc ∈ (runC V c t h0 h1 xs0 xs1).2.2.2.1, y ∈ pc.1.set :=
  View.cover_of_tiledL (runC V c t h0 h1 xs0 xs1).2.2.2.1 S256x256.size (by sl_kernel_rfl) y

/-- What each case leaves in the two accumulators: its pieces read back. -/
def soutA (c : Dev nD) (t : Fin cfg0.N) (h0 : t.val % 8 = 0) (h1 : ¬t.val % 8 = 7) : Vec F S256x256 .f32 × Vec F S256x256 .f32 :=
  (VS0_0.read (Elt F) (VS0_0.writes (Elt F) VS0_0.junk (runA V c t h0 h1).1), VS0_1.read (Elt F) (VS0_1.writes (Elt F) VS0_1.junk (runA V c t h0 h1).2.1))
def soutB (c : Dev nD) (t : Fin cfg0.N) (h0 : ¬t.val % 8 = 0) (h1 : ¬t.val % 8 = 7) (xs : Vec F S256x256 .f32 × Vec F S256x256 .f32) : Vec F S256x256 .f32 × Vec F S256x256 .f32 :=
  (VS0_0.read (Elt F) (VS0_0.writes (Elt F) VS0_0.junk (runB V c t h0 h1 xs.1 xs.2).1), VS0_1.read (Elt F) (VS0_1.writes (Elt F) VS0_1.junk (runB V c t h0 h1 xs.1 xs.2).2.1))
def soutC (c : Dev nD) (t : Fin cfg0.N) (h0 : ¬t.val % 8 = 0) (h1 : t.val % 8 = 7) (xs : Vec F S256x256 .f32 × Vec F S256x256 .f32) : Vec F S256x256 .f32 × Vec F S256x256 .f32 :=
  (VS0_0.read (Elt F) (VS0_0.writes (Elt F) VS0_0.junk (runC V c t h0 h1 xs.1 xs.2).2.2.1), VS0_1.read (Elt F) (VS0_1.writes (Elt F) VS0_1.junk (runC V c t h0 h1 xs.1 xs.2).2.2.2.1))
/-- What the last tile leaves in the two output blocks. -/
def outC (c : Dev nD) (t : Fin cfg0.N) (h0 : ¬t.val % 8 = 0) (h1 : t.val % 8 = 7) (xs : Vec F S256x256 .f32 × Vec F S256x256 .f32) : Vec F S1x1x256x256 .f32 × Vec F S1x1x256x256 .f32 :=
  (VO0_10.read (Elt F) (VO0_10.writes (Elt F) VO0_10.junk (runC V c t h0 h1 xs.1 xs.2).1), VO0_11.read (Elt F) (VO0_11.writes (Elt F) VO0_11.junk (runC V c t h0 h1 xs.1 xs.2).2.1))

/-- THE ACCUMULATION: what the two accumulators hold after the body at position `n`. -/
def scrAt0 (c : Dev nD) : (n : ℕ) → n < cfg0.N → Vec F S256x256 .f32 × Vec F S256x256 .f32
  | 0, hn => soutA V c ⟨0, hn⟩ (Nat.zero_mod _) (by show ¬ 0 % 8 = 7; decide)
  | n + 1, hn =>
    if h0 : (n + 1) % 8 = 0 then
      if h1 : (n + 1) % 8 = 7 then False.elim (by omega)
      else soutA V c ⟨n + 1, hn⟩ h0 h1
    else
      if h1 : (n + 1) % 8 = 7 then soutC V c ⟨n + 1, hn⟩ h0 h1 (scrAt0 c n (Nat.lt_of_succ_lt hn))
      else soutB V c ⟨n + 1, hn⟩ h0 h1 (scrAt0 c n (Nat.lt_of_succ_lt hn))

theorem scrAt0_A (c : Dev nD) (t : Fin cfg0.N) (h0 : t.val % 8 = 0) (h1 : ¬t.val % 8 = 7) :
    scrAt0 V c t.val t.isLt = soutA V c t h0 h1 := by
  obtain ⟨n, hn⟩ := t
  cases n with
  | zero => exact rfl
  | succ n => exact (dif_pos h0).trans ((dif_neg h1).trans rfl)
theorem scrAt0_B (c : Dev nD) (t : Fin cfg0.N) (h0 : ¬t.val % 8 = 0) (h1 : ¬t.val % 8 = 7) :
    scrAt0 V c t.val t.isLt = soutB V c t h0 h1 (scrAt0 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)
theorem scrAt0_C (c : Dev nD) (t : Fin cfg0.N) (h0 : ¬t.val % 8 = 0) (h1 : t.val % 8 = 7) :
    scrAt0 V c t.val t.isLt = soutC V c t h0 h1 (scrAt0 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- What the output blocks hold after the body at point `t`: the softmax pair at a last tile; elsewhere a placeholder
    nothing consults (the windows are idle there and not written back). -/
def outAt0 (c : Dev nD) (t : Fin cfg0.N) : Vec F S1x1x256x256 .f32 × Vec F S1x1x256x256 .f32 :=
  if h1 : t.val % 8 = 7 then
    outC V c t (by omega) h1 (scrAt0 V c (t.val - 1) (Nat.lt_of_le_of_lt (Nat.sub_le _ _) t.isLt))
  else (VO0_10.read (Elt F) VO0_10.junk, VO0_11.read (Elt F) VO0_11.junk)

/-- The region invariant before position `n`: before the first point every scoped buffer at anything; afterwards the
    two accumulators at what the point before left. -/
def PhiS (c : Dev nD) : (n : ℕ) → n ≤ cfg0.N → sProp 𝕄
  | 0, _ => Pipeline.ΦA spec0 c
  | n + 1, hn => iprop(iprop(owns (c : Thread nD τ) scM0_0 fullShare (scrAt0 V c n hn).1 ∗ owns (c : Thread nD τ) scM0_1 fullShare (scrAt0 V c n hn).2 ∗ restScoped0 (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare (scrAt0 V c n hn).1 ∗ owns (c : Thread nD τ) scM0_1 fullShare (scrAt0 V c n hn).2 ∗ restScoped0 (F := F) c) ∗ (∃ r, prngReg c r)) := rfl
theorem PhiS_pos (c : Dev nD) (n : ℕ) (h : n ≤ cfg0.N) (hz : n ≠ 0) :
    PhiS V c n h = iprop(iprop(owns (c : Thread nD τ) scM0_0 fullShare (scrAt0 V c (n - 1) (by omega)).1 ∗ owns (c : Thread nD τ) scM0_1 fullShare (scrAt0 V c (n - 1) (by omega)).2 ∗ restScoped0 (F := F) c) ∗ (∃ r, prngReg c r)) := by
  cases n with
  | zero => exact absurd rfl hz
  | succ n => rfl

/-- The proof data of the first pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => (outAt0 V c t).1
    | ⟨11, _⟩ => (outAt0 V c t).2
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = (outAt0 V c t).1 := by dsimp only [dat0]
theorem after0_11 (c : Dev nD) (t : Fin cfg0.N) : (dat0 V c).after 11 t = (outAt0 V c t).2 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d

end Region0

end Cert.Kernel.Hand

end
-- ==== Proof.BitsBody0.lean ====
import proofs.«137963_j12481174962634_2_alg».proof.Proof.BitsFrame0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! The first kernel's body obligation at every point of its grid, by the case the point is in. -/

section Region0
variable (V : (c : Dev nD) → (b : Ref sig .tc) → Buf (Elt F) ((c : Thread nD τ).loc b))

theorem outAt0_C (c : Dev nD) (t : Fin cfg0.N) (h0 : ¬t.val % 8 = 0) (h1 : t.val % 8 = 7) :
    outAt0 V c t = outC V c t h0 h1 (scrAt0 V c (t.val - 1) (Nat.lt_of_le_of_lt (Nat.sub_le _ _) t.isLt)) := by
  unfold outAt0; rw [dif_pos h1]

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d))
    ∗ (∃ d, owns (c : Thread nD τ) (ms0_11 t) fullShare ((dat0 V c).before 11 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t
    ∗ (dat0 V c).leavesExact 11 t)

set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6 t], after0_6]
  rw [show (dat0 V c).leavesExact 7 t = owns (c : Thread nD τ) (ms0_7 t) fullShare ((dat0 V c).after 7 t) from by
    unfold Dat.leavesExact; rw [liveAt0_7 t], after0_7]
  rw [show (dat0 V c).leavesExact 8 t = owns (c : Thread nD τ) (ms0_8 t) fullShare ((dat0 V c).after 8 t) from by
    unfold Dat.leavesExact; rw [liveAt0_8 t], after0_8]
  rw [show (dat0 V c).leavesExact 9 t = owns (c : Thread nD τ) (ms0_9 t) fullShare ((dat0 V c).after 9 t) from by
    unfold Dat.leavesExact; rw [liveAt0_9 t], after0_9]
  by_cases h1 : t.val % 8 = 7
  · have h0 : ¬t.val % 8 = 0 := by omega
    have hz : t.val ≠ 0 := by omega
    rw [show (dat0 V c).leavesExact 10 t = owns (c : Thread nD τ) (ms0_10 t) fullShare ((dat0 V c).after 10 t) from by
      unfold Dat.leavesExact; rw [liveAt0_10 t ((hcond0_1 t).mpr h1)], after0_10]
    rw [show (dat0 V c).leavesExact 11 t = owns (c : Thread nD τ) (ms0_11 t) fullShare ((dat0 V c).after 11 t) from by
      unfold Dat.leavesExact; rw [liveAt0_11 t ((hcond0_1 t).mpr h1)], after0_11]
    rw [outAt0_C V c t h0 h1, scrAt0_C V c t h0 h1]
    unfold outC soutC; dsimp only
    rw [PhiS_castSucc V c t, PhiS_pos V c _ _ hz]
    iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((runC V c t h0 h1 _ _).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [HS0]; · iexact HS0
    isplitl [HS1]; · iexact HS1
    iintro ⟨H0, H1, H2, H3, H4, H5, H6, H7, H8, H9, ⟨%e10, H10⟩, ⟨%e11, H11⟩, ⟨%es0, HS0⟩, ⟨%es1, HS1⟩⟩
    isplitl [HS0 HS1 HR Hg]
    · isplitl [HS0 HS1 HR]
      · isplitl [HS0]
        · unfold owns; iexists _; isplitr
          swap; · iexact HS0
          ipureintro; exact View.read_writes_of_cover _ _ _ _ _ (scoverC_0 V c t h0 h1 _ _)
        isplitl [HS1]
        · unfold owns; iexists _; isplitr
          swap; · iexact HS1
          ipureintro; exact View.read_writes_of_cover _ _ _ _ _ (scoverC_1 V c t h0 h1 _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · unfold owns; iexists _; isplitr
      swap; · iexact H10
      ipureintro; exact View.read_writes_of_cover _ _ _ _ _ (coverC_10 V c t h0 h1 _ _)
    unfold owns; iexists _; isplitr
    swap; · iexact H11
    ipureintro; exact View.read_writes_of_cover _ _ _ _ _ (coverC_11 V c t h0 h1 _ _)
  · rw [Dat.leavesExact_idle (dat0 V c) 10 t (idleAt0_10 t (fun h => h1 ((hcond0_1 t).mp h))) (noFlush0_10 t (fun h => h1 ((hcond0_1 t).mp h)))]
    rw [Dat.leavesExact_idle (dat0 V c) 11 t (idleAt0_11 t (fun h => h1 ((hcond0_1 t).mp h))) (noFlush0_11 t (fun h => h1 ((hcond0_1 t).mp h)))]
    by_cases h0 : t.val % 8 = 0
    · rw [scrAt0_A V c t h0 h1]
      unfold soutA; dsimp only
      by_cases hz : t.val = 0
      · rw [PhiS_castSucc V c t, PhiS_zero V c _ _ hz, PhiA0_eq]
        iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((runA V c t h0 h1).2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [HS0]; · iexact HS0
        isplitl [HS1]; · iexact HS1
        iintro ⟨H0, H1, H2, H3, H4, H5, H6, H7, H8, H9, H10, H11, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scoverA_0 V c t h0 h1)
            isplitl [HS1]
            · unfold owns; iexists _; isplitr
              swap; · iexact HS1
              ipureintro; exact View.read_writes_of_cover _ _ _ _ _ (scoverA_1 V c t h0 h1)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        iexists _; iexact H11
      · rw [PhiS_castSucc V c t, PhiS_pos V c _ _ hz]
        iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((runA V c t h0 h1).2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [HS0]; · iexists _; iexact HS0
        isplitl [HS1]; · iexists _; iexact HS1
        iintro ⟨H0, H1, H2, H3, H4, H5, H6, H7, H8, H9, H10, H11, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scoverA_0 V c t h0 h1)
            isplitl [HS1]
            · unfold owns; iexists _; isplitr
              swap; · iexact HS1
              ipureintro; exact View.read_writes_of_cover _ _ _ _ _ (scoverA_1 V c t h0 h1)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        iexists _; iexact H11
    · have hz : t.val ≠ 0 := fun e => h0 (by rw [e])
      rw [scrAt0_B V c t h0 h1]
      unfold soutB; dsimp only
      rw [PhiS_castSucc V c t, PhiS_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runB V c t h0 h1 _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS0]; · iexact HS0
      isplitl [HS1]; · iexact HS1
      iintro ⟨H0, H1, H2, H3, H4, H5, H6, H7, H8, H9, H10, H11, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scoverB_0 V c t h0 h1 _ _)
          isplitl [HS1]
          · unfold owns; iexists _; isplitr
            swap; · iexact HS1
            ipureintro; exact View.read_writes_of_cover _ _ _ _ _ (scoverB_1 V c t h0 h1 _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      iexists _; iexact H11

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HR⟩, Hg⟩
  isplitl [HS0 HS1 HR]
  · isplitl [HS0]; · iexists _; iexact HS0
    isplitl [HS1]; · iexists _; iexact HS1
    iexact HR
  iexact Hg

theorem hout0 (c : Dev nD) : (dat0 V c).Φ (Fin.last cfg0.N) ⊢ Pipeline.ΦA spec0 c :=
  Phi_out0 V c _ (by rw [Fin.val_last]; have : cfg0.N = 64 := N_0; omega)

end Region0

end Cert.Kernel.Hand

end
-- ==== Proof.BitsRun1.lean ====
import proofs.«137963_j12481174962634_2_alg».proof.Proof.Gen.Kernel.Launch
import proofs.«137963_j12481174962634_2_alg».proof.Proof.Gen.Kernel.Skeleton
import proofs.«137963_j12481174962634_2_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! The second kernel's body on whole staging memrefs: the nine input blocks are read, the output block is stored
    once, whole.  The pieces the store leaves are found by the run. -/

set_option maxHeartbeats 4000000 in
noncomputable def kernelRun1 (c : Dev nD) (i : grid1.Coords) (arg3 : Memref sig .tc .vmem S1x4096x256 .f32) (harg3 : arg3.IsWhole) (arg4 : Memref sig .tc .vmem S256 .f32) (harg4 : arg4.IsWhole) (arg5 : Memref sig .tc .vmem S256 .f32) (harg5 : arg5.IsWhole) (arg6 : Memref sig .tc .vmem S256 .f32) (harg6 : arg6.IsWhole) (arg7 : Memref sig .tc .vmem S256 .f32) (harg7 : arg7.IsWhole) (arg8 : Memref sig .tc .vmem S256 .f32) (harg8 : arg8.IsWhole) (arg9 : Memref sig .tc .vmem S256 .f32) (harg9 : arg9.IsWhole) (arg10 : Memref sig .tc .vmem S1x1x256x256 .f32) (harg10 : arg10.IsWhole) (arg11 : Memref sig .tc .vmem S1x1x256x256 .f32) (harg11 : arg11.IsWhole) (arg12 : Memref sig .tc .vmem S1x4096x256 .f32) (harg12 : arg12.IsWhole)
    (x0 : Vec F S1x4096x256 .f32) (x1 : Vec F S256 .f32) (x2 : Vec F S256 .f32) (x3 : Vec F S256 .f32) (x4 : Vec F S256 .f32) (x5 : Vec F S256 .f32) (x6 : Vec F S256 .f32) (x7 : Vec F S1x1x256x256 .f32) (x8 : Vec F S1x1x256x256 .f32) :
    { L9 : List (View.Piece (Elt F) S1x4096x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ f, arg12.view.loc (c : Thread nD τ) ↦[arg12.view.set]{fullShare} arg12.view.writes (Elt F) f L9)) -∗ K ⟨⟩))
          ⊢ wp frame (wpE (defs₀ (F := F)) Variants.none c none) E (cc1__attn_out_kernel i arg3 harg3 arg4 harg4 arg5 harg5 arg6 harg6 arg7 harg7 arg8 harg8 arg9 harg9 arg10 harg10 arg11 harg11 arg12 harg12) K } := by
  refine ⟨?_, fun E K => ?run⟩
  case run =>
    simp only [cc1__attn_out_kernel_eq_skeleton]; unfold cc1__attn_out_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    iexists _; iexact H9

end Cert.Kernel.Hand

end
-- ==== Proof.BitsFrame1.lean ====
import proofs.«137963_j12481174962634_2_alg».proof.Proof.BitsRun1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! The second kernel over its grid: every point reads its nine input blocks and stores its output block, whole. -/

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

abbrev ms1_0 (t : Fin cfg1.N) := win1_0.stage (cfg1.slots t 0)
abbrev hs1_0 (t : Fin cfg1.N) : (ms1_0 t).IsWhole := hstage1_0 ((cfg1.slots t 0).cast nbuf1_0)
abbrev ms1_1 (t : Fin cfg1.N) := win1_1.stage (cfg1.slots t 1)
abbrev hs1_1 (t : Fin cfg1.N) : (ms1_1 t).IsWhole := hstage1_1 ((cfg1.slots t 1).cast nbuf1_1)
abbrev ms1_2 (t : Fin cfg1.N) := win1_2.stage (cfg1.slots t 2)
abbrev hs1_2 (t : Fin cfg1.N) : (ms1_2 t).IsWhole := hstage1_2 ((cfg1.slots t 2).cast nbuf1_2)
abbrev ms1_3 (t : Fin cfg1.N) := win1_3.stage (cfg1.slots t 3)
abbrev hs1_3 (t : Fin cfg1.N) : (ms1_3 t).IsWhole := hstage1_3 ((cfg1.slots t 3).cast nbuf1_3)
abbrev ms1_4 (t : Fin cfg1.N) := win1_4.stage (cfg1.slots t 4)
abbrev hs1_4 (t : Fin cfg1.N) : (ms1_4 t).IsWhole := hstage1_4 ((cfg1.slots t 4).cast nbuf1_4)
abbrev ms1_5 (t : Fin cfg1.N) := win1_5.stage (cfg1.slots t 5)
abbrev hs1_5 (t : Fin cfg1.N) : (ms1_5 t).IsWhole := hstage1_5 ((cfg1.slots t 5).cast nbuf1_5)
abbrev ms1_6 (t : Fin cfg1.N) := win1_6.stage (cfg1.slots t 6)
abbrev hs1_6 (t : Fin cfg1.N) : (ms1_6 t).IsWhole := hstage1_6 ((cfg1.slots t 6).cast nbuf1_6)
abbrev ms1_7 (t : Fin cfg1.N) := win1_7.stage (cfg1.slots t 7)
abbrev hs1_7 (t : Fin cfg1.N) : (ms1_7 t).IsWhole := hstage1_7 ((cfg1.slots t 7).cast nbuf1_7)
abbrev ms1_8 (t : Fin cfg1.N) := win1_8.stage (cfg1.slots t 8)
abbrev hs1_8 (t : Fin cfg1.N) : (ms1_8 t).IsWhole := hstage1_8 ((cfg1.slots t 8).cast nbuf1_8)
abbrev ms1_9 (t : Fin cfg1.N) := win1_9.stage (cfg1.slots t 9)
abbrev hs1_9 (t : Fin cfg1.N) : (ms1_9 t).IsWhole := hstage1_9 ((cfg1.slots t 9).cast nbuf1_9)
abbrev VO1_9 : View sig .tc .vmem S1x4096x256 .f32 := (Memref.whole cc1_stg9_0 : Memref sig .tc .vmem S1x4096x256 .f32).view

def run1 (c : Dev nD) (t : Fin cfg1.N) :=
  kernelRun1 (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (iblk1 V c 0 t) (iblk1 V c 1 t) (iblk1 V c 2 t) (iblk1 V c 3 t) (iblk1 V c 4 t) (iblk1 V c 5 t) (iblk1 V c 6 t) (iblk1 V c 7 t) (iblk1 V c 8 t)

theorem cover1_9 (c : Dev nD) (t : Fin cfg1.N) (y : S1x4096x256.Idx) : ∃ pc ∈ (run1 V c t).1, y ∈ pc.1.set :=
  View.cover_of_tiledL (run1 V c t).1 S1x4096x256.size (by sl_kernel_rfl) y

/-- What the body leaves in the output block at point `t`: its pieces read back. -/
def out1 (c : Dev nD) (t : Fin cfg1.N) : Vec F S1x4096x256 .f32 :=
  VO1_9.read (Elt F) (VO1_9.writes (Elt F) VO1_9.junk (run1 V c t).1)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1 V c t
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t))

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  unfold out1
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((run1 V c t).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, ⟨%e9, H9⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold owns; iexists _; isplitr
  swap; · iexact H9
  ipureintro; exact View.read_writes_of_cover _ _ _ _ _ (cover1_9 V c t)

theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.BitsMain.lean ====
import proofs.«137963_j12481174962634_2_alg».proof.Proof.BitsBody0
import proofs.«137963_j12481174962634_2_alg».proof.Proof.BitsFrame1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! The whole program: the two kernel regions one after the other.  Between them the unscoped buffers are held at
    what the first region's write-backs leave; at the end every unscoped buffer is read off the last valuation. -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
abbrev V1 : (c : Dev nD) → (b : Ref sig .tc) → Buf (Elt F) ((c : Thread nD τ).loc b) := fun c b => W0 m ρ c b
/-- After the first region: its arrays at what the pipeline leaves, every other buffer as entered. -/
def W2 (c : Dev nD) : Valuation τ sig (Elt F) :=
  Pipeline.withArrays spec0 c (W0 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W0 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second region. -/
def W4 (c : Dev nD) : Valuation τ sig (Elt F) :=
  Pipeline.withArrays spec1 c (W2 m ρ c) fun w => (dat1 (V2 m ρ) c).arrAt w cfg1.N
theorem W4_arr (c : Dev nD) (w : Fin cfg1.W) :
    W4 m ρ c (Proc.devRef .tc (Pipeline.arrRef spec1 w)) = (dat1 (V2 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W2 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V2 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V2 m ρ c b :=
  fun b hb => W4_of_ne m ρ c b fun w e => hb (Finset.mem_image.mpr ⟨w, Finset.mem_univ _, e⟩)

/-! ### The arguments end as launched -/

theorem W4_main_arg0 (c : Dev nD) : W4 m ρ c (Proc.devRef .tc main_arg0) = m ((c : Thread nD τ).loc main_arg0) :=
  calc W4 m ρ c (Proc.devRef .tc main_arg0)
    _ = W2 m ρ c (Proc.devRef .tc main_arg0) := W4_of_ne m ρ c main_arg0 (by decide)
    _ = W0 m ρ c (Proc.devRef .tc main_arg0) := (W2_arr m ρ c 0).trans (((dat0 (V1 m ρ) c).arrAt_in 0 rfl _).trans (A_eq0 (V1 m ρ) c 0))
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W2 m ρ c (Proc.devRef .tc main_arg1) := W4_of_ne m ρ c main_arg1 (by decide)
    _ = W0 m ρ c (Proc.devRef .tc main_arg1) := (W2_arr m ρ c 1).trans (((dat0 (V1 m ρ) c).arrAt_in 1 rfl _).trans (A_eq0 (V1 m ρ) c 1))
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W2 m ρ c (Proc.devRef .tc main_arg2) := (W4_arr m ρ c 0).trans (((dat1 (V2 m ρ) c).arrAt_in 0 rfl _).trans (A_eq1 (V2 m ρ) c 0))
    _ = W0 m ρ c (Proc.devRef .tc main_arg2) := W2_of_ne m ρ c main_arg2 (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W2 m ρ c (Proc.devRef .tc main_arg3) := W4_of_ne m ρ c main_arg3 (by decide)
    _ = W0 m ρ c (Proc.devRef .tc main_arg3) := (W2_arr m ρ c 2).trans (((dat0 (V1 m ρ) c).arrAt_in 2 rfl _).trans (A_eq0 (V1 m ρ) c 2))
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W2 m ρ c (Proc.devRef .tc main_arg4) := W4_of_ne m ρ c main_arg4 (by decide)
    _ = W0 m ρ c (Proc.devRef .tc main_arg4) := (W2_arr m ρ c 3).trans (((dat0 (V1 m ρ) c).arrAt_in 3 rfl _).trans (A_eq0 (V1 m ρ) c 3))
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W2 m ρ c (Proc.devRef .tc main_arg5) := W4_of_ne m ρ c main_arg5 (by decide)
    _ = W0 m ρ c (Proc.devRef .tc main_arg5) := (W2_arr m ρ c 4).trans (((dat0 (V1 m ρ) c).arrAt_in 4 rfl _).trans (A_eq0 (V1 m ρ) c 4))
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W2 m ρ c (Proc.devRef .tc main_arg6) := W4_of_ne m ρ c main_arg6 (by decide)
    _ = W0 m ρ c (Proc.devRef .tc main_arg6) := (W2_arr m ρ c 5).trans (((dat0 (V1 m ρ) c).arrAt_in 5 rfl _).trans (A_eq0 (V1 m ρ) c 5))
    _ = m ((c : Thread nD τ).loc main_arg6) := rfl
theorem W4_main_arg7 (c : Dev nD) : W4 m ρ c (Proc.devRef .tc main_arg7) = m ((c : Thread nD τ).loc main_arg7) :=
  calc W4 m ρ c (Proc.devRef .tc main_arg7)
    _ = W2 m ρ c (Proc.devRef .tc main_arg7) := (W4_arr m ρ c 1).trans (((dat1 (V2 m ρ) c).arrAt_in 1 rfl _).trans (A_eq1 (V2 m ρ) c 1))
    _ = W0 m ρ c (Proc.devRef .tc main_arg7) := W2_of_ne m ρ c main_arg7 (by decide)
    _ = m ((c : Thread nD τ).loc main_arg7) := rfl
theorem W4_main_arg8 (c : Dev nD) : W4 m ρ c (Proc.devRef .tc main_arg8) = m ((c : Thread nD τ).loc main_arg8) :=
  calc W4 m ρ c (Proc.devRef .tc main_arg8)
    _ = W2 m ρ c (Proc.devRef .tc main_arg8) := (W4_arr m ρ c 2).trans (((dat1 (V2 m ρ) c).arrAt_in 2 rfl _).trans (A_eq1 (V2 m ρ) c 2))
    _ = W0 m ρ c (Proc.devRef .tc main_arg8) := W2_of_ne m ρ c main_arg8 (by decide)
    _ = m ((c : Thread nD τ).loc main_arg8) := rfl
theorem W4_main_arg9 (c : Dev nD) : W4 m ρ c (Proc.devRef .tc main_arg9) = m ((c : Thread nD τ).loc main_arg9) :=
  calc W4 m ρ c (Proc.devRef .tc main_arg9)
    _ = W2 m ρ c (Proc.devRef .tc main_arg9) := W4_of_ne m ρ c main_arg9 (by decide)
    _ = W0 m ρ c (Proc.devRef .tc main_arg9) := (W2_arr m ρ c 6).trans (((dat0 (V1 m ρ) c).arrAt_in 6 rfl _).trans (A_eq0 (V1 m ρ) c 6))
    _ = m ((c : Thread nD τ).loc main_arg9) := rfl
theorem W4_main_arg10 (c : Dev nD) : W4 m ρ c (Proc.devRef .tc main_arg10) = m ((c : Thread nD τ).loc main_arg10) :=
  calc W4 m ρ c (Proc.devRef .tc main_arg10)
    _ = W2 m ρ c (Proc.devRef .tc main_arg10) := W4_of_ne m ρ c main_arg10 (by decide)
    _ = W0 m ρ c (Proc.devRef .tc main_arg10) := (W2_arr m ρ c 7).trans (((dat0 (V1 m ρ) c).arrAt_in 7 rfl _).trans (A_eq0 (V1 m ρ) c 7))
    _ = m ((c : Thread nD τ).loc main_arg10) := rfl
theorem W4_main_arg11 (c : Dev nD) : W4 m ρ c (Proc.devRef .tc main_arg11) = m ((c : Thread nD τ).loc main_arg11) :=
  calc W4 m ρ c (Proc.devRef .tc main_arg11)
    _ = W2 m ρ c (Proc.devRef .tc main_arg11) := W4_of_ne m ρ c main_arg11 (by decide)
    _ = W0 m ρ c (Proc.devRef .tc main_arg11) := (W2_arr m ρ c 8).trans (((dat0 (V1 m ρ) c).arrAt_in 8 rfl _).trans (A_eq0 (V1 m ρ) c 8))
    _ = m ((c : Thread nD τ).loc main_arg11) := rfl
theorem W4_main_arg12 (c : Dev nD) : W4 m ρ c (Proc.devRef .tc main_arg12) = m ((c : Thread nD τ).loc main_arg12) :=
  calc W4 m ρ c (Proc.devRef .tc main_arg12)
    _ = W2 m ρ c (Proc.devRef .tc main_arg12) := W4_of_ne m ρ c main_arg12 (by decide)
    _ = W0 m ρ c (Proc.devRef .tc main_arg12) := (W2_arr m ρ c 9).trans (((dat0 (V1 m ρ) c).arrAt_in 9 rfl _).trans (A_eq0 (V1 m ρ) c 9))
    _ = m ((c : Thread nD τ).loc main_arg12) := rfl
theorem W4_main_arg13 (c : Dev nD) : W4 m ρ c (Proc.devRef .tc main_arg13) = m ((c : Thread nD τ).loc main_arg13) :=
  calc W4 m ρ c (Proc.devRef .tc main_arg13)
    _ = W2 m ρ c (Proc.devRef .tc main_arg13) := (W4_arr m ρ c 3).trans (((dat1 (V2 m ρ) c).arrAt_in 3 rfl _).trans (A_eq1 (V2 m ρ) c 3))
    _ = W0 m ρ c (Proc.devRef .tc main_arg13) := W2_of_ne m ρ c main_arg13 (by decide)
    _ = m ((c : Thread nD τ).loc main_arg13) := rfl
theorem W4_main_arg14 (c : Dev nD) : W4 m ρ c (Proc.devRef .tc main_arg14) = m ((c : Thread nD τ).loc main_arg14) :=
  calc W4 m ρ c (Proc.devRef .tc main_arg14)
    _ = W2 m ρ c (Proc.devRef .tc main_arg14) := (W4_arr m ρ c 4).trans (((dat1 (V2 m ρ) c).arrAt_in 4 rfl _).trans (A_eq1 (V2 m ρ) c 4))
    _ = W0 m ρ c (Proc.devRef .tc main_arg14) := W2_of_ne m ρ c main_arg14 (by decide)
    _ = m ((c : Thread nD τ).loc main_arg14) := rfl
theorem W4_main_arg15 (c : Dev nD) : W4 m ρ c (Proc.devRef .tc main_arg15) = m ((c : Thread nD τ).loc main_arg15) :=
  calc W4 m ρ c (Proc.devRef .tc main_arg15)
    _ = W2 m ρ c (Proc.devRef .tc main_arg15) := (W4_arr m ρ c 5).trans (((dat1 (V2 m ρ) c).arrAt_in 5 rfl _).trans (A_eq1 (V2 m ρ) c 5))
    _ = W0 m ρ c (Proc.devRef .tc main_arg15) := W2_of_ne m ρ c main_arg15 (by decide)
    _ = m ((c : Thread nD τ).loc main_arg15) := rfl
theorem W4_main_arg16 (c : Dev nD) : W4 m ρ c (Proc.devRef .tc main_arg16) = m ((c : Thread nD τ).loc main_arg16) :=
  calc W4 m ρ c (Proc.devRef .tc main_arg16)
    _ = W2 m ρ c (Proc.devRef .tc main_arg16) := (W4_arr m ρ c 6).trans (((dat1 (V2 m ρ) c).arrAt_in 6 rfl _).trans (A_eq1 (V2 m ρ) c 6))
    _ = W0 m ρ c (Proc.devRef .tc main_arg16) := W2_of_ne m ρ c main_arg16 (by decide)
    _ = m ((c : Thread nD τ).loc main_arg16) := rfl

/-- The result array ends at what the second region's write-backs leave. -/
theorem W4_main_v1 (c : Dev nD) : W4 m ρ c (Proc.devRef .tc main_v1) = (dat1 (V2 m ρ) c).arrAt 9 cfg1.N :=
  W4_arr m ρ c 9

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ), .region (reg1 m ρ) ]
theorem main_run (c : Dev nD) : main (F := F) c = Pipeline.Seg.run (segs m ρ) := (main_chain c).trans (by chain_rfl)

set_option backward.isDefEq.respectTransparency.types false in
/-- THE RUN: every weakly fair execution of @main terminates, nothing faulting, and every final state has every
    unscoped buffer at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME, at any `F`: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨(h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c),
    (h c _ (mem_uc main_arg9 (by decide))).trans (W4_main_arg9 m ρ c),
    (h c _ (mem_uc main_arg10 (by decide))).trans (W4_main_arg10 m ρ c),
    (h c _ (mem_uc main_arg11 (by decide))).trans (W4_main_arg11 m ρ c),
    (h c _ (mem_uc main_arg12 (by decide))).trans (W4_main_arg12 m ρ c),
    (h c _ (mem_uc main_arg13 (by decide))).trans (W4_main_arg13 m ρ c),
    (h c _ (mem_uc main_arg14 (by decide))).trans (W4_main_arg14 m ρ c),
    (h c _ (mem_uc main_arg15 (by decide))).trans (W4_main_arg15 m ρ c),
    (h c _ (mem_uc main_arg16 (by decide))).trans (W4_main_arg16 m ρ c)⟩) (run_all m ρ)

/-- THE RUN WITH ITS RESULT: the result array ends at what the second region's write-backs leave, the arguments as launched. -/
theorem run_value : θ_run defs (onTc (τ := τ) (main (F := F))) ⟨m, fun _ => 0, ρ⟩ (fun r => ∀ c : Dev nD,
      r.2.mem ((c.tc : Thread nD τ).loc main_v1) = (dat1 (V2 m ρ) c).arrAt 9 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨(h c _ (mem_uc main_v1 (by decide))).trans (W4_main_v1 m ρ c), (h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c),
    (h c _ (mem_uc main_arg9 (by decide))).trans (W4_main_arg9 m ρ c),
    (h c _ (mem_uc main_arg10 (by decide))).trans (W4_main_arg10 m ρ c),
    (h c _ (mem_uc main_arg11 (by decide))).trans (W4_main_arg11 m ρ c),
    (h c _ (mem_uc main_arg12 (by decide))).trans (W4_main_arg12 m ρ c),
    (h c _ (mem_uc main_arg13 (by decide))).trans (W4_main_arg13 m ρ c),
    (h c _ (mem_uc main_arg14 (by decide))).trans (W4_main_arg14 m ρ c),
    (h c _ (mem_uc main_arg15 (by decide))).trans (W4_main_arg15 m ρ c),
    (h c _ (mem_uc main_arg16 (by decide))).trans (W4_main_arg16 m ρ c)⟩) (run_all m ρ)

end Cert.Kernel.Hand

end
-- ==== Proof.IdealR0Defs.lean ====
import proofs.«137963_j12481174962634_2_alg».proof.Proof.Gen.KernelIdeal.Launch
import proofs.«137963_j12481174962634_2_alg».proof.Proof.Gen.KernelIdeal.Skeleton
import proofs.«137963_j12481174962634_2_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! The first kernel's two branch conditions, read off the grid coordinates: the accumulators are reset at the
    first tile of each (batch, head) pair and the softmax is written at the last. -/

abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

end Cert.KernelIdeal.Hand

end
-- ==== Proof.IdealRun0A.lean ====
import proofs.«137963_j12481174962634_2_alg».proof.Proof.IdealR0Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! The first kernel's body at the first tile of a (batch, head) pair: both accumulators are zeroed, then each takes
    its tile's product.  The output blocks are not touched. -/

set_option maxHeartbeats 4000000 in
noncomputable def kernelRun0_A (c : Dev nD) (i : grid0.Coords) (arg3 : Memref sig .tc .vmem S1x2048x256 .f32) (harg3 : arg3.IsWhole) (arg4 : Memref sig .tc .vmem S1x2048x256 .f32) (harg4 : arg4.IsWhole) (arg5 : Memref sig .tc .vmem S256 .f32) (harg5 : arg5.IsWhole) (arg6 : Memref sig .tc .vmem S256 .f32) (harg6 : arg6.IsWhole) (arg7 : Memref sig .tc .vmem S256 .f32) (harg7 : arg7.IsWhole) (arg8 : Memref sig .tc .vmem S256 .f32) (harg8 : arg8.IsWhole) (arg9 : Memref sig .tc .vmem S256 .f32) (harg9 : arg9.IsWhole) (arg10 : Memref sig .tc .vmem S256 .f32) (harg10 : arg10.IsWhole) (arg11 : Memref sig .tc .vmem S256 .f32) (harg11 : arg11.IsWhole) (arg12 : Memref sig .tc .vmem S256 .f32) (harg12 : arg12.IsWhole) (arg13 : Memref sig .tc .vmem S1x1x256x256 .f32) (harg13 : arg13.IsWhole) (arg14 : Memref sig .tc .vmem S1x1x256x256 .f32) (harg14 : arg14.IsWhole) (arg15 : Memref sig .tc .vmem S256x256 .f32) (harg15 : arg15.IsWhole) (arg16 : Memref sig .tc .vmem S256x256 .f32) (harg16 : arg16.IsWhole) (hc0 : cond0_0 i) (hc1 : ¬cond0_1 i)
    (x0 : Vec F S1x2048x256 .f32) (x1 : Vec F S1x2048x256 .f32) (x2 : Vec F S256 .f32) (x3 : Vec F S256 .f32) (x4 : Vec F S256 .f32) (x5 : Vec F S256 .f32) (x6 : Vec F S256 .f32) (x7 : Vec F S256 .f32) (x8 : Vec F S256 .f32) (x9 : Vec F S256 .f32) :
    Σ' (LS0 : List (View.Piece (Elt F) S256x256 .f32)), { LS1 : List (View.Piece (Elt F) S256x256 .f32) //
      ∀ (xi10 xi11 : Vec F S1x1x256x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare xi10 ∗ owns (c : Thread nD τ) arg14 fullShare xi11 ∗ (∃ d, owns (c : Thread nD τ) arg15 fullShare d) ∗ (∃ d, owns (c : Thread nD τ) arg16 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare xi10 ∗ owns (c : Thread nD τ) arg14 fullShare xi11 ∗ (∃ f, arg15.view.loc (c : Thread nD τ) ↦[arg15.view.set]{fullShare} arg15.view.writes (Elt F) f LS0) ∗ (∃ f, arg16.view.loc (c : Thread nD τ) ↦[arg16.view.set]{fullShare} arg16.view.writes (Elt F) f LS1)) -∗ K ⟨⟩))
          ⊢ wp frame (wpE (defs₀ (F := F)) Variants.none c none) E (cc0__attn_scores_kernel i arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, fun xi10 xi11 E K => ?run⟩
  case run =>
    simp only [cc0__attn_scores_kernel_eq_skeleton]; unfold cc0__attn_scores_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [HS0]; · iexists _; iexact HS0
    iexists _; iexact HS1

end Cert.KernelIdeal.Hand

end
-- ==== Proof.IdealRun0B.lean ====
import proofs.«137963_j12481174962634_2_alg».proof.Proof.IdealR0Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! The first kernel's body at a middle tile: each accumulator, at what the tile before left, takes its tile's
    product.  The output blocks are not touched. -/

set_option maxHeartbeats 4000000 in
noncomputable def kernelRun0_B (c : Dev nD) (i : grid0.Coords) (arg3 : Memref sig .tc .vmem S1x2048x256 .f32) (harg3 : arg3.IsWhole) (arg4 : Memref sig .tc .vmem S1x2048x256 .f32) (harg4 : arg4.IsWhole) (arg5 : Memref sig .tc .vmem S256 .f32) (harg5 : arg5.IsWhole) (arg6 : Memref sig .tc .vmem S256 .f32) (harg6 : arg6.IsWhole) (arg7 : Memref sig .tc .vmem S256 .f32) (harg7 : arg7.IsWhole) (arg8 : Memref sig .tc .vmem S256 .f32) (harg8 : arg8.IsWhole) (arg9 : Memref sig .tc .vmem S256 .f32) (harg9 : arg9.IsWhole) (arg10 : Memref sig .tc .vmem S256 .f32) (harg10 : arg10.IsWhole) (arg11 : Memref sig .tc .vmem S256 .f32) (harg11 : arg11.IsWhole) (arg12 : Memref sig .tc .vmem S256 .f32) (harg12 : arg12.IsWhole) (arg13 : Memref sig .tc .vmem S1x1x256x256 .f32) (harg13 : arg13.IsWhole) (arg14 : Memref sig .tc .vmem S1x1x256x256 .f32) (harg14 : arg14.IsWhole) (arg15 : Memref sig .tc .vmem S256x256 .f32) (harg15 : arg15.IsWhole) (arg16 : Memref sig .tc .vmem S256x256 .f32) (harg16 : arg16.IsWhole) (hc0 : ¬cond0_0 i) (hc1 : ¬cond0_1 i)
    (x0 : Vec F S1x2048x256 .f32) (x1 : Vec F S1x2048x256 .f32) (x2 : Vec F S256 .f32) (x3 : Vec F S256 .f32) (x4 : Vec F S256 .f32) (x5 : Vec F S256 .f32) (x6 : Vec F S256 .f32) (x7 : Vec F S256 .f32) (x8 : Vec F S256 .f32) (x9 : Vec F S256 .f32) (xs0 xs1 : Vec F S256x256 .f32) :
    Σ' (LS0 : List (View.Piece (Elt F) S256x256 .f32)), { LS1 : List (View.Piece (Elt F) S256x256 .f32) //
      ∀ (xi10 xi11 : Vec F S1x1x256x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare xi10 ∗ owns (c : Thread nD τ) arg14 fullShare xi11 ∗ owns (c : Thread nD τ) arg15 fullShare xs0 ∗ owns (c : Thread nD τ) arg16 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare xi10 ∗ owns (c : Thread nD τ) arg14 fullShare xi11 ∗ (∃ f, arg15.view.loc (c : Thread nD τ) ↦[arg15.view.set]{fullShare} arg15.view.writes (Elt F) f LS0) ∗ (∃ f, arg16.view.loc (c : Thread nD τ) ↦[arg16.view.set]{fullShare} arg16.view.writes (Elt F) f LS1)) -∗ K ⟨⟩))
          ⊢ wp frame (wpE (defs₀ (F := F)) Variants.none c none) E (cc0__attn_scores_kernel i arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, fun xi10 xi11 E K => ?run⟩
  case run =>
    simp only [cc0__attn_scores_kernel_eq_skeleton]; unfold cc0__attn_scores_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hfs0; obtain rfl := harg16.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [HS0]; · iexists _; iexact HS0
    iexists _; iexact HS1

end Cert.KernelIdeal.Hand

end
-- ==== Proof.IdealRun0C.lean ====
import proofs.«137963_j12481174962634_2_alg».proof.Proof.IdealR0Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! The first kernel's body at the last tile: each accumulator takes its tile's product and the row softmax of the
    scaled total is stored into the output block, whole. -/

set_option maxHeartbeats 4000000 in
noncomputable def kernelRun0_C (c : Dev nD) (i : grid0.Coords) (arg3 : Memref sig .tc .vmem S1x2048x256 .f32) (harg3 : arg3.IsWhole) (arg4 : Memref sig .tc .vmem S1x2048x256 .f32) (harg4 : arg4.IsWhole) (arg5 : Memref sig .tc .vmem S256 .f32) (harg5 : arg5.IsWhole) (arg6 : Memref sig .tc .vmem S256 .f32) (harg6 : arg6.IsWhole) (arg7 : Memref sig .tc .vmem S256 .f32) (harg7 : arg7.IsWhole) (arg8 : Memref sig .tc .vmem S256 .f32) (harg8 : arg8.IsWhole) (arg9 : Memref sig .tc .vmem S256 .f32) (harg9 : arg9.IsWhole) (arg10 : Memref sig .tc .vmem S256 .f32) (harg10 : arg10.IsWhole) (arg11 : Memref sig .tc .vmem S256 .f32) (harg11 : arg11.IsWhole) (arg12 : Memref sig .tc .vmem S256 .f32) (harg12 : arg12.IsWhole) (arg13 : Memref sig .tc .vmem S1x1x256x256 .f32) (harg13 : arg13.IsWhole) (arg14 : Memref sig .tc .vmem S1x1x256x256 .f32) (harg14 : arg14.IsWhole) (arg15 : Memref sig .tc .vmem S256x256 .f32) (harg15 : arg15.IsWhole) (arg16 : Memref sig .tc .vmem S256x256 .f32) (harg16 : arg16.IsWhole) (hc0 : ¬cond0_0 i) (hc1 : cond0_1 i)
    (x0 : Vec F S1x2048x256 .f32) (x1 : Vec F S1x2048x256 .f32) (x2 : Vec F S256 .f32) (x3 : Vec F S256 .f32) (x4 : Vec F S256 .f32) (x5 : Vec F S256 .f32) (x6 : Vec F S256 .f32) (x7 : Vec F S256 .f32) (x8 : Vec F S256 .f32) (x9 : Vec F S256 .f32) (xs0 xs1 : Vec F S256x256 .f32) :
    Σ' (L10 : List (View.Piece (Elt F) S1x1x256x256 .f32)) (L11 : List (View.Piece (Elt F) S1x1x256x256 .f32)) (LS0 : List (View.Piece (Elt F) S256x256 .f32)), { LS1 : List (View.Piece (Elt F) S256x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ d, owns (c : Thread nD τ) arg13 fullShare d) ∗ (∃ d, owns (c : Thread nD τ) arg14 fullShare d) ∗ owns (c : Thread nD τ) arg15 fullShare xs0 ∗ owns (c : Thread nD τ) arg16 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ f, arg13.view.loc (c : Thread nD τ) ↦[arg13.view.set]{fullShare} arg13.view.writes (Elt F) f L10) ∗ (∃ f, arg14.view.loc (c : Thread nD τ) ↦[arg14.view.set]{fullShare} arg14.view.writes (Elt F) f L11) ∗ (∃ f, arg15.view.loc (c : Thread nD τ) ↦[arg15.view.set]{fullShare} arg15.view.writes (Elt F) f LS0) ∗ (∃ f, arg16.view.loc (c : Thread nD τ) ↦[arg16.view.set]{fullShare} arg16.view.writes (Elt F) f LS1)) -∗ K ⟨⟩))
          ⊢ wp frame (wpE (defs₀ (F := F)) Variants.none c none) E (cc0__attn_scores_kernel i arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, fun E K => ?run⟩
  case run =>
    simp only [cc0__attn_scores_kernel_eq_skeleton]; unfold cc0__attn_scores_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg15.eq_unread hfs0; obtain rfl := harg16.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]; · iexists _; iexact H10
    isplitl [H11]; · iexists _; iexact H11
    isplitl [HS0]; · iexists _; iexact HS0
    iexists _; iexact HS1

end Cert.KernelIdeal.Hand

end
-- ==== Proof.IdealFrame0.lean ====
import proofs.«137963_j12481174962634_2_alg».proof.Proof.IdealRun0A
import proofs.«137963_j12481174962634_2_alg».proof.Proof.IdealRun0B
import proofs.«137963_j12481174962634_2_alg».proof.Proof.IdealRun0C

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! The first kernel over its grid.  At each (batch, head) pair the eight tiles are visited in order: the two score
    accumulators (scratch) are zeroed at the first tile, take one tile's product at every tile, and at the last tile
    their scaled row softmax is stored into the two output blocks, which are written back there and nowhere else. -/

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

/-! ## Where the output windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem liveAt0_8 : ∀ t : Fin cfg0.N, cfg0.idle 8 (grid0.coords t) = false := by decide +kernel
theorem liveAt0_9 : ∀ t : Fin cfg0.N, cfg0.idle 9 (grid0.coords t) = false := by decide +kernel
theorem idleAt0_10 : ∀ t : Fin cfg0.N, ¬cond0_1 (grid0.coords t) → cfg0.idle 10 (grid0.coords t) = true := by decide +kernel
theorem noFlush0_10 : ∀ t : Fin cfg0.N, ¬cond0_1 (grid0.coords t) → (cfg0.win 10).flush t = false := by decide +kernel
theorem liveAt0_10 : ∀ t : Fin cfg0.N, cond0_1 (grid0.coords t) → cfg0.idle 10 (grid0.coords t) = false := by decide +kernel
theorem idleAt0_11 : ∀ t : Fin cfg0.N, ¬cond0_1 (grid0.coords t) → cfg0.idle 11 (grid0.coords t) = true := by decide +kernel
theorem noFlush0_11 : ∀ t : Fin cfg0.N, ¬cond0_1 (grid0.coords t) → (cfg0.win 11).flush t = false := by decide +kernel
theorem liveAt0_11 : ∀ t : Fin cfg0.N, cond0_1 (grid0.coords t) → cfg0.idle 11 (grid0.coords t) = false := by decide +kernel

/-! ## The memrefs the body is called with at a point -/

abbrev ms0_0 (t : Fin cfg0.N) := win0_0.stage (cfg0.slots t 0)
abbrev hs0_0 (t : Fin cfg0.N) : (ms0_0 t).IsWhole := hstage0_0 ((cfg0.slots t 0).cast nbuf0_0)
abbrev ms0_1 (t : Fin cfg0.N) := win0_1.stage (cfg0.slots t 1)
abbrev hs0_1 (t : Fin cfg0.N) : (ms0_1 t).IsWhole := hstage0_1 ((cfg0.slots t 1).cast nbuf0_1)
abbrev ms0_2 (t : Fin cfg0.N) := win0_2.stage (cfg0.slots t 2)
abbrev hs0_2 (t : Fin cfg0.N) : (ms0_2 t).IsWhole := hstage0_2 ((cfg0.slots t 2).cast nbuf0_2)
abbrev ms0_3 (t : Fin cfg0.N) := win0_3.stage (cfg0.slots t 3)
abbrev hs0_3 (t : Fin cfg0.N) : (ms0_3 t).IsWhole := hstage0_3 ((cfg0.slots t 3).cast nbuf0_3)
abbrev ms0_4 (t : Fin cfg0.N) := win0_4.stage (cfg0.slots t 4)
abbrev hs0_4 (t : Fin cfg0.N) : (ms0_4 t).IsWhole := hstage0_4 ((cfg0.slots t 4).cast nbuf0_4)
abbrev ms0_5 (t : Fin cfg0.N) := win0_5.stage (cfg0.slots t 5)
abbrev hs0_5 (t : Fin cfg0.N) : (ms0_5 t).IsWhole := hstage0_5 ((cfg0.slots t 5).cast nbuf0_5)
abbrev ms0_6 (t : Fin cfg0.N) := win0_6.stage (cfg0.slots t 6)
abbrev hs0_6 (t : Fin cfg0.N) : (ms0_6 t).IsWhole := hstage0_6 ((cfg0.slots t 6).cast nbuf0_6)
abbrev ms0_7 (t : Fin cfg0.N) := win0_7.stage (cfg0.slots t 7)
abbrev hs0_7 (t : Fin cfg0.N) : (ms0_7 t).IsWhole := hstage0_7 ((cfg0.slots t 7).cast nbuf0_7)
abbrev ms0_8 (t : Fin cfg0.N) := win0_8.stage (cfg0.slots t 8)
abbrev hs0_8 (t : Fin cfg0.N) : (ms0_8 t).IsWhole := hstage0_8 ((cfg0.slots t 8).cast nbuf0_8)
abbrev ms0_9 (t : Fin cfg0.N) := win0_9.stage (cfg0.slots t 9)
abbrev hs0_9 (t : Fin cfg0.N) : (ms0_9 t).IsWhole := hstage0_9 ((cfg0.slots t 9).cast nbuf0_9)
abbrev ms0_10 (t : Fin cfg0.N) := win0_10.stage (cfg0.slots t 10)
abbrev hs0_10 (t : Fin cfg0.N) : (ms0_10 t).IsWhole := hstage0_10 ((cfg0.slots t 10).cast nbuf0_10)
abbrev ms0_11 (t : Fin cfg0.N) := win0_11.stage (cfg0.slots t 11)
abbrev hs0_11 (t : Fin cfg0.N) : (ms0_11 t).IsWhole := hstage0_11 ((cfg0.slots t 11).cast nbuf0_11)
abbrev scM0_0 : Memref sig .tc .vmem S256x256 .f32 := Memref.whole cc0_scratch0
abbrev scM0_1 : Memref sig .tc .vmem S256x256 .f32 := Memref.whole cc0_scratch1
abbrev VS0_0 : View sig .tc .vmem S256x256 .f32 := scM0_0.view
abbrev VS0_1 : View sig .tc .vmem S256x256 .f32 := scM0_1.view
abbrev VO0_10 : View sig .tc .vmem S1x1x256x256 .f32 := (Memref.whole cc0_stg10_0 : Memref sig .tc .vmem S1x1x256x256 .f32).view
abbrev VO0_11 : View sig .tc .vmem S1x1x256x256 .f32 := (Memref.whole cc0_stg11_0 : Memref sig .tc .vmem S1x1x256x256 .f32).view

/-- The scoped buffers the first kernel never names: the second kernel's staging buffers, each at some contents. -/
def restScoped0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg8_1), ((c : Thread nD τ).loc cc1_stg8_1) ↦{fullShare} f) ∗ (∃ f : Buf (Elt F) ((c : Thread nD τ).loc cc1_stg9_0), ((c : Thread nD τ).loc cc1_stg9_0) ↦{fullShare} f) ∗ (∃ f : Buf (Elt F) ((c : Thread nD τ).loc cc1_stg9_1), ((c : Thread nD τ).loc cc1_stg9_1) ↦{fullShare} f))

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ restScoped0 (F := F) c) ∗ (∃ r, prngReg c r)) := by
  unfold Pipeline.ΦA restScoped0; rw [scopedRest0_eq]; simp only [scM0_0, scM0_1, owns_whole]; try rfl

/-! ## The three runs at a point of the grid -/

def runA (c : Dev nD) (t : Fin cfg0.N) (h0 : t.val % 8 = 0) (h1 : ¬t.val % 8 = 7) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
def runB (c : Dev nD) (t : Fin cfg0.N) (h0 : ¬t.val % 8 = 0) (h1 : ¬t.val % 8 = 7) (xs0 xs1 : Vec F S256x256 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) xs0 xs1
def runC (c : Dev nD) (t : Fin cfg0.N) (h0 : ¬t.val % 8 = 0) (h1 : t.val % 8 = 7) (xs0 xs1 : Vec F S256x256 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) xs0 xs1

theorem scoverA_0 (c : Dev nD) (t : Fin cfg0.N) (h0 : t.val % 8 = 0) (h1 : ¬t.val % 8 = 7) (y : S256x256.Idx) : ∃ pc ∈ (runA V c t h0 h1).1, y ∈ pc.1.set :=
  View.cover_of_tiledL (runA V c t h0 h1).1 S256x256.size (by sl_kernel_rfl) y
theorem scoverA_1 (c : Dev nD) (t : Fin cfg0.N) (h0 : t.val % 8 = 0) (h1 : ¬t.val % 8 = 7) (y : S256x256.Idx) : ∃ pc ∈ (runA V c t h0 h1).2.1, y ∈ pc.1.set :=
  View.cover_of_tiledL (runA V c t h0 h1).2.1 S256x256.size (by sl_kernel_rfl) y
theorem scoverB_0 (c : Dev nD) (t : Fin cfg0.N) (h0 : ¬t.val % 8 = 0) (h1 : ¬t.val % 8 = 7) (xs0 xs1) (y : S256x256.Idx) : ∃ pc ∈ (runB V c t h0 h1 xs0 xs1).1, y ∈ pc.1.set :=
  View.cover_of_tiledL (runB V c t h0 h1 xs0 xs1).1 S256x256.size (by sl_kernel_rfl) y
theorem scoverB_1 (c : Dev nD) (t : Fin cfg0.N) (h0 : ¬t.val % 8 = 0) (h1 : ¬t.val % 8 = 7) (xs0 xs1) (y : S256x256.Idx) : ∃ pc ∈ (runB V c t h0 h1 xs0 xs1).2.1, y ∈ pc.1.set :=
  View.cover_of_tiledL (runB V c t h0 h1 xs0 xs1).2.1 S256x256.size (by sl_kernel_rfl) y
theorem coverC_10 (c : Dev nD) (t : Fin cfg0.N) (h0 : ¬t.val % 8 = 0) (h1 : t.val % 8 = 7) (xs0 xs1) (y : S1x1x256x256.Idx) : ∃ pc ∈ (runC V c t h0 h1 xs0 xs1).1, y ∈ pc.1.set :=
  View.cover_of_tiledL (runC V c t h0 h1 xs0 xs1).1 S1x1x256x256.size (by sl_kernel_rfl) y
theorem coverC_11 (c : Dev nD) (t : Fin cfg0.N) (h0 : ¬t.val % 8 = 0) (h1 : t.val % 8 = 7) (xs0 xs1) (y : S1x1x256x256.Idx) : ∃ pc ∈ (runC V c t h0 h1 xs0 xs1).2.1, y ∈ pc.1.set :=
  View.cover_of_tiledL (runC V c t h0 h1 xs0 xs1).2.1 S1x1x256x256.size (by sl_kernel_rfl) y
theorem scoverC_0 (c : Dev nD) (t : Fin cfg0.N) (h0 : ¬t.val % 8 = 0) (h1 : t.val % 8 = 7) (xs0 xs1) (y : S256x256.Idx) : ∃ pc ∈ (runC V c t h0 h1 xs0 xs1).2.2.1, y ∈ pc.1.set :=
  View.cover_of_tiledL (runC V c t h0 h1 xs0 xs1).2.2.1 S256x256.size (by sl_kernel_rfl) y
theorem scoverC_1 (c : Dev nD) (t : Fin cfg0.N) (h0 : ¬t.val % 8 = 0) (h1 : t.val % 8 = 7) (xs0 xs1) (y : S256x256.Idx) : ∃ pc ∈ (runC V c t h0 h1 xs0 xs1).2.2.2.1, y ∈ pc.1.set :=
  View.cover_of_tiledL (runC V c t h0 h1 xs0 xs1).2.2.2.1 S256x256.size (by sl_kernel_rfl) y

/-- What each case leaves in the two accumulators: its pieces read back. -/
def soutA (c : Dev nD) (t : Fin cfg0.N) (h0 : t.val % 8 = 0) (h1 : ¬t.val % 8 = 7) : Vec F S256x256 .f32 × Vec F S256x256 .f32 :=
  (VS0_0.read (Elt F) (VS0_0.writes (Elt F) VS0_0.junk (runA V c t h0 h1).1), VS0_1.read (Elt F) (VS0_1.writes (Elt F) VS0_1.junk (runA V c t h0 h1).2.1))
def soutB (c : Dev nD) (t : Fin cfg0.N) (h0 : ¬t.val % 8 = 0) (h1 : ¬t.val % 8 = 7) (xs : Vec F S256x256 .f32 × Vec F S256x256 .f32) : Vec F S256x256 .f32 × Vec F S256x256 .f32 :=
  (VS0_0.read (Elt F) (VS0_0.writes (Elt F) VS0_0.junk (runB V c t h0 h1 xs.1 xs.2).1), VS0_1.read (Elt F) (VS0_1.writes (Elt F) VS0_1.junk (runB V c t h0 h1 xs.1 xs.2).2.1))
def soutC (c : Dev nD) (t : Fin cfg0.N) (h0 : ¬t.val % 8 = 0) (h1 : t.val % 8 = 7) (xs : Vec F S256x256 .f32 × Vec F S256x256 .f32) : Vec F S256x256 .f32 × Vec F S256x256 .f32 :=
  (VS0_0.read (Elt F) (VS0_0.writes (Elt F) VS0_0.junk (runC V c t h0 h1 xs.1 xs.2).2.2.1), VS0_1.read (Elt F) (VS0_1.writes (Elt F) VS0_1.junk (runC V c t h0 h1 xs.1 xs.2).2.2.2.1))
/-- What the last tile leaves in the two output blocks. -/
def outC (c : Dev nD) (t : Fin cfg0.N) (h0 : ¬t.val % 8 = 0) (h1 : t.val % 8 = 7) (xs : Vec F S256x256 .f32 × Vec F S256x256 .f32) : Vec F S1x1x256x256 .f32 × Vec F S1x1x256x256 .f32 :=
  (VO0_10.read (Elt F) (VO0_10.writes (Elt F) VO0_10.junk (runC V c t h0 h1 xs.1 xs.2).1), VO0_11.read (Elt F) (VO0_11.writes (Elt F) VO0_11.junk (runC V c t h0 h1 xs.1 xs.2).2.1))

/-- THE ACCUMULATION: what the two accumulators hold after the body at position `n`. -/
def scrAt0 (c : Dev nD) : (n : ℕ) → n < cfg0.N → Vec F S256x256 .f32 × Vec F S256x256 .f32
  | 0, hn => soutA V c ⟨0, hn⟩ (Nat.zero_mod _) (by show ¬ 0 % 8 = 7; decide)
  | n + 1, hn =>
    if h0 : (n + 1) % 8 = 0 then
      if h1 : (n + 1) % 8 = 7 then False.elim (by omega)
      else soutA V c ⟨n + 1, hn⟩ h0 h1
    else
      if h1 : (n + 1) % 8 = 7 then soutC V c ⟨n + 1, hn⟩ h0 h1 (scrAt0 c n (Nat.lt_of_succ_lt hn))
      else soutB V c ⟨n + 1, hn⟩ h0 h1 (scrAt0 c n (Nat.lt_of_succ_lt hn))

theorem scrAt0_A (c : Dev nD) (t : Fin cfg0.N) (h0 : t.val % 8 = 0) (h1 : ¬t.val % 8 = 7) :
    scrAt0 V c t.val t.isLt = soutA V c t h0 h1 := by
  obtain ⟨n, hn⟩ := t
  cases n with
  | zero => exact rfl
  | succ n => exact (dif_pos h0).trans ((dif_neg h1).trans rfl)
theorem scrAt0_B (c : Dev nD) (t : Fin cfg0.N) (h0 : ¬t.val % 8 = 0) (h1 : ¬t.val % 8 = 7) :
    scrAt0 V c t.val t.isLt = soutB V c t h0 h1 (scrAt0 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)
theorem scrAt0_C (c : Dev nD) (t : Fin cfg0.N) (h0 : ¬t.val % 8 = 0) (h1 : t.val % 8 = 7) :
    scrAt0 V c t.val t.isLt = soutC V c t h0 h1 (scrAt0 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- What the output blocks hold after the body at point `t`: the softmax pair at a last tile; elsewhere a placeholder
    nothing consults (the windows are idle there and not written back). -/
def outAt0 (c : Dev nD) (t : Fin cfg0.N) : Vec F S1x1x256x256 .f32 × Vec F S1x1x256x256 .f32 :=
  if h1 : t.val % 8 = 7 then
    outC V c t (by omega) h1 (scrAt0 V c (t.val - 1) (Nat.lt_of_le_of_lt (Nat.sub_le _ _) t.isLt))
  else (VO0_10.read (Elt F) VO0_10.junk, VO0_11.read (Elt F) VO0_11.junk)

/-- The region invariant before position `n`: before the first point every scoped buffer at anything; afterwards the
    two accumulators at what the point before left. -/
def PhiS (c : Dev nD) : (n : ℕ) → n ≤ cfg0.N → sProp 𝕄
  | 0, _ => Pipeline.ΦA spec0 c
  | n + 1, hn => iprop(iprop(owns (c : Thread nD τ) scM0_0 fullShare (scrAt0 V c n hn).1 ∗ owns (c : Thread nD τ) scM0_1 fullShare (scrAt0 V c n hn).2 ∗ restScoped0 (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare (scrAt0 V c n hn).1 ∗ owns (c : Thread nD τ) scM0_1 fullShare (scrAt0 V c n hn).2 ∗ restScoped0 (F := F) c) ∗ (∃ r, prngReg c r)) := rfl
theorem PhiS_pos (c : Dev nD) (n : ℕ) (h : n ≤ cfg0.N) (hz : n ≠ 0) :
    PhiS V c n h = iprop(iprop(owns (c : Thread nD τ) scM0_0 fullShare (scrAt0 V c (n - 1) (by omega)).1 ∗ owns (c : Thread nD τ) scM0_1 fullShare (scrAt0 V c (n - 1) (by omega)).2 ∗ restScoped0 (F := F) c) ∗ (∃ r, prngReg c r)) := by
  cases n with
  | zero => exact absurd rfl hz
  | succ n => rfl

/-- The proof data of the first pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => (outAt0 V c t).1
    | ⟨11, _⟩ => (outAt0 V c t).2
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = (outAt0 V c t).1 := by dsimp only [dat0]
theorem after0_11 (c : Dev nD) (t : Fin cfg0.N) : (dat0 V c).after 11 t = (outAt0 V c t).2 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d

end Region0

end Cert.KernelIdeal.Hand

end
-- ==== Proof.IdealBody0.lean ====
import proofs.«137963_j12481174962634_2_alg».proof.Proof.IdealFrame0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! The first kernel's body obligation at every point of its grid, by the case the point is in. -/

section Region0
variable (V : (c : Dev nD) → (b : Ref sig .tc) → Buf (Elt F) ((c : Thread nD τ).loc b))

theorem outAt0_C (c : Dev nD) (t : Fin cfg0.N) (h0 : ¬t.val % 8 = 0) (h1 : t.val % 8 = 7) :
    outAt0 V c t = outC V c t h0 h1 (scrAt0 V c (t.val - 1) (Nat.lt_of_le_of_lt (Nat.sub_le _ _) t.isLt)) := by
  unfold outAt0; rw [dif_pos h1]

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d))
    ∗ (∃ d, owns (c : Thread nD τ) (ms0_11 t) fullShare ((dat0 V c).before 11 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t
    ∗ (dat0 V c).leavesExact 11 t)

set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6 t], after0_6]
  rw [show (dat0 V c).leavesExact 7 t = owns (c : Thread nD τ) (ms0_7 t) fullShare ((dat0 V c).after 7 t) from by
    unfold Dat.leavesExact; rw [liveAt0_7 t], after0_7]
  rw [show (dat0 V c).leavesExact 8 t = owns (c : Thread nD τ) (ms0_8 t) fullShare ((dat0 V c).after 8 t) from by
    unfold Dat.leavesExact; rw [liveAt0_8 t], after0_8]
  rw [show (dat0 V c).leavesExact 9 t = owns (c : Thread nD τ) (ms0_9 t) fullShare ((dat0 V c).after 9 t) from by
    unfold Dat.leavesExact; rw [liveAt0_9 t], after0_9]
  by_cases h1 : t.val % 8 = 7
  · have h0 : ¬t.val % 8 = 0 := by omega
    have hz : t.val ≠ 0 := by omega
    rw [show (dat0 V c).leavesExact 10 t = owns (c : Thread nD τ) (ms0_10 t) fullShare ((dat0 V c).after 10 t) from by
      unfold Dat.leavesExact; rw [liveAt0_10 t ((hcond0_1 t).mpr h1)], after0_10]
    rw [show (dat0 V c).leavesExact 11 t = owns (c : Thread nD τ) (ms0_11 t) fullShare ((dat0 V c).after 11 t) from by
      unfold Dat.leavesExact; rw [liveAt0_11 t ((hcond0_1 t).mpr h1)], after0_11]
    rw [outAt0_C V c t h0 h1, scrAt0_C V c t h0 h1]
    unfold outC soutC; dsimp only
    rw [PhiS_castSucc V c t, PhiS_pos V c _ _ hz]
    iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((runC V c t h0 h1 _ _).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [HS0]; · iexact HS0
    isplitl [HS1]; · iexact HS1
    iintro ⟨H0, H1, H2, H3, H4, H5, H6, H7, H8, H9, ⟨%e10, H10⟩, ⟨%e11, H11⟩, ⟨%es0, HS0⟩, ⟨%es1, HS1⟩⟩
    isplitl [HS0 HS1 HR Hg]
    · isplitl [HS0 HS1 HR]
      · isplitl [HS0]
        · unfold owns; iexists _; isplitr
          swap; · iexact HS0
          ipureintro; exact View.read_writes_of_cover _ _ _ _ _ (scoverC_0 V c t h0 h1 _ _)
        isplitl [HS1]
        · unfold owns; iexists _; isplitr
          swap; · iexact HS1
          ipureintro; exact View.read_writes_of_cover _ _ _ _ _ (scoverC_1 V c t h0 h1 _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · unfold owns; iexists _; isplitr
      swap; · iexact H10
      ipureintro; exact View.read_writes_of_cover _ _ _ _ _ (coverC_10 V c t h0 h1 _ _)
    unfold owns; iexists _; isplitr
    swap; · iexact H11
    ipureintro; exact View.read_writes_of_cover _ _ _ _ _ (coverC_11 V c t h0 h1 _ _)
  · rw [Dat.leavesExact_idle (dat0 V c) 10 t (idleAt0_10 t (fun h => h1 ((hcond0_1 t).mp h))) (noFlush0_10 t (fun h => h1 ((hcond0_1 t).mp h)))]
    rw [Dat.leavesExact_idle (dat0 V c) 11 t (idleAt0_11 t (fun h => h1 ((hcond0_1 t).mp h))) (noFlush0_11 t (fun h => h1 ((hcond0_1 t).mp h)))]
    by_cases h0 : t.val % 8 = 0
    · rw [scrAt0_A V c t h0 h1]
      unfold soutA; dsimp only
      by_cases hz : t.val = 0
      · rw [PhiS_castSucc V c t, PhiS_zero V c _ _ hz, PhiA0_eq]
        iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((runA V c t h0 h1).2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [HS0]; · iexact HS0
        isplitl [HS1]; · iexact HS1
        iintro ⟨H0, H1, H2, H3, H4, H5, H6, H7, H8, H9, H10, H11, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scoverA_0 V c t h0 h1)
            isplitl [HS1]
            · unfold owns; iexists _; isplitr
              swap; · iexact HS1
              ipureintro; exact View.read_writes_of_cover _ _ _ _ _ (scoverA_1 V c t h0 h1)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        iexists _; iexact H11
      · rw [PhiS_castSucc V c t, PhiS_pos V c _ _ hz]
        iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((runA V c t h0 h1).2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [HS0]; · iexists _; iexact HS0
        isplitl [HS1]; · iexists _; iexact HS1
        iintro ⟨H0, H1, H2, H3, H4, H5, H6, H7, H8, H9, H10, H11, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scoverA_0 V c t h0 h1)
            isplitl [HS1]
            · unfold owns; iexists _; isplitr
              swap; · iexact HS1
              ipureintro; exact View.read_writes_of_cover _ _ _ _ _ (scoverA_1 V c t h0 h1)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        iexists _; iexact H11
    · have hz : t.val ≠ 0 := fun e => h0 (by rw [e])
      rw [scrAt0_B V c t h0 h1]
      unfold soutB; dsimp only
      rw [PhiS_castSucc V c t, PhiS_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runB V c t h0 h1 _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS0]; · iexact HS0
      isplitl [HS1]; · iexact HS1
      iintro ⟨H0, H1, H2, H3, H4, H5, H6, H7, H8, H9, H10, H11, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scoverB_0 V c t h0 h1 _ _)
          isplitl [HS1]
          · unfold owns; iexists _; isplitr
            swap; · iexact HS1
            ipureintro; exact View.read_writes_of_cover _ _ _ _ _ (scoverB_1 V c t h0 h1 _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      iexists _; iexact H11

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HR⟩, Hg⟩
  isplitl [HS0 HS1 HR]
  · isplitl [HS0]; · iexists _; iexact HS0
    isplitl [HS1]; · iexists _; iexact HS1
    iexact HR
  iexact Hg

theorem hout0 (c : Dev nD) : (dat0 V c).Φ (Fin.last cfg0.N) ⊢ Pipeline.ΦA spec0 c :=
  Phi_out0 V c _ (by rw [Fin.val_last]; have : cfg0.N = 64 := N_0; omega)

end Region0

end Cert.KernelIdeal.Hand

end
-- ==== Proof.IdealRun1.lean ====
import proofs.«137963_j12481174962634_2_alg».proof.Proof.Gen.KernelIdeal.Launch
import proofs.«137963_j12481174962634_2_alg».proof.Proof.Gen.KernelIdeal.Skeleton
import proofs.«137963_j12481174962634_2_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! The second kernel's body on whole staging memrefs: the nine input blocks are read, the output block is stored
    once, whole.  The pieces the store leaves are found by the run. -/

set_option maxHeartbeats 4000000 in
noncomputable def kernelRun1 (c : Dev nD) (i : grid1.Coords) (arg3 : Memref sig .tc .vmem S1x4096x256 .f32) (harg3 : arg3.IsWhole) (arg4 : Memref sig .tc .vmem S256 .f32) (harg4 : arg4.IsWhole) (arg5 : Memref sig .tc .vmem S256 .f32) (harg5 : arg5.IsWhole) (arg6 : Memref sig .tc .vmem S256 .f32) (harg6 : arg6.IsWhole) (arg7 : Memref sig .tc .vmem S256 .f32) (harg7 : arg7.IsWhole) (arg8 : Memref sig .tc .vmem S256 .f32) (harg8 : arg8.IsWhole) (arg9 : Memref sig .tc .vmem S256 .f32) (harg9 : arg9.IsWhole) (arg10 : Memref sig .tc .vmem S1x1x256x256 .f32) (harg10 : arg10.IsWhole) (arg11 : Memref sig .tc .vmem S1x1x256x256 .f32) (harg11 : arg11.IsWhole) (arg12 : Memref sig .tc .vmem S1x4096x256 .f32) (harg12 : arg12.IsWhole)
    (x0 : Vec F S1x4096x256 .f32) (x1 : Vec F S256 .f32) (x2 : Vec F S256 .f32) (x3 : Vec F S256 .f32) (x4 : Vec F S256 .f32) (x5 : Vec F S256 .f32) (x6 : Vec F S256 .f32) (x7 : Vec F S1x1x256x256 .f32) (x8 : Vec F S1x1x256x256 .f32) :
    { L9 : List (View.Piece (Elt F) S1x4096x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ f, arg12.view.loc (c : Thread nD τ) ↦[arg12.view.set]{fullShare} arg12.view.writes (Elt F) f L9)) -∗ K ⟨⟩))
          ⊢ wp frame (wpE (defs₀ (F := F)) Variants.none c none) E (cc1__attn_out_kernel i arg3 harg3 arg4 harg4 arg5 harg5 arg6 harg6 arg7 harg7 arg8 harg8 arg9 harg9 arg10 harg10 arg11 harg11 arg12 harg12) K } := by
  refine ⟨?_, fun E K => ?run⟩
  case run =>
    simp only [cc1__attn_out_kernel_eq_skeleton]; unfold cc1__attn_out_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    iexists _; iexact H9

end Cert.KernelIdeal.Hand

end
-- ==== Proof.IdealFrame1.lean ====
import proofs.«137963_j12481174962634_2_alg».proof.Proof.IdealRun1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! The second kernel over its grid: every point reads its nine input blocks and stores its output block, whole. -/

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

abbrev ms1_0 (t : Fin cfg1.N) := win1_0.stage (cfg1.slots t 0)
abbrev hs1_0 (t : Fin cfg1.N) : (ms1_0 t).IsWhole := hstage1_0 ((cfg1.slots t 0).cast nbuf1_0)
abbrev ms1_1 (t : Fin cfg1.N) := win1_1.stage (cfg1.slots t 1)
abbrev hs1_1 (t : Fin cfg1.N) : (ms1_1 t).IsWhole := hstage1_1 ((cfg1.slots t 1).cast nbuf1_1)
abbrev ms1_2 (t : Fin cfg1.N) := win1_2.stage (cfg1.slots t 2)
abbrev hs1_2 (t : Fin cfg1.N) : (ms1_2 t).IsWhole := hstage1_2 ((cfg1.slots t 2).cast nbuf1_2)
abbrev ms1_3 (t : Fin cfg1.N) := win1_3.stage (cfg1.slots t 3)
abbrev hs1_3 (t : Fin cfg1.N) : (ms1_3 t).IsWhole := hstage1_3 ((cfg1.slots t 3).cast nbuf1_3)
abbrev ms1_4 (t : Fin cfg1.N) := win1_4.stage (cfg1.slots t 4)
abbrev hs1_4 (t : Fin cfg1.N) : (ms1_4 t).IsWhole := hstage1_4 ((cfg1.slots t 4).cast nbuf1_4)
abbrev ms1_5 (t : Fin cfg1.N) := win1_5.stage (cfg1.slots t 5)
abbrev hs1_5 (t : Fin cfg1.N) : (ms1_5 t).IsWhole := hstage1_5 ((cfg1.slots t 5).cast nbuf1_5)
abbrev ms1_6 (t : Fin cfg1.N) := win1_6.stage (cfg1.slots t 6)
abbrev hs1_6 (t : Fin cfg1.N) : (ms1_6 t).IsWhole := hstage1_6 ((cfg1.slots t 6).cast nbuf1_6)
abbrev ms1_7 (t : Fin cfg1.N) := win1_7.stage (cfg1.slots t 7)
abbrev hs1_7 (t : Fin cfg1.N) : (ms1_7 t).IsWhole := hstage1_7 ((cfg1.slots t 7).cast nbuf1_7)
abbrev ms1_8 (t : Fin cfg1.N) := win1_8.stage (cfg1.slots t 8)
abbrev hs1_8 (t : Fin cfg1.N) : (ms1_8 t).IsWhole := hstage1_8 ((cfg1.slots t 8).cast nbuf1_8)
abbrev ms1_9 (t : Fin cfg1.N) := win1_9.stage (cfg1.slots t 9)
abbrev hs1_9 (t : Fin cfg1.N) : (ms1_9 t).IsWhole := hstage1_9 ((cfg1.slots t 9).cast nbuf1_9)
abbrev VO1_9 : View sig .tc .vmem S1x4096x256 .f32 := (Memref.whole cc1_stg9_0 : Memref sig .tc .vmem S1x4096x256 .f32).view

def run1 (c : Dev nD) (t : Fin cfg1.N) :=
  kernelRun1 (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (iblk1 V c 0 t) (iblk1 V c 1 t) (iblk1 V c 2 t) (iblk1 V c 3 t) (iblk1 V c 4 t) (iblk1 V c 5 t) (iblk1 V c 6 t) (iblk1 V c 7 t) (iblk1 V c 8 t)

theorem cover1_9 (c : Dev nD) (t : Fin cfg1.N) (y : S1x4096x256.Idx) : ∃ pc ∈ (run1 V c t).1, y ∈ pc.1.set :=
  View.cover_of_tiledL (run1 V c t).1 S1x4096x256.size (by sl_kernel_rfl) y

/-- What the body leaves in the output block at point `t`: its pieces read back. -/
def out1 (c : Dev nD) (t : Fin cfg1.N) : Vec F S1x4096x256 .f32 :=
  VO1_9.read (Elt F) (VO1_9.writes (Elt F) VO1_9.junk (run1 V c t).1)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1 V c t
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t))

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  unfold out1
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((run1 V c t).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, ⟨%e9, H9⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold owns; iexists _; isplitr
  swap; · iexact H9
  ipureintro; exact View.read_writes_of_cover _ _ _ _ _ (cover1_9 V c t)

theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.IdealMain.lean ====
import proofs.«137963_j12481174962634_2_alg».proof.Proof.IdealBody0
import proofs.«137963_j12481174962634_2_alg».proof.Proof.IdealFrame1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! The whole program: the two kernel regions one after the other.  Between them the unscoped buffers are held at
    what the first region's write-backs leave; at the end every unscoped buffer is read off the last valuation. -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
abbrev V1 : (c : Dev nD) → (b : Ref sig .tc) → Buf (Elt F) ((c : Thread nD τ).loc b) := fun c b => W0 m ρ c b
/-- After the first region: its arrays at what the pipeline leaves, every other buffer as entered. -/
def W2 (c : Dev nD) : Valuation τ sig (Elt F) :=
  Pipeline.withArrays spec0 c (W0 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W0 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second region. -/
def W4 (c : Dev nD) : Valuation τ sig (Elt F) :=
  Pipeline.withArrays spec1 c (W2 m ρ c) fun w => (dat1 (V2 m ρ) c).arrAt w cfg1.N
theorem W4_arr (c : Dev nD) (w : Fin cfg1.W) :
    W4 m ρ c (Proc.devRef .tc (Pipeline.arrRef spec1 w)) = (dat1 (V2 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W2 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V2 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V2 m ρ c b :=
  fun b hb => W4_of_ne m ρ c b fun w e => hb (Finset.mem_image.mpr ⟨w, Finset.mem_univ _, e⟩)

/-! ### The arguments end as launched -/

theorem W4_main_arg0 (c : Dev nD) : W4 m ρ c (Proc.devRef .tc main_arg0) = m ((c : Thread nD τ).loc main_arg0) :=
  calc W4 m ρ c (Proc.devRef .tc main_arg0)
    _ = W2 m ρ c (Proc.devRef .tc main_arg0) := W4_of_ne m ρ c main_arg0 (by decide)
    _ = W0 m ρ c (Proc.devRef .tc main_arg0) := (W2_arr m ρ c 0).trans (((dat0 (V1 m ρ) c).arrAt_in 0 rfl _).trans (A_eq0 (V1 m ρ) c 0))
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W2 m ρ c (Proc.devRef .tc main_arg1) := W4_of_ne m ρ c main_arg1 (by decide)
    _ = W0 m ρ c (Proc.devRef .tc main_arg1) := (W2_arr m ρ c 1).trans (((dat0 (V1 m ρ) c).arrAt_in 1 rfl _).trans (A_eq0 (V1 m ρ) c 1))
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W2 m ρ c (Proc.devRef .tc main_arg2) := (W4_arr m ρ c 0).trans (((dat1 (V2 m ρ) c).arrAt_in 0 rfl _).trans (A_eq1 (V2 m ρ) c 0))
    _ = W0 m ρ c (Proc.devRef .tc main_arg2) := W2_of_ne m ρ c main_arg2 (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W2 m ρ c (Proc.devRef .tc main_arg3) := W4_of_ne m ρ c main_arg3 (by decide)
    _ = W0 m ρ c (Proc.devRef .tc main_arg3) := (W2_arr m ρ c 2).trans (((dat0 (V1 m ρ) c).arrAt_in 2 rfl _).trans (A_eq0 (V1 m ρ) c 2))
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W2 m ρ c (Proc.devRef .tc main_arg4) := W4_of_ne m ρ c main_arg4 (by decide)
    _ = W0 m ρ c (Proc.devRef .tc main_arg4) := (W2_arr m ρ c 3).trans (((dat0 (V1 m ρ) c).arrAt_in 3 rfl _).trans (A_eq0 (V1 m ρ) c 3))
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W2 m ρ c (Proc.devRef .tc main_arg5) := W4_of_ne m ρ c main_arg5 (by decide)
    _ = W0 m ρ c (Proc.devRef .tc main_arg5) := (W2_arr m ρ c 4).trans (((dat0 (V1 m ρ) c).arrAt_in 4 rfl _).trans (A_eq0 (V1 m ρ) c 4))
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W2 m ρ c (Proc.devRef .tc main_arg6) := W4_of_ne m ρ c main_arg6 (by decide)
    _ = W0 m ρ c (Proc.devRef .tc main_arg6) := (W2_arr m ρ c 5).trans (((dat0 (V1 m ρ) c).arrAt_in 5 rfl _).trans (A_eq0 (V1 m ρ) c 5))
    _ = m ((c : Thread nD τ).loc main_arg6) := rfl
theorem W4_main_arg7 (c : Dev nD) : W4 m ρ c (Proc.devRef .tc main_arg7) = m ((c : Thread nD τ).loc main_arg7) :=
  calc W4 m ρ c (Proc.devRef .tc main_arg7)
    _ = W2 m ρ c (Proc.devRef .tc main_arg7) := (W4_arr m ρ c 1).trans (((dat1 (V2 m ρ) c).arrAt_in 1 rfl _).trans (A_eq1 (V2 m ρ) c 1))
    _ = W0 m ρ c (Proc.devRef .tc main_arg7) := W2_of_ne m ρ c main_arg7 (by decide)
    _ = m ((c : Thread nD τ).loc main_arg7) := rfl
theorem W4_main_arg8 (c : Dev nD) : W4 m ρ c (Proc.devRef .tc main_arg8) = m ((c : Thread nD τ).loc main_arg8) :=
  calc W4 m ρ c (Proc.devRef .tc main_arg8)
    _ = W2 m ρ c (Proc.devRef .tc main_arg8) := (W4_arr m ρ c 2).trans (((dat1 (V2 m ρ) c).arrAt_in 2 rfl _).trans (A_eq1 (V2 m ρ) c 2))
    _ = W0 m ρ c (Proc.devRef .tc main_arg8) := W2_of_ne m ρ c main_arg8 (by decide)
    _ = m ((c : Thread nD τ).loc main_arg8) := rfl
theorem W4_main_arg9 (c : Dev nD) : W4 m ρ c (Proc.devRef .tc main_arg9) = m ((c : Thread nD τ).loc main_arg9) :=
  calc W4 m ρ c (Proc.devRef .tc main_arg9)
    _ = W2 m ρ c (Proc.devRef .tc main_arg9) := W4_of_ne m ρ c main_arg9 (by decide)
    _ = W0 m ρ c (Proc.devRef .tc main_arg9) := (W2_arr m ρ c 6).trans (((dat0 (V1 m ρ) c).arrAt_in 6 rfl _).trans (A_eq0 (V1 m ρ) c 6))
    _ = m ((c : Thread nD τ).loc main_arg9) := rfl
theorem W4_main_arg10 (c : Dev nD) : W4 m ρ c (Proc.devRef .tc main_arg10) = m ((c : Thread nD τ).loc main_arg10) :=
  calc W4 m ρ c (Proc.devRef .tc main_arg10)
    _ = W2 m ρ c (Proc.devRef .tc main_arg10) := W4_of_ne m ρ c main_arg10 (by decide)
    _ = W0 m ρ c (Proc.devRef .tc main_arg10) := (W2_arr m ρ c 7).trans (((dat0 (V1 m ρ) c).arrAt_in 7 rfl _).trans (A_eq0 (V1 m ρ) c 7))
    _ = m ((c : Thread nD τ).loc main_arg10) := rfl
theorem W4_main_arg11 (c : Dev nD) : W4 m ρ c (Proc.devRef .tc main_arg11) = m ((c : Thread nD τ).loc main_arg11) :=
  calc W4 m ρ c (Proc.devRef .tc main_arg11)
    _ = W2 m ρ c (Proc.devRef .tc main_arg11) := W4_of_ne m ρ c main_arg11 (by decide)
    _ = W0 m ρ c (Proc.devRef .tc main_arg11) := (W2_arr m ρ c 8).trans (((dat0 (V1 m ρ) c).arrAt_in 8 rfl _).trans (A_eq0 (V1 m ρ) c 8))
    _ = m ((c : Thread nD τ).loc main_arg11) := rfl
theorem W4_main_arg12 (c : Dev nD) : W4 m ρ c (Proc.devRef .tc main_arg12) = m ((c : Thread nD τ).loc main_arg12) :=
  calc W4 m ρ c (Proc.devRef .tc main_arg12)
    _ = W2 m ρ c (Proc.devRef .tc main_arg12) := W4_of_ne m ρ c main_arg12 (by decide)
    _ = W0 m ρ c (Proc.devRef .tc main_arg12) := (W2_arr m ρ c 9).trans (((dat0 (V1 m ρ) c).arrAt_in 9 rfl _).trans (A_eq0 (V1 m ρ) c 9))
    _ = m ((c : Thread nD τ).loc main_arg12) := rfl
theorem W4_main_arg13 (c : Dev nD) : W4 m ρ c (Proc.devRef .tc main_arg13) = m ((c : Thread nD τ).loc main_arg13) :=
  calc W4 m ρ c (Proc.devRef .tc main_arg13)
    _ = W2 m ρ c (Proc.devRef .tc main_arg13) := (W4_arr m ρ c 3).trans (((dat1 (V2 m ρ) c).arrAt_in 3 rfl _).trans (A_eq1 (V2 m ρ) c 3))
    _ = W0 m ρ c (Proc.devRef .tc main_arg13) := W2_of_ne m ρ c main_arg13 (by decide)
    _ = m ((c : Thread nD τ).loc main_arg13) := rfl
theorem W4_main_arg14 (c : Dev nD) : W4 m ρ c (Proc.devRef .tc main_arg14) = m ((c : Thread nD τ).loc main_arg14) :=
  calc W4 m ρ c (Proc.devRef .tc main_arg14)
    _ = W2 m ρ c (Proc.devRef .tc main_arg14) := (W4_arr m ρ c 4).trans (((dat1 (V2 m ρ) c).arrAt_in 4 rfl _).trans (A_eq1 (V2 m ρ) c 4))
    _ = W0 m ρ c (Proc.devRef .tc main_arg14) := W2_of_ne m ρ c main_arg14 (by decide)
    _ = m ((c : Thread nD τ).loc main_arg14) := rfl
theorem W4_main_arg15 (c : Dev nD) : W4 m ρ c (Proc.devRef .tc main_arg15) = m ((c : Thread nD τ).loc main_arg15) :=
  calc W4 m ρ c (Proc.devRef .tc main_arg15)
    _ = W2 m ρ c (Proc.devRef .tc main_arg15) := (W4_arr m ρ c 5).trans (((dat1 (V2 m ρ) c).arrAt_in 5 rfl _).trans (A_eq1 (V2 m ρ) c 5))
    _ = W0 m ρ c (Proc.devRef .tc main_arg15) := W2_of_ne m ρ c main_arg15 (by decide)
    _ = m ((c : Thread nD τ).loc main_arg15) := rfl
theorem W4_main_arg16 (c : Dev nD) : W4 m ρ c (Proc.devRef .tc main_arg16) = m ((c : Thread nD τ).loc main_arg16) :=
  calc W4 m ρ c (Proc.devRef .tc main_arg16)
    _ = W2 m ρ c (Proc.devRef .tc main_arg16) := (W4_arr m ρ c 6).trans (((dat1 (V2 m ρ) c).arrAt_in 6 rfl _).trans (A_eq1 (V2 m ρ) c 6))
    _ = W0 m ρ c (Proc.devRef .tc main_arg16) := W2_of_ne m ρ c main_arg16 (by decide)
    _ = m ((c : Thread nD τ).loc main_arg16) := rfl

/-- The result array ends at what the second region's write-backs leave. -/
theorem W4_main_v1 (c : Dev nD) : W4 m ρ c (Proc.devRef .tc main_v1) = (dat1 (V2 m ρ) c).arrAt 9 cfg1.N :=
  W4_arr m ρ c 9

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ), .region (reg1 m ρ) ]
theorem main_run (c : Dev nD) : main (F := F) c = Pipeline.Seg.run (segs m ρ) := (main_chain c).trans (by chain_rfl)

set_option backward.isDefEq.respectTransparency.types false in
/-- THE RUN: every weakly fair execution of @main terminates, nothing faulting, and every final state has every
    unscoped buffer at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME, at any `F`: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨(h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c),
    (h c _ (mem_uc main_arg9 (by decide))).trans (W4_main_arg9 m ρ c),
    (h c _ (mem_uc main_arg10 (by decide))).trans (W4_main_arg10 m ρ c),
    (h c _ (mem_uc main_arg11 (by decide))).trans (W4_main_arg11 m ρ c),
    (h c _ (mem_uc main_arg12 (by decide))).trans (W4_main_arg12 m ρ c),
    (h c _ (mem_uc main_arg13 (by decide))).trans (W4_main_arg13 m ρ c),
    (h c _ (mem_uc main_arg14 (by decide))).trans (W4_main_arg14 m ρ c),
    (h c _ (mem_uc main_arg15 (by decide))).trans (W4_main_arg15 m ρ c),
    (h c _ (mem_uc main_arg16 (by decide))).trans (W4_main_arg16 m ρ c)⟩) (run_all m ρ)

/-- THE RUN WITH ITS RESULT: the result array ends at what the second region's write-backs leave, the arguments as launched. -/
theorem run_value : θ_run defs (onTc (τ := τ) (main (F := F))) ⟨m, fun _ => 0, ρ⟩ (fun r => ∀ c : Dev nD,
      r.2.mem ((c.tc : Thread nD τ).loc main_v1) = (dat1 (V2 m ρ) c).arrAt 9 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨(h c _ (mem_uc main_v1 (by decide))).trans (W4_main_v1 m ρ c), (h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c),
    (h c _ (mem_uc main_arg9 (by decide))).trans (W4_main_arg9 m ρ c),
    (h c _ (mem_uc main_arg10 (by decide))).trans (W4_main_arg10 m ρ c),
    (h c _ (mem_uc main_arg11 (by decide))).trans (W4_main_arg11 m ρ c),
    (h c _ (mem_uc main_arg12 (by decide))).trans (W4_main_arg12 m ρ c),
    (h c _ (mem_uc main_arg13 (by decide))).trans (W4_main_arg13 m ρ c),
    (h c _ (mem_uc main_arg14 (by decide))).trans (W4_main_arg14 m ρ c),
    (h c _ (mem_uc main_arg15 (by decide))).trans (W4_main_arg15 m ρ c),
    (h c _ (mem_uc main_arg16 (by decide))).trans (W4_main_arg16 m ρ c)⟩) (run_all m ρ)

end Cert.KernelIdeal.Hand

end
-- ==== Proof.Spec.lean ====
import Idealize.ShloMosaic.PureOps.Ideal
import Idealize.ShloMosaic.PureOps.Ideal.Laws
import Idealize.ShloMosaic.Lib.ValueIdx

noncomputable section

open scoped BigOperators

/-! # The function both programs compute

Channel attention with four heads of 256 channels over arrays of shape [2, 16384, 1024].  For a batch `b` and a head
`h`, the 256 × 256 score matrix is the sum over the 16384 positions of the products of the affinely mapped query and
key channels; its rows, scaled by 1/32, go through a softmax; the output at a position and a channel `d` of the head is
the sum over the head's channels `e` of the affinely mapped value at `e` times the attention weight at `(d, e)`.  The
global and the local branch (two sets of affine maps) are added, doubled, and mapped affinely once more. -/

namespace Cert.Spec

open Idealize.ShloMosaic Idealize.ShloMosaic.ValueIdx

/-- An activation array [2, 16384, 1024] and a per-channel vector [1024], as extended reals. -/
abbrev Act := (⟨3, ![2, 16384, 1024]⟩ : Shape).Idx → EReal
abbrev Chan := (⟨1, ![1024]⟩ : Shape).Idx → EReal

/-- Channel `d` of head `h`. -/
def ch (h : Fin 4) (d : Fin 256) : Fin 1024 := ⟨h.val * 256 + d.val, by omega⟩

/-- The per-channel affine map `x · w + b` at a batch, a position and a channel. -/
def aff (x : Act) (w b : Chan) (bb : Fin 2) (n : Fin 16384) (c : Fin 1024) : EReal :=
  x (ix3 bb n c) * w (ix1 c) + b (ix1 c)

/-- The score of channels `d` and `e` of head `h` in batch `bb`: the sum over all positions. -/
def score (q k : Act) (wq bq wk bk : Chan) (bb : Fin 2) (h : Fin 4) (d e : Fin 256) : EReal :=
  ∑ n : Fin 16384, aff q wq bq bb n (ch h d) * aff k wk bk bb n (ch h e)

/-- The softmax of a row of 256 extended reals, scaled first by the word 1/32, exactly as both programs spell it:
    the running maximum starts from the word of minus infinity and is taken once more against it. -/
def rowMax (s : Fin 256 → EReal) : EReal :=
  max (Ideal.ofBits .f32 0xFF800000#32) ((Finset.univ : Finset (Fin 256)).fold max (Ideal.ofBits .f32 0xFF800000#32) s)

def softmaxRow (s : Fin 256 → EReal) (e : Fin 256) : EReal :=
  Ideal.div (Ideal.exp (s e - rowMax s)) (∑ e' : Fin 256, Ideal.exp (s e' - rowMax s))

/-- The attention weight at `(d, e)` of head `h` in batch `bb`. -/
def attn (q k : Act) (wq bq wk bk : Chan) (bb : Fin 2) (h : Fin 4) (d e : Fin 256) : EReal :=
  softmaxRow (fun e' => score q k wq bq wk bk bb h d e' * Ideal.ofBits .f32 0x3D000000#32) e

/-- One branch's output at a batch, a position, a head and a channel of it. -/
def branch (q k v : Act) (wq bq wk bk wv bv : Chan) (bb : Fin 2) (n : Fin 16384) (h : Fin 4) (d : Fin 256) : EReal :=
  ∑ e : Fin 256, aff v wv bv bb n (ch h e) * attn q k wq bq wk bk bb h d e

/-- The result at a batch, a position, a head and a channel of it. -/
def outAt (q k v : Act) (wqg bqg wkg bkg wvg bvg wql bql wkl bkl wvl bvl wp bp : Chan)
    (bb : Fin 2) (n : Fin 16384) (h : Fin 4) (d : Fin 256) : EReal :=
  Ideal.ofBits .f32 0x40000000#32
      * (branch q k v wqg bqg wkg bkg wvg bvg bb n h d + branch q k v wql bql wkl bkl wvl bvl bb n h d)
    * wp (ix1 (ch h d)) + bp (ix1 (ch h d))

/-- The head and the channel within it of a channel index. -/
def headOf (c : Fin 1024) : Fin 4 := ⟨c.val / 256, by omega⟩
def subOf (c : Fin 1024) : Fin 256 := ⟨c.val % 256, Nat.mod_lt _ (by decide)⟩
theorem ch_headOf_subOf (c : Fin 1024) : ch (headOf c) (subOf c) = c := by
  apply Fin.ext; simp only [ch, headOf, subOf]; omega

/-- THE RESULT ARRAY: one function of the seventeen argument arrays, index by index. -/
def G (q k v : Act) (wqg bqg wkg bkg wvg bvg wql bql wkl bkl wvl bvl wp bp : Chan) : Act :=
  fun j => outAt q k v wqg bqg wkg bkg wvg bvg wql bql wkl bkl wvl bvl wp bp (j 0) (j 1) (headOf (j 2)) (subOf (j 2))

end Cert.Spec

end
-- ==== Proof.IdealValue0a.lean ====
import proofs.«137963_j12481174962634_2_alg».proof.Proof.IdealFrame0
import proofs.«137963_j12481174962634_2_alg».proof.Proof.Spec
import Idealize.ShloMosaic.Lib.Pipeline.Value
import Idealize.ShloMosaic.Lib.ValueIdx

set_option maxRecDepth 16384

noncomputable section

open scoped BigOperators

namespace Cert.KernelIdeal.Val0

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand Cert.Spec

/-! The first kernel's windows at a point of its grid.  Point `t` of the 64 is batch `t / 32`, head `t / 8 % 4`,
    tile `t % 8`: the query and key blocks are rows `tile · 2048 …` of the head's 256 channels, the vector blocks the
    head's 256 channels, the output blocks the head's 256 × 256 matrix. -/

variable (V : (c : Dev nD) → (b : Ref sig .tc) → Buf (Elt Ideal) ((c : Thread nD τ).loc b))

theorem lt64 (t : Fin cfg0.N) : t.val < 64 := lt_of_lt_of_eq t.isLt (show cfg0.N = 64 from N_0)

/-- The batch, the head and the position of row `n` of the tile, at point `t`. -/
def bbOf (t : Fin cfg0.N) : Fin 2 := ⟨t.val / 32, by have := lt64 t; omega⟩
def hOf (t : Fin cfg0.N) : Fin 4 := ⟨t.val / 8 % 4, Nat.mod_lt _ (by decide)⟩
def posOf (t : Fin cfg0.N) (n : Fin 2048) : Fin 16384 := ⟨t.val % 8 * 2048 + n.val, by have := n.isLt; omega⟩

/-- The printed index maps, decided once over the grid. -/
theorem idx_facts : ∀ t : Fin cfg0.N,
    win0_0.index t (0 : Fin 3) = t.val / 32 ∧ win0_0.index t (1 : Fin 3) = t.val % 8 ∧ win0_0.index t (2 : Fin 3) = t.val / 8 % 4
    ∧ win0_1.index t (0 : Fin 3) = t.val / 32 ∧ win0_1.index t (1 : Fin 3) = t.val % 8 ∧ win0_1.index t (2 : Fin 3) = t.val / 8 % 4
    ∧ win0_2.index t (0 : Fin 1) = t.val / 8 % 4
    ∧ win0_3.index t (0 : Fin 1) = t.val / 8 % 4
    ∧ win0_4.index t (0 : Fin 1) = t.val / 8 % 4
    ∧ win0_5.index t (0 : Fin 1) = t.val / 8 % 4
    ∧ win0_6.index t (0 : Fin 1) = t.val / 8 % 4
    ∧ win0_7.index t (0 : Fin 1) = t.val / 8 % 4
    ∧ win0_8.index t (0 : Fin 1) = t.val / 8 % 4
    ∧ win0_9.index t (0 : Fin 1) = t.val / 8 % 4
    ∧ win0_10.index t (0 : Fin 4) = t.val / 32 ∧ win0_10.index t (1 : Fin 4) = t.val / 8 % 4 ∧ win0_10.index t (2 : Fin 4) = 0 ∧ win0_10.index t (3 : Fin 4) = 0
    ∧ win0_11.index t (0 : Fin 4) = t.val / 32 ∧ win0_11.index t (1 : Fin 4) = t.val / 8 % 4 ∧ win0_11.index t (2 : Fin 4) = 0 ∧ win0_11.index t (3 : Fin 4) = 0 :=
  (by decide +kernel : ∀ t : Fin grid0.N, _)

/-- The query block at a point: rows of the tile, channels of the head. -/
theorem blk_q (c : Dev nD) (t : Fin cfg0.N) (n : Fin 2048) (d : Fin 256) :
    iblk0 V c 0 t (ix3 (0 : Fin 1) n d) = V c main_arg0 (ix3 (bbOf t) (posOf t n) (ch (hOf t) d)) := by
  have e := idx_facts t
  show V c main_arg0 (((cfg0.win 0).blk t).view.emb (ix3 (0 : Fin 1) n d)) = _
  refine congrArg (V c main_arg0) (funext fun a => Fin.ext ?_)
  match a with
  | ⟨0, _⟩ => show win0_0.index t (0 : Fin 3) * 1 + 1 * 0 = t.val / 32; omega
  | ⟨1, _⟩ => show win0_0.index t (1 : Fin 3) * 2048 + 1 * n.val = t.val % 8 * 2048 + n.val; omega
  | ⟨2, _⟩ => show win0_0.index t (2 : Fin 3) * 256 + 1 * d.val = t.val / 8 % 4 * 256 + d.val; omega

/-- The key block likewise. -/
theorem blk_k (c : Dev nD) (t : Fin cfg0.N) (n : Fin 2048) (d : Fin 256) :
    iblk0 V c 1 t (ix3 (0 : Fin 1) n d) = V c main_arg1 (ix3 (bbOf t) (posOf t n) (ch (hOf t) d)) := by
  have e := idx_facts t
  show V c main_arg1 (((cfg0.win 1).blk t).view.emb (ix3 (0 : Fin 1) n d)) = _
  refine congrArg (V c main_arg1) (funext fun a => Fin.ext ?_)
  match a with
  | ⟨0, _⟩ => show win0_1.index t (0 : Fin 3) * 1 + 1 * 0 = t.val / 32; omega
  | ⟨1, _⟩ => show win0_1.index t (1 : Fin 3) * 2048 + 1 * n.val = t.val % 8 * 2048 + n.val; omega
  | ⟨2, _⟩ => show win0_1.index t (2 : Fin 3) * 256 + 1 * d.val = t.val / 8 % 4 * 256 + d.val; omega

/-- A per-channel vector's block: the head's channels. -/
theorem blk_v2 (c : Dev nD) (t : Fin cfg0.N) (d : Fin 256) :
    iblk0 V c 2 t (ix1 d) = V c main_arg3 (ix1 (ch (hOf t) d)) := by
  have e := idx_facts t
  show V c main_arg3 (((cfg0.win 2).blk t).view.emb (ix1 d)) = _
  refine congrArg (V c main_arg3) (funext fun a => Fin.ext ?_)
  match a with
  | ⟨0, _⟩ => show win0_2.index t (0 : Fin 1) * 256 + 1 * d.val = t.val / 8 % 4 * 256 + d.val; omega
/-- A per-channel vector's block: the head's channels. -/
theorem blk_v3 (c : Dev nD) (t : Fin cfg0.N) (d : Fin 256) :
    iblk0 V c 3 t (ix1 d) = V c main_arg4 (ix1 (ch (hOf t) d)) := by
  have e := idx_facts t
  show V c main_arg4 (((cfg0.win 3).blk t).view.emb (ix1 d)) = _
  refine congrArg (V c main_arg4) (funext fun a => Fin.ext ?_)
  match a with
  | ⟨0, _⟩ => show win0_3.index t (0 : Fin 1) * 256 + 1 * d.val = t.val / 8 % 4 * 256 + d.val; omega
/-- A per-channel vector's block: the head's channels. -/
theorem blk_v4 (c : Dev nD) (t : Fin cfg0.N) (d : Fin 256) :
    iblk0 V c 4 t (ix1 d) = V c main_arg5 (ix1 (ch (hOf t) d)) := by
  have e := idx_facts t
  show V c main_arg5 (((cfg0.win 4).blk t).view.emb (ix1 d)) = _
  refine congrArg (V c main_arg5) (funext fun a => Fin.ext ?_)
  match a with
  | ⟨0, _⟩ => show win0_4.index t (0 : Fin 1) * 256 + 1 * d.val = t.val / 8 % 4 * 256 + d.val; omega
/-- A per-channel vector's block: the head's channels. -/
theorem blk_v5 (c : Dev nD) (t : Fin cfg0.N) (d : Fin 256) :
    iblk0 V c 5 t (ix1 d) = V c main_arg6 (ix1 (ch (hOf t) d)) := by
  have e := idx_facts t
  show V c main_arg6 (((cfg0.win 5).blk t).view.emb (ix1 d)) = _
  refine congrArg (V c main_arg6) (funext fun a => Fin.ext ?_)
  match a with
  | ⟨0, _⟩ => show win0_5.index t (0 : Fin 1) * 256 + 1 * d.val = t.val / 8 % 4 * 256 + d.val; omega
/-- A per-channel vector's block: the head's channels. -/
theorem blk_v6 (c : Dev nD) (t : Fin cfg0.N) (d : Fin 256) :
    iblk0 V c 6 t (ix1 d) = V c main_arg9 (ix1 (ch (hOf t) d)) := by
  have e := idx_facts t
  show V c main_arg9 (((cfg0.win 6).blk t).view.emb (ix1 d)) = _
  refine congrArg (V c main_arg9) (funext fun a => Fin.ext ?_)
  match a with
  | ⟨0, _⟩ => show win0_6.index t (0 : Fin 1) * 256 + 1 * d.val = t.val / 8 % 4 * 256 + d.val; omega
/-- A per-channel vector's block: the head's channels. -/
theorem blk_v7 (c : Dev nD) (t : Fin cfg0.N) (d : Fin 256) :
    iblk0 V c 7 t (ix1 d) = V c main_arg10 (ix1 (ch (hOf t) d)) := by
  have e := idx_facts t
  show V c main_arg10 (((cfg0.win 7).blk t).view.emb (ix1 d)) = _
  refine congrArg (V c main_arg10) (funext fun a => Fin.ext ?_)
  match a with
  | ⟨0, _⟩ => show win0_7.index t (0 : Fin 1) * 256 + 1 * d.val = t.val / 8 % 4 * 256 + d.val; omega
/-- A per-channel vector's block: the head's channels. -/
theorem blk_v8 (c : Dev nD) (t : Fin cfg0.N) (d : Fin 256) :
    iblk0 V c 8 t (ix1 d) = V c main_arg11 (ix1 (ch (hOf t) d)) := by
  have e := idx_facts t
  show V c main_arg11 (((cfg0.win 8).blk t).view.emb (ix1 d)) = _
  refine congrArg (V c main_arg11) (funext fun a => Fin.ext ?_)
  match a with
  | ⟨0, _⟩ => show win0_8.index t (0 : Fin 1) * 256 + 1 * d.val = t.val / 8 % 4 * 256 + d.val; omega
/-- A per-channel vector's block: the head's channels. -/
theorem blk_v9 (c : Dev nD) (t : Fin cfg0.N) (d : Fin 256) :
    iblk0 V c 9 t (ix1 d) = V c main_arg12 (ix1 (ch (hOf t) d)) := by
  have e := idx_facts t
  show V c main_arg12 (((cfg0.win 9).blk t).view.emb (ix1 d)) = _
  refine congrArg (V c main_arg12) (funext fun a => Fin.ext ?_)
  match a with
  | ⟨0, _⟩ => show win0_9.index t (0 : Fin 1) * 256 + 1 * d.val = t.val / 8 % 4 * 256 + d.val; omega

end Cert.KernelIdeal.Val0

end
-- ==== Proof.IdealPieces.lean ====
import proofs.«137963_j12481174962634_2_alg».proof.Proof.IdealFrame0
import proofs.«137963_j12481174962634_2_alg».proof.Proof.IdealFrame1
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! What each case of the two kernel bodies leaves in the buffers it stores into, as the store's payload of the
    blocks the body loaded: a whole-block store leaves its payload, and a load of a buffer just stored whole reads
    that payload back. -/

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

section
variable (c : Dev nD) (i : grid0.Coords) (arg3 : Memref sig .tc .vmem S1x2048x256 .f32) (harg3 : arg3.IsWhole) (arg4 : Memref sig .tc .vmem S1x2048x256 .f32) (harg4 : arg4.IsWhole) (arg5 : Memref sig .tc .vmem S256 .f32) (harg5 : arg5.IsWhole) (arg6 : Memref sig .tc .vmem S256 .f32) (harg6 : arg6.IsWhole) (arg7 : Memref sig .tc .vmem S256 .f32) (harg7 : arg7.IsWhole) (arg8 : Memref sig .tc .vmem S256 .f32) (harg8 : arg8.IsWhole) (arg9 : Memref sig .tc .vmem S256 .f32) (harg9 : arg9.IsWhole) (arg10 : Memref sig .tc .vmem S256 .f32) (harg10 : arg10.IsWhole) (arg11 : Memref sig .tc .vmem S256 .f32) (harg11 : arg11.IsWhole) (arg12 : Memref sig .tc .vmem S256 .f32) (harg12 : arg12.IsWhole) (arg13 : Memref sig .tc .vmem S1x1x256x256 .f32) (harg13 : arg13.IsWhole) (arg14 : Memref sig .tc .vmem S1x1x256x256 .f32) (harg14 : arg14.IsWhole) (arg15 : Memref sig .tc .vmem S256x256 .f32) (harg15 : arg15.IsWhole) (arg16 : Memref sig .tc .vmem S256x256 .f32) (harg16 : arg16.IsWhole)
    (x0 : Vec F S1x2048x256 .f32) (x1 : Vec F S1x2048x256 .f32) (x2 : Vec F S256 .f32) (x3 : Vec F S256 .f32) (x4 : Vec F S256 .f32) (x5 : Vec F S256 .f32) (x6 : Vec F S256 .f32) (x7 : Vec F S256 .f32) (x8 : Vec F S256 .f32) (x9 : Vec F S256 .f32)

/-- The first tile: each accumulator ends at zero plus the tile's product. -/
theorem canonA (hc0 : cond0_0 i) (hc1 : ¬cond0_1 i) :
    View.canon (kernelRun0_A (F := F) c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9).1 = k0_pay1 (k0_pay9 x0 x2 x3) (k0_pay10 x1 x4 x5) (k0_pay5 (F := F))
    ∧ View.canon (kernelRun0_A (F := F) c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9).2.1 = k0_pay2 (k0_pay11 x0 x6 x7) (k0_pay12 x1 x8 x9) (k0_pay6 (F := F)) := by
  unfold kernelRun0_A
  dsimp only
  sl_unfold_words
  rw [View.canon_cons_unit_zero (S := S256x256) hz2, View.canon_cons_unit_zero (S := S256x256) hz2,
    View.readCov_unit_zero (S := S256x256) _ hz2, View.readCov_unit_zero (S := S256x256) _ hz2]
  simp only [View.readAt_eq_ld, harg3.read_unread, harg4.read_unread, harg5.read_unread, harg6.read_unread, harg7.read_unread, harg8.read_unread, harg9.read_unread, harg10.read_unread, harg11.read_unread, harg12.read_unread, harg15.read_unread, harg16.read_unread, View.ld_unit_zero (S := S1x2048x256) hz3, View.ld_unit_zero (S := S256) hz1, View.ld_unit_zero (S := S256x256) hz2, View.ld_unit_zero (S := S1x1x256x256) hz4, and_self]

/-- A middle tile: each accumulator ends at what it held plus the tile's product. -/
theorem canonB (hc0 : ¬cond0_0 i) (hc1 : ¬cond0_1 i) (xs0 xs1 : Vec F S256x256 .f32) :
    View.canon (kernelRun0_B (F := F) c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1).1 = k0_pay1 (k0_pay9 x0 x2 x3) (k0_pay10 x1 x4 x5) xs0
    ∧ View.canon (kernelRun0_B (F := F) c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1).2.1 = k0_pay2 (k0_pay11 x0 x6 x7) (k0_pay12 x1 x8 x9) xs1 := by
  unfold kernelRun0_B
  dsimp only
  sl_unfold_words
  rw [View.canon_unit_zero (S := S256x256) hz2, View.canon_unit_zero (S := S256x256) hz2]
  simp only [View.readAt_eq_ld, harg3.read_unread, harg4.read_unread, harg5.read_unread, harg6.read_unread, harg7.read_unread, harg8.read_unread, harg9.read_unread, harg10.read_unread, harg11.read_unread, harg12.read_unread, harg15.read_unread, harg16.read_unread, View.ld_unit_zero (S := S1x2048x256) hz3, View.ld_unit_zero (S := S256) hz1, View.ld_unit_zero (S := S256x256) hz2, View.ld_unit_zero (S := S1x1x256x256) hz4, and_self]

/-- The last tile: the accumulators as at a middle tile, and each output block at the row softmax of its
    accumulator's new contents. -/
theorem canonC (hc0 : ¬cond0_0 i) (hc1 : cond0_1 i) (xs0 xs1 : Vec F S256x256 .f32) :
    View.canon (kernelRun0_C (F := F) c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1).1 = k0_pay3 (k0_pay1 (k0_pay9 x0 x2 x3) (k0_pay10 x1 x4 x5) xs0)
    ∧ View.canon (kernelRun0_C (F := F) c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1).2.1 = k0_pay4 (k0_pay2 (k0_pay11 x0 x6 x7) (k0_pay12 x1 x8 x9) xs1)
    ∧ View.canon (kernelRun0_C (F := F) c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1).2.2.1 = k0_pay1 (k0_pay9 x0 x2 x3) (k0_pay10 x1 x4 x5) xs0
    ∧ View.canon (kernelRun0_C (F := F) c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1).2.2.2.1 = k0_pay2 (k0_pay11 x0 x6 x7) (k0_pay12 x1 x8 x9) xs1 := by
  unfold kernelRun0_C
  dsimp only
  sl_unfold_words
  rw [View.canon_unit_zero (S := S256x256) hz2, View.canon_unit_zero (S := S256x256) hz2,
    View.canon_unit_zero (S := S1x1x256x256) hz4, View.canon_unit_zero (S := S1x1x256x256) hz4]
  simp only [View.readCov_unit_zero (S := S256x256) _ hz2, View.readAt_eq_ld, harg3.read_unread, harg4.read_unread, harg5.read_unread, harg6.read_unread, harg7.read_unread, harg8.read_unread, harg9.read_unread, harg10.read_unread, harg11.read_unread, harg12.read_unread, harg15.read_unread, harg16.read_unread, View.ld_unit_zero (S := S1x2048x256) hz3, View.ld_unit_zero (S := S256) hz1, View.ld_unit_zero (S := S256x256) hz2, View.ld_unit_zero (S := S1x1x256x256) hz4, and_self]
end

section
variable (c : Dev nD) (i : grid1.Coords) (arg3 : Memref sig .tc .vmem S1x4096x256 .f32) (harg3 : arg3.IsWhole) (arg4 : Memref sig .tc .vmem S256 .f32) (harg4 : arg4.IsWhole) (arg5 : Memref sig .tc .vmem S256 .f32) (harg5 : arg5.IsWhole) (arg6 : Memref sig .tc .vmem S256 .f32) (harg6 : arg6.IsWhole) (arg7 : Memref sig .tc .vmem S256 .f32) (harg7 : arg7.IsWhole) (arg8 : Memref sig .tc .vmem S256 .f32) (harg8 : arg8.IsWhole) (arg9 : Memref sig .tc .vmem S256 .f32) (harg9 : arg9.IsWhole) (arg10 : Memref sig .tc .vmem S1x1x256x256 .f32) (harg10 : arg10.IsWhole) (arg11 : Memref sig .tc .vmem S1x1x256x256 .f32) (harg11 : arg11.IsWhole) (arg12 : Memref sig .tc .vmem S1x4096x256 .f32) (harg12 : arg12.IsWhole)
    (x0 : Vec F S1x4096x256 .f32) (x1 : Vec F S256 .f32) (x2 : Vec F S256 .f32) (x3 : Vec F S256 .f32) (x4 : Vec F S256 .f32) (x5 : Vec F S256 .f32) (x6 : Vec F S256 .f32) (x7 : Vec F S1x1x256x256 .f32) (x8 : Vec F S1x1x256x256 .f32)

/-- The second kernel's one store leaves its payload of the nine loaded blocks. -/
theorem canon1 :
    View.canon (kernelRun1 (F := F) c i arg3 harg3 arg4 harg4 arg5 harg5 arg6 harg6 arg7 harg7 arg8 harg8 arg9 harg9 arg10 harg10 arg11 harg11 arg12 harg12 x0 x1 x2 x3 x4 x5 x6 x7 x8).1
      = k1_pay1 (k1_pay2 x0 x1 x2 x3 x4 x7 x8 x5) (k1_pay3 x6) := by
  unfold kernelRun1
  dsimp only
  sl_unfold_words
  rw [View.canon_unit_zero (S := S1x4096x256) hz3]
  simp only [View.readAt_eq_ld, harg3.read_unread, harg4.read_unread, harg5.read_unread, harg6.read_unread, harg7.read_unread, harg8.read_unread, harg9.read_unread, harg10.read_unread, harg11.read_unread, View.ld_unit_zero (S := S1x4096x256) hz3, View.ld_unit_zero (S := S256) hz1, View.ld_unit_zero (S := S1x1x256x256) hz4]
end

end Cert.KernelIdeal.Hand

end
-- ==== Proof.PayloadsIdeal.lean ====
import proofs.«137963_j12481174962634_2_alg».proof.Proof.Gen.KernelIdeal.Skeleton
import proofs.«137963_j12481174962634_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! # The kernel bodies' arithmetic, read at an index

Each payload of the two kernel bodies is a pure term over the vectors the body loaded.  Read at the ideal values and at one
index, each is a small closed expression in the loaded vectors' elements: an affine map, a sum of products over the
contracted axis, a row softmax, and the final affine combination of two such sums. -/

/-! ## The affinely mapped operands: `x · w + b`, the vectors broadcast along the rows -/

/-- A `[1, 2048, 256]` block with its unit axis dropped, times a `[256]` vector broadcast along the rows, plus another. -/
theorem pay9_apply (v3 : Vec Ideal S1x2048x256 .f32) (v7 v11 : Vec Ideal S256 .f32) (n : Fin 2048) (d : Fin 256) :
    k0_pay9 (F := Ideal) v3 v7 v11 (ix2 n d) = v3 (ix3 0 n d) * v7 (ix1 d) + v11 (ix1 d) := by
  unfold k0_pay9 k0_pay7
  simp only [addf_apply, mulf_apply, shapeCast_1ab_ab_apply, broadcastTo_1b_ab_apply, shapeCast_a_1a_apply]

theorem pay10_apply (v5 : Vec Ideal S1x2048x256 .f32) (v15 v19 : Vec Ideal S256 .f32) (n : Fin 2048) (d : Fin 256) :
    k0_pay10 (F := Ideal) v5 v15 v19 (ix2 n d) = v5 (ix3 0 n d) * v15 (ix1 d) + v19 (ix1 d) := by
  unfold k0_pay10 k0_pay8
  simp only [addf_apply, mulf_apply, shapeCast_1ab_ab_apply, broadcastTo_1b_ab_apply, shapeCast_a_1a_apply]

theorem pay11_apply (v3 : Vec Ideal S1x2048x256 .f32) (v23 v27 : Vec Ideal S256 .f32) (n : Fin 2048) (d : Fin 256) :
    k0_pay11 (F := Ideal) v3 v23 v27 (ix2 n d) = v3 (ix3 0 n d) * v23 (ix1 d) + v27 (ix1 d) := by
  unfold k0_pay11 k0_pay7
  simp only [addf_apply, mulf_apply, shapeCast_1ab_ab_apply, broadcastTo_1b_ab_apply, shapeCast_a_1a_apply]

theorem pay12_apply (v5 : Vec Ideal S1x2048x256 .f32) (v31 v35 : Vec Ideal S256 .f32) (n : Fin 2048) (d : Fin 256) :
    k0_pay12 (F := Ideal) v5 v31 v35 (ix2 n d) = v5 (ix3 0 n d) * v31 (ix1 d) + v35 (ix1 d) := by
  unfold k0_pay12 k0_pay8
  simp only [addf_apply, mulf_apply, shapeCast_1ab_ab_apply, broadcastTo_1b_ab_apply, shapeCast_a_1a_apply]

/-! ## The zero splat the accumulators start from -/

theorem pay5_apply (d e : Fin 256) : k0_pay5 (F := Ideal) (ix2 d e) = 0 := by
  unfold k0_pay5
  rw [shapeCast_self]
  exact Ideal.ofBits_zero_f32

theorem pay6_apply (d e : Fin 256) : k0_pay6 (F := Ideal) (ix2 d e) = 0 := by
  unfold k0_pay6
  rw [shapeCast_self]
  exact Ideal.ofBits_zero_f32

/-! ## The score accumulation: a product contracting the positions -/

/-- The operand indices of the product contracting the row axes: the kept axis reads the result's coordinate. -/
theorem rows_lhs_1 (i : S256x256.Idx) (q : dot_S2048x256_S2048x256_S256x256_0_0_1_1_n_n.contr.Idx) :
    (dot_S2048x256_S2048x256_S256x256_0_0_1_1_n_n.lhsIdx i q 1).val = (i 0).val := by
  unfold DotDims.lhsIdx
  rw [dif_neg (show ¬(1 : Fin S2048x256.rank) ∈ dot_S2048x256_S2048x256_S256x256_0_0_1_1_n_n.lhsBatch by decide), dif_pos (show (1 : Fin S2048x256.rank) ∈ dot_S2048x256_S2048x256_S256x256_0_0_1_1_n_n.lhsNonContracting by decide)]
  rfl
theorem rows_lhs_0 (i : S256x256.Idx) (q : dot_S2048x256_S2048x256_S256x256_0_0_1_1_n_n.contr.Idx) :
    (dot_S2048x256_S2048x256_S256x256_0_0_1_1_n_n.lhsIdx i q 0).val = (q ⟨0, by decide⟩).val :=
  dot_S2048x256_S2048x256_S256x256_0_0_1_1_n_n.lhsIdx_val_of_single rfl i q
theorem rows_rhs_1 (i : S256x256.Idx) (q : dot_S2048x256_S2048x256_S256x256_0_0_1_1_n_n.contr.Idx) :
    (dot_S2048x256_S2048x256_S256x256_0_0_1_1_n_n.rhsIdx i q 1).val = (i 1).val := by
  unfold DotDims.rhsIdx
  rw [dif_neg (show ¬(1 : Fin S2048x256.rank) ∈ dot_S2048x256_S2048x256_S256x256_0_0_1_1_n_n.rhsBatch by decide), dif_pos (show (1 : Fin S2048x256.rank) ∈ dot_S2048x256_S2048x256_S256x256_0_0_1_1_n_n.rhsNonContracting by decide)]
  rfl
theorem rows_rhs_0 (i : S256x256.Idx) (q : dot_S2048x256_S2048x256_S256x256_0_0_1_1_n_n.contr.Idx) :
    (dot_S2048x256_S2048x256_S256x256_0_0_1_1_n_n.rhsIdx i q 0).val = (q ⟨0, by decide⟩).val :=
  dot_S2048x256_S2048x256_S256x256_0_0_1_1_n_n.rhsIdx_val_of_single rfl i q

/-- The product of two `[2048, 256]` operands contracting their row axes, into the zero splat: at `(d, e)` the sum over
    the rows `n` of the left operand at `(n, d)` times the right operand at `(n, e)`. -/
theorem matmul_rows_apply (x y : FVec Ideal S2048x256 .f32) (d e : Fin 256) :
    matmul dot_S2048x256_S2048x256_S256x256_0_0_1_1_n_n (some .fp32) x y (constant (F := Ideal) S256x256 .f32 0x00000000#32) (ix2 d e)
      = ∑ n : Fin 2048, x (ix2 n d) * y (ix2 n e) := by
  simp only [matmul]
  rw [Ideal.matmul_constant_zero_apply, ← Equiv.sum_comp (contrEquiv1 dot_S2048x256_S2048x256_S256x256_0_0_1_1_n_n 2048 rfl rfl).symm]
  refine Finset.sum_congr rfl fun k _ => ?_
  have hk := contrEquiv1_symm_val dot_S2048x256_S2048x256_S256x256_0_0_1_1_n_n 2048 rfl rfl k
  have el : dot_S2048x256_S2048x256_S256x256_0_0_1_1_n_n.lhsIdx (ix2 d e) ((contrEquiv1 dot_S2048x256_S2048x256_S256x256_0_0_1_1_n_n 2048 rfl rfl).symm k) = ix2 k d := funext fun a => Fin.ext (by
    match a with
    | ⟨0, _⟩ => exact (rows_lhs_0 _ _).trans hk
    | ⟨1, _⟩ => exact rows_lhs_1 _ _)
  have er : dot_S2048x256_S2048x256_S256x256_0_0_1_1_n_n.rhsIdx (ix2 d e) ((contrEquiv1 dot_S2048x256_S2048x256_S256x256_0_0_1_1_n_n 2048 rfl rfl).symm k) = ix2 k e := funext fun a => Fin.ext (by
    match a with
    | ⟨0, _⟩ => exact (rows_rhs_0 _ _).trans hk
    | ⟨1, _⟩ => exact rows_rhs_1 _ _)
  rw [el, er]

theorem pay1_apply (v14 v22 : FVec Ideal S2048x256 .f32) (v39 : Vec Ideal S256x256 .f32) (d e : Fin 256) :
    k0_pay1 (F := Ideal) v14 v22 v39 (ix2 d e) = v39 (ix2 d e) + ∑ n : Fin 2048, v14 (ix2 n d) * v22 (ix2 n e) := by
  unfold k0_pay1
  rw [shapeCast_self]
  exact congrArg (v39 (ix2 d e) + ·) (matmul_rows_apply v14 v22 d e)

theorem pay2_apply (v30 v38 : FVec Ideal S2048x256 .f32) (v45 : Vec Ideal S256x256 .f32) (d e : Fin 256) :
    k0_pay2 (F := Ideal) v30 v38 v45 (ix2 d e) = v45 (ix2 d e) + ∑ n : Fin 2048, v30 (ix2 n d) * v38 (ix2 n e) := by
  unfold k0_pay2
  rw [shapeCast_self]
  exact congrArg (v45 (ix2 d e) + ·) (matmul_rows_apply v30 v38 d e)

/-! ## Layout operations read at an index: two unit axes, and a column kept as a unit axis -/

section Layout
variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, v, i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    simp only [hu, hv, Nat.zero_mul, Nat.zero_add])

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A float literal at the ideal values is the extended real its word denotes. -/
theorem scalar_ofBits (φ : FTy) (b : BitVec φ.bits) : Scalar.ofBits (F := Ideal) φ b = Ideal.ofBits φ b := rfl

/-! ## The output: two products contracting the head's channels, added, doubled, mapped affinely -/

/-- The operand indices of the product contracting the column axes. -/
theorem cols_lhs_0 (i : S4096x256.Idx) (q : dot_S4096x256_S256x256_S4096x256_1_1_0_0_n_n.contr.Idx) :
    (dot_S4096x256_S256x256_S4096x256_1_1_0_0_n_n.lhsIdx i q 0).val = (i 0).val := by
  unfold DotDims.lhsIdx
  rw [dif_neg (show ¬(0 : Fin S4096x256.rank) ∈ dot_S4096x256_S256x256_S4096x256_1_1_0_0_n_n.lhsBatch by decide), dif_pos (show (0 : Fin S4096x256.rank) ∈ dot_S4096x256_S256x256_S4096x256_1_1_0_0_n_n.lhsNonContracting by decide)]
  rfl
theorem cols_lhs_1 (i : S4096x256.Idx) (q : dot_S4096x256_S256x256_S4096x256_1_1_0_0_n_n.contr.Idx) :
    (dot_S4096x256_S256x256_S4096x256_1_1_0_0_n_n.lhsIdx i q 1).val = (q ⟨0, by decide⟩).val :=
  dot_S4096x256_S256x256_S4096x256_1_1_0_0_n_n.lhsIdx_val_of_single rfl i q
theorem cols_rhs_0 (i : S4096x256.Idx) (q : dot_S4096x256_S256x256_S4096x256_1_1_0_0_n_n.contr.Idx) :
    (dot_S4096x256_S256x256_S4096x256_1_1_0_0_n_n.rhsIdx i q 0).val = (i 1).val := by
  unfold DotDims.rhsIdx
  rw [dif_neg (show ¬(0 : Fin S256x256.rank) ∈ dot_S4096x256_S256x256_S4096x256_1_1_0_0_n_n.rhsBatch by decide), dif_pos (show (0 : Fin S256x256.rank) ∈ dot_S4096x256_S256x256_S4096x256_1_1_0_0_n_n.rhsNonContracting by decide)]
  rfl
theorem cols_rhs_1 (i : S4096x256.Idx) (q : dot_S4096x256_S256x256_S4096x256_1_1_0_0_n_n.contr.Idx) :
    (dot_S4096x256_S256x256_S4096x256_1_1_0_0_n_n.rhsIdx i q 1).val = (q ⟨0, by decide⟩).val :=
  dot_S4096x256_S256x256_S4096x256_1_1_0_0_n_n.rhsIdx_val_of_single rfl i q

/-- The product of a `[4096, 256]` operand with a `[256, 256]` operand contracting their column axes, into the zero
    splat: at `(n, d)` the sum over the columns `e` of the left operand at `(n, e)` times the right operand at `(d, e)`. -/
theorem matmul_cols_apply (x : FVec Ideal S4096x256 .bf16) (y : FVec Ideal S256x256 .bf16) (n : Fin 4096) (d : Fin 256) :
    matmul dot_S4096x256_S256x256_S4096x256_1_1_0_0_n_n none x y (constant (F := Ideal) S4096x256 .f32 0x00000000#32) (ix2 n d)
      = ∑ e : Fin 256, x (ix2 n e) * y (ix2 d e) := by
  simp only [matmul]
  rw [Ideal.matmul_constant_zero_apply, ← Equiv.sum_comp (contrEquiv1 dot_S4096x256_S256x256_S4096x256_1_1_0_0_n_n 256 rfl rfl).symm]
  refine Finset.sum_congr rfl fun k _ => ?_
  have hk := contrEquiv1_symm_val dot_S4096x256_S256x256_S4096x256_1_1_0_0_n_n 256 rfl rfl k
  have el : dot_S4096x256_S256x256_S4096x256_1_1_0_0_n_n.lhsIdx (ix2 n d) ((contrEquiv1 dot_S4096x256_S256x256_S4096x256_1_1_0_0_n_n 256 rfl rfl).symm k) = ix2 n k := funext fun a => Fin.ext (by
    match a with
    | ⟨0, _⟩ => exact cols_lhs_0 _ _
    | ⟨1, _⟩ => exact (cols_lhs_1 _ _).trans hk)
  have er : dot_S4096x256_S256x256_S4096x256_1_1_0_0_n_n.rhsIdx (ix2 n d) ((contrEquiv1 dot_S4096x256_S256x256_S4096x256_1_1_0_0_n_n 256 rfl rfl).symm k) = ix2 d k := funext fun a => Fin.ext (by
    match a with
    | ⟨0, _⟩ => exact cols_rhs_0 _ _
    | ⟨1, _⟩ => exact (cols_rhs_1 _ _).trans hk)
  rw [el, er]

theorem pay_out_apply (v0 : Vec Ideal S1x4096x256 .f32) (v2 v6 v11 v15 v31 v35 : Vec Ideal S256 .f32)
    (v20 v23 : Vec Ideal S1x1x256x256 .f32) (n : Fin 4096) (d : Fin 256) :
    k1_pay1 (F := Ideal) (k1_pay2 (F := Ideal) v0 v2 v6 v11 v15 v20 v23 v31) (k1_pay3 (F := Ideal) v35) (ix3 (0 : Fin 1) n d)
      = Ideal.ofBits .f32 0x40000000#32
          * ((∑ e : Fin 256, (v0 (ix3 0 n e) * v2 (ix1 e) + v6 (ix1 e)) * v20 (ix4 0 0 d e))
            + (∑ e : Fin 256, (v0 (ix3 0 n e) * v11 (ix1 e) + v15 (ix1 e)) * v23 (ix4 0 0 d e)))
          * v31 (ix1 d) + v35 (ix1 d) := by
  unfold k1_pay1 k1_pay2 k1_pay3
  simp only [shapeCast_ab_1ab_apply, addf_apply, mulf_apply, broadcastTo_1b_ab_apply, shapeCast_a_1a_apply, broadcast_apply,
    matmul_cols_apply, truncf_apply, shapeCast_1ab_ab_apply, shapeCast_11ab_ab_apply, scalar_ofBits]

/-! ## The row softmax of the scaled scores -/

/-- The source index over row `d` with column `k` inserted is `(d, k)`. -/
theorem lift_row (d k : Fin 256) : reduces_S256x256_S256.lift (ix1 d) k = ix2 d k :=
  funext fun c => Fin.ext (by
    match c with
    | ⟨0, _⟩ => rfl
    | ⟨1, _⟩ => rfl)

/-- The maximum along the rows, at row `d`: the fold of `max` from the word of minus infinity over the row. -/
theorem rowmax_apply (x : FVec Ideal S256x256 .f32) (hφ : FTy.f32 = FTy.f32 ∨ FTy.f32 = FTy.bf16)
    (hacc : @Eq (BitVec FTy.f32.bits) 0xFF800000#32 0xFF800000#32) (d : Fin 256) :
    multiReduction .maximumf [1] S256 x 0xFF800000#32 reduces_S256x256_S256 hφ hacc (ix1 d)
      = (Finset.univ : Finset (Fin 256)).fold max (Ideal.ofBits .f32 0xFF800000#32) (fun e => x (ix2 d e)) := by
  refine (Ideal.multiReduction_maximumf_single x 0xFF800000#32 reduces_S256x256_S256 hφ hacc (ix1 d)).trans ?_
  exact congrArg (fun f => (Finset.univ : Finset (Fin 256)).fold max (Ideal.ofBits .f32 0xFF800000#32) f)
    (funext fun k => congrArg x (lift_row d k))

/-- The sum along the rows, at row `d`: the sum over the row. -/
theorem rowsum_apply (y : FVec Ideal S256x256 .f32) (hφ : FTy.f32 = FTy.f32 ∨ FTy.f32 = FTy.bf16)
    (hacc : @Eq (BitVec FTy.f32.bits) 0x00000000#32 0x00000000#32) (d : Fin 256) :
    multiReduction .add [1] S256 y 0x00000000#32 reduces_S256x256_S256 hφ hacc (ix1 d)
      = ∑ e : Fin 256, y (ix2 d e) := by
  refine (Ideal.multiReduction_add_single y 0x00000000#32 reduces_S256x256_S256 hφ hacc (ix1 d)).trans ?_
  exact Finset.sum_congr rfl fun k _ => congrArg y (lift_row d k)

/-- The exponential of a vector, at an index. -/
theorem exp_apply {s : Shape} {φ : FTy} (a : FVec Ideal s φ) (i : s.Idx) : Idealize.ShloMosaic.exp a i = Ideal.exp (a i) := rfl

theorem pay3_apply (v54 : Vec Ideal S256x256 .f32) (d e : Fin 256) :
    k0_pay3 (F := Ideal) v54 (ix4 (0 : Fin 1) (0 : Fin 1) d e)
      = Cert.Spec.softmaxRow (fun e' => v54 (ix2 d e') * Ideal.ofBits .f32 0x3D000000#32) e := by
  unfold k0_pay3
  simp only [shapeCast_ab_11ab_apply, divf_apply, broadcastTo_a1_ab_apply, shapeCast_a_a1_apply, exp_apply,
    subf_apply, maximumf_apply, broadcast_apply, mulf_apply, scalar_ofBits]
  rw [rowmax_apply, rowsum_apply]
  simp only [exp_apply, subf_apply, broadcastTo_a1_ab_apply, shapeCast_a_a1_apply, maximumf_apply, broadcast_apply, mulf_apply]
  rw [rowmax_apply]
  simp only [mulf_apply, broadcast_apply]
  rfl

theorem pay4_apply (v71 : Vec Ideal S256x256 .f32) (d e : Fin 256) :
    k0_pay4 (F := Ideal) v71 (ix4 (0 : Fin 1) (0 : Fin 1) d e)
      = Cert.Spec.softmaxRow (fun e' => v71 (ix2 d e') * Ideal.ofBits .f32 0x3D000000#32) e := by
  unfold k0_pay4
  simp only [shapeCast_ab_11ab_apply, divf_apply, broadcastTo_a1_ab_apply, shapeCast_a_a1_apply, exp_apply,
    subf_apply, maximumf_apply, broadcast_apply, mulf_apply, scalar_ofBits]
  rw [rowmax_apply, rowsum_apply]
  simp only [exp_apply, subf_apply, broadcastTo_a1_ab_apply, shapeCast_a_a1_apply, maximumf_apply, broadcast_apply, mulf_apply]
  rw [rowmax_apply]
  simp only [mulf_apply, broadcast_apply]
  rfl

end Cert.KernelIdeal.Pay

end
-- ==== Proof.LibTileSum.lean ====
import Mathlib.Algebra.BigOperators.Fin
import Mathlib.Algebra.BigOperators.Ring.Finset
import Mathlib.Logic.Equiv.Fin.Basic
import Mathlib.Tactic.Ring
import Mathlib.Tactic.Linarith

open scoped BigOperators

/-! # A sum over `k * m` consecutive indices, taken tile by tile

A general fact about finite sums in a commutative additive monoid: the sum of `g` over `Fin (k * m)` is the sum over
the `k` tiles of `m` consecutive indices of each tile's sum.  The tile sums are indexed by a natural number (wrapped
into range by a remainder that is the identity on every tile that exists), so that a running sum over the first tiles
is a sum over a `Finset.range` and grows by `Finset.sum_range_succ`. -/

namespace Cert.TileSum

variable {M : Type*} [AddCommMonoid M]

/-- The position of entry `i` of tile `j`. -/
def pos (k m : ℕ) (hpos : 0 < k * m) (j : ℕ) (i : Fin m) : Fin (k * m) := ⟨(j * m + i.val) % (k * m), Nat.mod_lt _ hpos⟩

/-- The sum of `g` over tile `j`. -/
def tile (k m : ℕ) (hpos : 0 < k * m) (g : Fin (k * m) → M) (j : ℕ) : M := ∑ i : Fin m, g (pos k m hpos j i)

theorem pos_val_of_lt (k m : ℕ) (hpos : 0 < k * m) (j : ℕ) (hj : j < k) (i : Fin m) : (pos k m hpos j i).val = j * m + i.val := by
  unfold pos
  have hi := i.isLt
  have : j * m + i.val < k * m := by
    calc j * m + i.val < j * m + m := by omega
      _ = (j + 1) * m := by ring
      _ ≤ k * m := Nat.mul_le_mul_right m hj
  exact Nat.mod_eq_of_lt this

/-- THE REGROUPING: the whole sum is the sum of the `k` tile sums. -/
theorem sum_eq_sum_tiles (k m : ℕ) (hpos : 0 < k * m) (g : Fin (k * m) → M) :
    ∑ n : Fin (k * m), g n = ∑ j ∈ Finset.range k, tile k m hpos g j := by
  rw [Finset.sum_range]
  unfold tile
  rw [← Fintype.sum_prod_type']
  refine (Fintype.sum_equiv finProdFinEquiv _ _ (fun p => ?_)).symm
  congr 1
  apply Fin.ext
  rw [pos_val_of_lt k m hpos p.1.val p.1.isLt p.2]
  simp only [finProdFinEquiv_apply_val]
  ring

end Cert.TileSum
-- ==== Proof.IdealValue0b.lean ====
import proofs.«137963_j12481174962634_2_alg».proof.Proof.IdealValue0a
import proofs.«137963_j12481174962634_2_alg».proof.Proof.IdealPieces
import proofs.«137963_j12481174962634_2_alg».proof.Proof.PayloadsIdeal
import proofs.«137963_j12481174962634_2_alg».proof.Proof.LibTileSum

set_option maxRecDepth 16384

noncomputable section

open scoped BigOperators

namespace Cert.KernelIdeal.Val0

open Idealize.ShloMosaic Idealize.ShloMosaic.TcCoe Idealize.ShloMosaic.ValueIdx
open Idealize.SL Idealize.SL.Sem
open Idealize.ShloMosaic.Pipeline (Dat Cfg Window)
open Cert.KernelIdeal.Pay Cert.TileSum Cert.KernelIdeal Cert.KernelIdeal.Gen Cert.KernelIdeal.Hand Cert.Spec

/-! The two score accumulators along a (batch, head) pair's eight tiles: after tile `j` each holds the sum of the
    first `j + 1` tile products; after the last, the whole score matrix, whose scaled row softmax the output blocks
    take. -/

variable (V : (c : Dev nD) → (b : Ref sig .tc) → Buf (Elt Ideal) ((c : Thread nD τ).loc b))

theorem hp : 0 < 8 * 2048 := by decide

/-- The products of the mapped query channel `d` and key channel `e` of a head along the positions: the global and
    the local branch. -/
def gG (c : Dev nD) (bb : Fin 2) (h : Fin 4) (d e : Fin 256) : Fin (8 * 2048) → EReal := fun p =>
  aff (V c main_arg0) (V c main_arg3) (V c main_arg4) bb p (ch h d) * aff (V c main_arg1) (V c main_arg5) (V c main_arg6) bb p (ch h e)
def gL (c : Dev nD) (bb : Fin 2) (h : Fin 4) (d e : Fin 256) : Fin (8 * 2048) → EReal := fun p =>
  aff (V c main_arg0) (V c main_arg9) (V c main_arg10) bb p (ch h d) * aff (V c main_arg1) (V c main_arg11) (V c main_arg12) bb p (ch h e)

theorem pos_eq (t : Fin cfg0.N) (n : Fin 2048) : pos 8 2048 hp (t.val % 8) n = posOf t n :=
  Fin.ext (pos_val_of_lt 8 2048 hp _ (Nat.mod_lt _ (by decide)) n)

/-- One tile's contribution to the global accumulator at a point. -/
theorem accG_apply (c : Dev nD) (t : Fin cfg0.N) (xs : Vec Ideal S256x256 .f32) (d e : Fin 256) :
    k0_pay1 (F := Ideal) (k0_pay9 (F := Ideal) (iblk0 V c 0 t) (iblk0 V c 2 t) (iblk0 V c 3 t)) (k0_pay10 (F := Ideal) (iblk0 V c 1 t) (iblk0 V c 4 t) (iblk0 V c 5 t)) xs (ix2 d e)
      = xs (ix2 d e) + tile 8 2048 hp (gG V c (bbOf t) (hOf t) d e) (t.val % 8) := by
  refine (pay1_apply _ _ xs d e).trans ?_
  refine congrArg (xs (ix2 d e) + ·) ?_
  unfold tile
  refine Finset.sum_congr rfl fun n _ => ?_
  rw [pos_eq]
  refine (congrArg₂ (· * ·) (pay9_apply _ _ _ n d) (pay10_apply _ _ _ n e)).trans ?_
  rw [blk_q, blk_k, blk_v2, blk_v3, blk_v4, blk_v5]
  rfl

/-- One tile's contribution to the local accumulator at a point. -/
theorem accL_apply (c : Dev nD) (t : Fin cfg0.N) (xs : Vec Ideal S256x256 .f32) (d e : Fin 256) :
    k0_pay2 (F := Ideal) (k0_pay11 (F := Ideal) (iblk0 V c 0 t) (iblk0 V c 6 t) (iblk0 V c 7 t)) (k0_pay12 (F := Ideal) (iblk0 V c 1 t) (iblk0 V c 8 t) (iblk0 V c 9 t)) xs (ix2 d e)
      = xs (ix2 d e) + tile 8 2048 hp (gL V c (bbOf t) (hOf t) d e) (t.val % 8) := by
  refine (pay2_apply _ _ xs d e).trans ?_
  refine congrArg (xs (ix2 d e) + ·) ?_
  unfold tile
  refine Finset.sum_congr rfl fun n _ => ?_
  rw [pos_eq]
  refine (congrArg₂ (· * ·) (pay11_apply _ _ _ n d) (pay12_apply _ _ _ n e)).trans ?_
  rw [blk_q, blk_k, blk_v6, blk_v7, blk_v8, blk_v9]
  rfl

/-! ## What each case leaves, as payloads of the point's blocks -/

theorem soutA_eq (c : Dev nD) (t : Fin cfg0.N) (h0 : t.val % 8 = 0) (h1 : ¬t.val % 8 = 7) :
    soutA V c t h0 h1 = (k0_pay1 (F := Ideal) (k0_pay9 (F := Ideal) (iblk0 V c 0 t) (iblk0 V c 2 t) (iblk0 V c 3 t)) (k0_pay10 (F := Ideal) (iblk0 V c 1 t) (iblk0 V c 4 t) (iblk0 V c 5 t)) (k0_pay5 (F := Ideal)), k0_pay2 (F := Ideal) (k0_pay11 (F := Ideal) (iblk0 V c 0 t) (iblk0 V c 6 t) (iblk0 V c 7 t)) (k0_pay12 (F := Ideal) (iblk0 V c 1 t) (iblk0 V c 8 t) (iblk0 V c 9 t)) (k0_pay6 (F := Ideal))) := by
  unfold soutA
  rw [View.read_writes_eq_canon _ _ _ (scoverA_0 V c t h0 h1), View.read_writes_eq_canon _ _ _ (scoverA_1 V c t h0 h1)]
  unfold runA
  exact congrArg₂ Prod.mk
    (canonA (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) ((hcond0_0 t).mpr h0) (fun h => h1 ((hcond0_1 t).mp h))).1
    (canonA (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) ((hcond0_0 t).mpr h0) (fun h => h1 ((hcond0_1 t).mp h))).2

theorem soutB_eq (c : Dev nD) (t : Fin cfg0.N) (h0 : ¬t.val % 8 = 0) (h1 : ¬t.val % 8 = 7) (xs : Vec Ideal S256x256 .f32 × Vec Ideal S256x256 .f32) :
    soutB V c t h0 h1 xs = (k0_pay1 (F := Ideal) (k0_pay9 (F := Ideal) (iblk0 V c 0 t) (iblk0 V c 2 t) (iblk0 V c 3 t)) (k0_pay10 (F := Ideal) (iblk0 V c 1 t) (iblk0 V c 4 t) (iblk0 V c 5 t)) xs.1, k0_pay2 (F := Ideal) (k0_pay11 (F := Ideal) (iblk0 V c 0 t) (iblk0 V c 6 t) (iblk0 V c 7 t)) (k0_pay12 (F := Ideal) (iblk0 V c 1 t) (iblk0 V c 8 t) (iblk0 V c 9 t)) xs.2) := by
  unfold soutB
  rw [View.read_writes_eq_canon _ _ _ (scoverB_0 V c t h0 h1 xs.1 xs.2), View.read_writes_eq_canon _ _ _ (scoverB_1 V c t h0 h1 xs.1 xs.2)]
  unfold runB
  exact congrArg₂ Prod.mk
    (canonB (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (fun h => h0 ((hcond0_0 t).mp h)) (fun h => h1 ((hcond0_1 t).mp h)) xs.1 xs.2).1
    (canonB (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (fun h => h0 ((hcond0_0 t).mp h)) (fun h => h1 ((hcond0_1 t).mp h)) xs.1 xs.2).2

theorem soutC_eq (c : Dev nD) (t : Fin cfg0.N) (h0 : ¬t.val % 8 = 0) (h1 : t.val % 8 = 7) (xs : Vec Ideal S256x256 .f32 × Vec Ideal S256x256 .f32) :
    soutC V c t h0 h1 xs = (k0_pay1 (F := Ideal) (k0_pay9 (F := Ideal) (iblk0 V c 0 t) (iblk0 V c 2 t) (iblk0 V c 3 t)) (k0_pay10 (F := Ideal) (iblk0 V c 1 t) (iblk0 V c 4 t) (iblk0 V c 5 t)) xs.1, k0_pay2 (F := Ideal) (k0_pay11 (F := Ideal) (iblk0 V c 0 t) (iblk0 V c 6 t) (iblk0 V c 7 t)) (k0_pay12 (F := Ideal) (iblk0 V c 1 t) (iblk0 V c 8 t) (iblk0 V c 9 t)) xs.2) := by
  unfold soutC
  rw [View.read_writes_eq_canon _ _ _ (scoverC_0 V c t h0 h1 xs.1 xs.2), View.read_writes_eq_canon _ _ _ (scoverC_1 V c t h0 h1 xs.1 xs.2)]
  unfold runC
  exact congrArg₂ Prod.mk
    (canonC (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (fun h => h0 ((hcond0_0 t).mp h)) ((hcond0_1 t).mpr h1) xs.1 xs.2).2.2.1
    (canonC (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (fun h => h0 ((hcond0_0 t).mp h)) ((hcond0_1 t).mpr h1) xs.1 xs.2).2.2.2

theorem outC_eq (c : Dev nD) (t : Fin cfg0.N) (h0 : ¬t.val % 8 = 0) (h1 : t.val % 8 = 7) (xs : Vec Ideal S256x256 .f32 × Vec Ideal S256x256 .f32) :
    outC V c t h0 h1 xs = (k0_pay3 (F := Ideal) (k0_pay1 (F := Ideal) (k0_pay9 (F := Ideal) (iblk0 V c 0 t) (iblk0 V c 2 t) (iblk0 V c 3 t)) (k0_pay10 (F := Ideal) (iblk0 V c 1 t) (iblk0 V c 4 t) (iblk0 V c 5 t)) xs.1), k0_pay4 (F := Ideal) (k0_pay2 (F := Ideal) (k0_pay11 (F := Ideal) (iblk0 V c 0 t) (iblk0 V c 6 t) (iblk0 V c 7 t)) (k0_pay12 (F := Ideal) (iblk0 V c 1 t) (iblk0 V c 8 t) (iblk0 V c 9 t)) xs.2)) := by
  unfold outC
  rw [View.read_writes_eq_canon _ _ _ (coverC_10 V c t h0 h1 xs.1 xs.2), View.read_writes_eq_canon _ _ _ (coverC_11 V c t h0 h1 xs.1 xs.2)]
  unfold runC
  exact congrArg₂ Prod.mk
    (canonC (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (fun h => h0 ((hcond0_0 t).mp h)) ((hcond0_1 t).mpr h1) xs.1 xs.2).1
    (canonC (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (fun h => h0 ((hcond0_0 t).mp h)) ((hcond0_1 t).mpr h1) xs.1 xs.2).2.1

end Cert.KernelIdeal.Val0

end
-- ==== Proof.IdealValue0c.lean ====
import proofs.«137963_j12481174962634_2_alg».proof.Proof.IdealValue0b

set_option maxRecDepth 16384

noncomputable section

open scoped BigOperators

namespace Cert.KernelIdeal.Val0

open Idealize.ShloMosaic Idealize.ShloMosaic.TcCoe Idealize.ShloMosaic.ValueIdx
open Idealize.SL Idealize.SL.Sem
open Idealize.ShloMosaic.Pipeline (Dat Cfg Window)
open Cert.KernelIdeal.Pay Cert.TileSum Cert.KernelIdeal Cert.KernelIdeal.Gen Cert.KernelIdeal.Hand Cert.Spec

/-! The accumulators by induction along the grid, the output blocks at a pair's last tile, and the two attention
    arrays the first region leaves. -/

variable (V : (c : Dev nD) → (b : Ref sig .tc) → Buf (Elt Ideal) ((c : Thread nD τ).loc b))

theorem bbOf_succ (n : ℕ) (hn : n + 1 < cfg0.N) (h0 : ¬(n + 1) % 8 = 0) :
    bbOf ⟨n + 1, hn⟩ = bbOf ⟨n, Nat.lt_of_succ_lt hn⟩ := Fin.ext (by show (n + 1) / 32 = n / 32; omega)
theorem hOf_succ (n : ℕ) (hn : n + 1 < cfg0.N) (h0 : ¬(n + 1) % 8 = 0) :
    hOf ⟨n + 1, hn⟩ = hOf ⟨n, Nat.lt_of_succ_lt hn⟩ := Fin.ext (by show (n + 1) / 8 % 4 = n / 8 % 4; omega)

/-- THE RUNNING SUMS: after the body at position `n` each accumulator holds the sum of the tile products of the
    pair's tiles up to this one. -/
theorem scr_inv (c : Dev nD) : ∀ (n : ℕ) (hn : n < cfg0.N) (d e : Fin 256),
    (scrAt0 V c n hn).1 (ix2 d e) = ∑ r ∈ Finset.range (n % 8 + 1), tile 8 2048 hp (gG V c (bbOf ⟨n, hn⟩) (hOf ⟨n, hn⟩) d e) r
    ∧ (scrAt0 V c n hn).2 (ix2 d e) = ∑ r ∈ Finset.range (n % 8 + 1), tile 8 2048 hp (gL V c (bbOf ⟨n, hn⟩) (hOf ⟨n, hn⟩) d e) r
  | 0, hn, d, e => by
    rw [show scrAt0 V c 0 hn = soutA V c ⟨0, hn⟩ (Nat.zero_mod _) (by show ¬ 0 % 8 = 7; decide) from rfl, soutA_eq]
    dsimp only
    rw [accG_apply, accL_apply, pay5_apply, pay6_apply, zero_add, zero_add]
    exact ⟨(Finset.sum_range_one _).symm, (Finset.sum_range_one _).symm⟩
  | n + 1, hn, d, e => by
    by_cases h0 : (n + 1) % 8 = 0
    · have h1 : ¬(n + 1) % 8 = 7 := by omega
      rw [scrAt0_A V c ⟨n + 1, hn⟩ h0 h1, soutA_eq]
      dsimp only
      rw [accG_apply, accL_apply, pay5_apply, pay6_apply, zero_add, zero_add]
      rw [show (n + 1) % 8 + 1 = 1 from by omega, Finset.sum_range_one, Finset.sum_range_one]
      rw [show (⟨n + 1, hn⟩ : Fin cfg0.N).val % 8 = 0 from h0]
      exact ⟨rfl, rfl⟩
    · obtain ⟨ihg, ihl⟩ := scr_inv c n (Nat.lt_of_succ_lt hn) d e
      have e8 : (n + 1) % 8 = n % 8 + 1 := by omega
      have hsum : ∀ (f : ℕ → EReal), ∑ r ∈ Finset.range ((n + 1) % 8 + 1), f r = ∑ r ∈ Finset.range (n % 8 + 1), f r + f ((⟨n + 1, hn⟩ : Fin cfg0.N).val % 8) := fun f => by
        rw [show (⟨n + 1, hn⟩ : Fin cfg0.N).val % 8 = n % 8 + 1 from e8, Finset.sum_range_succ]
      rw [hsum, hsum, bbOf_succ n hn h0, hOf_succ n hn h0, ← ihg, ← ihl]
      rw [← bbOf_succ n hn h0, ← hOf_succ n hn h0]
      by_cases h1 : (n + 1) % 8 = 7
      · rw [scrAt0_C V c ⟨n + 1, hn⟩ h0 h1, soutC_eq]
        dsimp only
        exact ⟨accG_apply V c _ _ d e, accL_apply V c _ _ d e⟩
      · rw [scrAt0_B V c ⟨n + 1, hn⟩ h0 h1, soutB_eq]
        dsimp only
        exact ⟨accG_apply V c _ _ d e, accL_apply V c _ _ d e⟩

/-- All eight tiles make the score. -/
theorem score_G (c : Dev nD) (bb : Fin 2) (h : Fin 4) (d e : Fin 256) :
    ∑ r ∈ Finset.range 8, tile 8 2048 hp (gG V c bb h d e) r
      = score (V c main_arg0) (V c main_arg1) (V c main_arg3) (V c main_arg4) (V c main_arg5) (V c main_arg6) bb h d e :=
  (sum_eq_sum_tiles 8 2048 hp (gG V c bb h d e)).symm
theorem score_L (c : Dev nD) (bb : Fin 2) (h : Fin 4) (d e : Fin 256) :
    ∑ r ∈ Finset.range 8, tile 8 2048 hp (gL V c bb h d e) r
      = score (V c main_arg0) (V c main_arg1) (V c main_arg9) (V c main_arg10) (V c main_arg11) (V c main_arg12) bb h d e :=
  (sum_eq_sum_tiles 8 2048 hp (gL V c bb h d e)).symm

/-- The two attention arrays, index by index. -/
def AttnG (c : Dev nD) : (⟨4, ![2, 4, 256, 256]⟩ : Shape).Idx → EReal := fun i =>
  attn (V c main_arg0) (V c main_arg1) (V c main_arg3) (V c main_arg4) (V c main_arg5) (V c main_arg6) (i 0) (i 1) (i 2) (i 3)
def AttnL (c : Dev nD) : (⟨4, ![2, 4, 256, 256]⟩ : Shape).Idx → EReal := fun i =>
  attn (V c main_arg0) (V c main_arg1) (V c main_arg9) (V c main_arg10) (V c main_arg11) (V c main_arg12) (i 0) (i 1) (i 2) (i 3)

/-- At a pair's last tile the output blocks hold the pair's attention matrices. -/
theorem outAt0_apply (c : Dev nD) (t : Fin cfg0.N) (h1 : t.val % 8 = 7) (d e : Fin 256) :
    (outAt0 V c t).1 (ix4 (0 : Fin 1) (0 : Fin 1) d e) = AttnG V c (ix4 (bbOf t) (hOf t) d e)
    ∧ (outAt0 V c t).2 (ix4 (0 : Fin 1) (0 : Fin 1) d e) = AttnL V c (ix4 (bbOf t) (hOf t) d e) := by
  have h0 : ¬t.val % 8 = 0 := by omega
  have hs := scrAt0_C V c t h0 h1
  rw [soutC_eq] at hs
  have hinv := scr_inv V c t.val t.isLt d
  rw [show t.val % 8 + 1 = 8 from by omega] at hinv
  unfold outAt0
  rw [dif_pos h1, outC_eq]
  dsimp only
  rw [pay3_apply, pay4_apply]
  unfold AttnG AttnL attn
  refine ⟨congrArg (fun s => softmaxRow s e) (funext fun e' => ?_), congrArg (fun s => softmaxRow s e) (funext fun e' => ?_)⟩
  · show _ * _ = _ * _
    refine congrArg (· * _) ?_
    rw [← score_G, ← (hinv e').1, hs]
  · show _ * _ = _ * _
    refine congrArg (· * _) ?_
    rw [← score_L, ← (hinv e').2, hs]

end Cert.KernelIdeal.Val0

end
-- ==== Proof.IdealValue0d.lean ====
import proofs.«137963_j12481174962634_2_alg».proof.Proof.IdealValue0c

set_option maxRecDepth 16384

noncomputable section

open scoped BigOperators

namespace Cert.KernelIdeal.Val0

open Idealize.ShloMosaic Idealize.ShloMosaic.TcCoe Idealize.ShloMosaic.ValueIdx
open Idealize.SL Idealize.SL.Sem
open Idealize.ShloMosaic.Pipeline (Dat Cfg Window)
open Cert.KernelIdeal.Pay Cert.TileSum Cert.KernelIdeal Cert.KernelIdeal.Gen Cert.KernelIdeal.Hand Cert.Spec

/-! From the output blocks to the two attention arrays: each (batch, head) pair's matrix is written back once, at the
    pair's last tile, and the 8 pairs' blocks fill the arrays. -/

variable (V : (c : Dev nD) → (b : Ref sig .tc) → Buf (Elt Ideal) ((c : Thread nD τ).loc b))

set_option maxRecDepth 200000 in
theorem flushed10_eq (c : Dev nD) (t : Fin cfg0.N) (hf : (cfg0.win 10).flush t = true) :
    (dat0 V c).flushed 10 t = ((cfg0.win 10).blk t).view.read (Elt Ideal) (AttnG V c) := by
  have h1 : t.val % 8 = 7 := (flush0_10 t).mp hf
  have e := idx_facts t
  show (cfg0.win 10).cut (grid0.coords t) ((dat0 V c).after 10 t) = _
  rw [after0_10]
  refine funext fun (y : S1x1x256x256.Idx) => ?_
  obtain ⟨y0, y1, d, e', rfl⟩ : ∃ (y0 : Fin 1) (y1 : Fin 1) (d e' : Fin 256), y = ix4 y0 y1 d e' := ⟨y 0, y 1, y 2, y 3, eq_ix4 y⟩
  obtain rfl : y0 = 0 := Subsingleton.elim _ _
  obtain rfl : y1 = 0 := Subsingleton.elim _ _
  have hi : ((cfg0.win 10).blk t).view.emb (ix4 (0 : Fin 1) (0 : Fin 1) d e') = ix4 (bbOf t) (hOf t) d e' := by
    funext a; apply Fin.ext
    match a with
    | ⟨0, _⟩ => show win0_10.index t (0 : Fin 4) * 1 + 1 * 0 = t.val / 32; omega
    | ⟨1, _⟩ => show win0_10.index t (1 : Fin 4) * 1 + 1 * 0 = t.val / 8 % 4; omega
    | ⟨2, _⟩ => show win0_10.index t (2 : Fin 4) * 256 + 1 * d.val = d.val; omega
    | ⟨3, _⟩ => show win0_10.index t (3 : Fin 4) * 256 + 1 * e'.val = e'.val; omega
  show (outAt0 V c t).1 (ix4 (0 : Fin 1) (0 : Fin 1) d e') = AttnG V c (((cfg0.win 10).blk t).view.emb (ix4 (0 : Fin 1) (0 : Fin 1) d e'))
  rw [hi]
  exact (outAt0_apply V c t h1 d e').1

theorem mem_blk10 (t : Fin cfg0.N) (i : S2x4x256x256.Idx) :
    i ∈ ((cfg0.win 10).blk t).view.set ↔ ∀ a : Fin 4, win0_10.index t a * S1x1x256x256.size a ≤ (i a).val ∧ (i a).val < win0_10.index t a * S1x1x256x256.size a + S1x1x256x256.size a := by
  show i ∈ ((View.whole main_v0_0).slice (win0_10.rect t)).set ↔ _
  rw [View.set_slice_whole, Rect.mem_set_unit]
  exact Iff.rfl

theorem cover10_at (i : S2x4x256x256.Idx) (t : Fin cfg0.N) (ht : t.val = ((i 0).val * 4 + (i 1).val) * 8 + 7) :
    (cfg0.win 10).flush t = true ∧ i ∈ ((cfg0.win 10).blk t).view.set := by
  have hi0 : (i 0).val < 2 := (i 0).isLt
  have hi1 : (i 1).val < 4 := (i 1).isLt
  have hi2 : (i 2).val < 256 := (i 2).isLt
  have hi3 : (i 3).val < 256 := (i 3).isLt
  obtain ⟨-, -, -, -, -, -, -, -, -, -, -, -, -, -, e0, e1, e2, e3, -⟩ := idx_facts t
  refine ⟨(flush0_10 t).mpr (by omega), ?_⟩
  rw [mem_blk10]
  intro a
  match a with
  | ⟨0, _⟩ => show win0_10.index t (0 : Fin 4) * 1 ≤ (i 0).val ∧ (i 0).val < win0_10.index t (0 : Fin 4) * 1 + 1; rw [e0]; omega
  | ⟨1, _⟩ => show win0_10.index t (1 : Fin 4) * 1 ≤ (i 1).val ∧ (i 1).val < win0_10.index t (1 : Fin 4) * 1 + 1; rw [e1]; omega
  | ⟨2, _⟩ => show win0_10.index t (2 : Fin 4) * 256 ≤ (i 2).val ∧ (i 2).val < win0_10.index t (2 : Fin 4) * 256 + 256; rw [e2]; omega
  | ⟨3, _⟩ => show win0_10.index t (3 : Fin 4) * 256 ≤ (i 3).val ∧ (i 3).val < win0_10.index t (3 : Fin 4) * 256 + 256; rw [e3]; omega

theorem cover10 (i : S2x4x256x256.Idx) :
    ∃ t : Fin cfg0.N, (cfg0.win 10).flush t = true ∧ i ∈ ((cfg0.win 10).blk t).view.set := by
  have hi0 : (i 0).val < 2 := (i 0).isLt
  have hi1 : (i 1).val < 4 := (i 1).isLt
  obtain ⟨t, ht⟩ : ∃ t : Fin cfg0.N, t.val = ((i 0).val * 4 + (i 1).val) * 8 + 7 :=
    ⟨⟨((i 0).val * 4 + (i 1).val) * 8 + 7, Nat.lt_of_lt_of_eq (by omega) N_0.symm⟩, rfl⟩
  exact ⟨t, cover10_at i t ht⟩

/-- THE ARRAY after the first region. -/
theorem final10 (c : Dev nD) : (dat0 V c).arrAt 10 cfg0.N = AttnG V c :=
  (dat0 V c).arrAt_eq_of_cover 10 (AttnG V c) (fun t hf => flushed10_eq V c t hf) cover10

set_option maxRecDepth 200000 in
theorem flushed11_eq (c : Dev nD) (t : Fin cfg0.N) (hf : (cfg0.win 11).flush t = true) :
    (dat0 V c).flushed 11 t = ((cfg0.win 11).blk t).view.read (Elt Ideal) (AttnL V c) := by
  have h1 : t.val % 8 = 7 := (flush0_11 t).mp hf
  have e := idx_facts t
  show (cfg0.win 11).cut (grid0.coords t) ((dat0 V c).after 11 t) = _
  rw [after0_11]
  refine funext fun (y : S1x1x256x256.Idx) => ?_
  obtain ⟨y0, y1, d, e', rfl⟩ : ∃ (y0 : Fin 1) (y1 : Fin 1) (d e' : Fin 256), y = ix4 y0 y1 d e' := ⟨y 0, y 1, y 2, y 3, eq_ix4 y⟩
  obtain rfl : y0 = 0 := Subsingleton.elim _ _
  obtain rfl : y1 = 0 := Subsingleton.elim _ _
  have hi : ((cfg0.win 11).blk t).view.emb (ix4 (0 : Fin 1) (0 : Fin 1) d e') = ix4 (bbOf t) (hOf t) d e' := by
    funext a; apply Fin.ext
    match a with
    | ⟨0, _⟩ => show win0_11.index t (0 : Fin 4) * 1 + 1 * 0 = t.val / 32; omega
    | ⟨1, _⟩ => show win0_11.index t (1 : Fin 4) * 1 + 1 * 0 = t.val / 8 % 4; omega
    | ⟨2, _⟩ => show win0_11.index t (2 : Fin 4) * 256 + 1 * d.val = d.val; omega
    | ⟨3, _⟩ => show win0_11.index t (3 : Fin 4) * 256 + 1 * e'.val = e'.val; omega
  show (outAt0 V c t).2 (ix4 (0 : Fin 1) (0 : Fin 1) d e') = AttnL V c (((cfg0.win 11).blk t).view.emb (ix4 (0 : Fin 1) (0 : Fin 1) d e'))
  rw [hi]
  exact (outAt0_apply V c t h1 d e').2

theorem mem_blk11 (t : Fin cfg0.N) (i : S2x4x256x256.Idx) :
    i ∈ ((cfg0.win 11).blk t).view.set ↔ ∀ a : Fin 4, win0_11.index t a * S1x1x256x256.size a ≤ (i a).val ∧ (i a).val < win0_11.index t a * S1x1x256x256.size a + S1x1x256x256.size a := by
  show i ∈ ((View.whole main_v0_1).slice (win0_11.rect t)).set ↔ _
  rw [View.set_slice_whole, Rect.mem_set_unit]
  exact Iff.rfl

theorem cover11_at (i : S2x4x256x256.Idx) (t : Fin cfg0.N) (ht : t.val = ((i 0).val * 4 + (i 1).val) * 8 + 7) :
    (cfg0.win 11).flush t = true ∧ i ∈ ((cfg0.win 11).blk t).view.set := by
  have hi0 : (i 0).val < 2 := (i 0).isLt
  have hi1 : (i 1).val < 4 := (i 1).isLt
  have hi2 : (i 2).val < 256 := (i 2).isLt
  have hi3 : (i 3).val < 256 := (i 3).isLt
  obtain ⟨-, -, -, -, -, -, -, -, -, -, -, -, -, -, -, -, -, -, e0, e1, e2, e3⟩ := idx_facts t
  refine ⟨(flush0_11 t).mpr (by omega), ?_⟩
  rw [mem_blk11]
  intro a
  match a with
  | ⟨0, _⟩ => show win0_11.index t (0 : Fin 4) * 1 ≤ (i 0).val ∧ (i 0).val < win0_11.index t (0 : Fin 4) * 1 + 1; rw [e0]; omega
  | ⟨1, _⟩ => show win0_11.index t (1 : Fin 4) * 1 ≤ (i 1).val ∧ (i 1).val < win0_11.index t (1 : Fin 4) * 1 + 1; rw [e1]; omega
  | ⟨2, _⟩ => show win0_11.index t (2 : Fin 4) * 256 ≤ (i 2).val ∧ (i 2).val < win0_11.index t (2 : Fin 4) * 256 + 256; rw [e2]; omega
  | ⟨3, _⟩ => show win0_11.index t (3 : Fin 4) * 256 ≤ (i 3).val ∧ (i 3).val < win0_11.index t (3 : Fin 4) * 256 + 256; rw [e3]; omega

theorem cover11 (i : S2x4x256x256.Idx) :
    ∃ t : Fin cfg0.N, (cfg0.win 11).flush t = true ∧ i ∈ ((cfg0.win 11).blk t).view.set := by
  have hi0 : (i 0).val < 2 := (i 0).isLt
  have hi1 : (i 1).val < 4 := (i 1).isLt
  obtain ⟨t, ht⟩ : ∃ t : Fin cfg0.N, t.val = ((i 0).val * 4 + (i 1).val) * 8 + 7 :=
    ⟨⟨((i 0).val * 4 + (i 1).val) * 8 + 7, Nat.lt_of_lt_of_eq (by omega) N_0.symm⟩, rfl⟩
  exact ⟨t, cover11_at i t ht⟩

/-- THE ARRAY after the first region. -/
theorem final11 (c : Dev nD) : (dat0 V c).arrAt 11 cfg0.N = AttnL V c :=
  (dat0 V c).arrAt_eq_of_cover 11 (AttnL V c) (fun t hf => flushed11_eq V c t hf) cover11

end Cert.KernelIdeal.Val0

end
-- ==== Proof.IdealValue1.lean ====
import proofs.«137963_j12481174962634_2_alg».proof.Proof.IdealPieces
import proofs.«137963_j12481174962634_2_alg».proof.Proof.PayloadsIdeal
import proofs.«137963_j12481174962634_2_alg».proof.Proof.Spec
import Idealize.ShloMosaic.Lib.Pipeline.Value
import Idealize.ShloMosaic.Lib.ValueIdx

noncomputable section

open scoped BigOperators

/-! # The second kernel's result array

The second kernel runs over the grid of (batch, head, tile) = (2, 4, 4) points.  At a point it reads the block of the
value array at rows tile · 4096 … and channels head · 256 …, the head's 256 entries of the six per-channel vectors and
the head's two 256 × 256 attention matrices, and writes the same block of the result array.  Here: each block read at
literal coordinates is the array at the shifted coordinates; what a point writes back is its block of one function of
the whole arrays; the 32 blocks tile the result array; so the array ends holding that function. -/

namespace Cert.KernelIdeal.Val1

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand Cert.Spec

/-- The head and the channel within it of channel d of head h. -/
theorem headOf_ch (h : Fin 4) (d : Fin 256) : headOf (ch h d) = h := by
  apply Fin.ext; simp only [headOf, ch]; omega
theorem subOf_ch (h : Fin 4) (d : Fin 256) : subOf (ch h d) = d := by
  apply Fin.ext; simp only [subOf, ch]; omega

/-- The result array as one function of the value array, the six per-channel vectors and the two attention arrays:
    at (b, n, c), with h the head of c and d its channel within the head, twice the sum of the two branches' sums over the
    head's channels e of the affinely mapped value at e times the attention weight at (d, e), mapped affinely. -/
def outFn (v : Cert.Spec.Act) (wvg bvg wvl bvl wp bp : Cert.Spec.Chan) (Ag Al : (⟨4, ![2, 4, 256, 256]⟩ : Shape).Idx → EReal) :
    Cert.Spec.Act := fun j =>
  Ideal.ofBits .f32 0x40000000#32
      * ((∑ e : Fin 256, aff v wvg bvg (j 0) (j 1) (ch (headOf (j 2)) e) * Ag (ix4 (j 0) (headOf (j 2)) (subOf (j 2)) e))
        + (∑ e : Fin 256, aff v wvl bvl (j 0) (j 1) (ch (headOf (j 2)) e) * Al (ix4 (j 0) (headOf (j 2)) (subOf (j 2)) e)))
    * wp (ix1 (ch (headOf (j 2)) (subOf (j 2)))) + bp (ix1 (ch (headOf (j 2)) (subOf (j 2))))

/-- The block indices at a point, decided over the grid: point t has batch t / 16, head t / 4 % 4 and tile t % 4. -/
theorem idx_facts : ∀ t : Fin cfg1.N,
    (win1_0.index t (0 : Fin 3) = t.val / 16 ∧ win1_0.index t (1 : Fin 3) = t.val % 4 ∧ win1_0.index t (2 : Fin 3) = t.val / 4 % 4)
    ∧ (win1_9.index t (0 : Fin 3) = t.val / 16 ∧ win1_9.index t (1 : Fin 3) = t.val % 4 ∧ win1_9.index t (2 : Fin 3) = t.val / 4 % 4)
    ∧ (win1_1.index t (0 : Fin 1) = t.val / 4 % 4 ∧ win1_2.index t (0 : Fin 1) = t.val / 4 % 4 ∧ win1_3.index t (0 : Fin 1) = t.val / 4 % 4
      ∧ win1_4.index t (0 : Fin 1) = t.val / 4 % 4 ∧ win1_5.index t (0 : Fin 1) = t.val / 4 % 4 ∧ win1_6.index t (0 : Fin 1) = t.val / 4 % 4)
    ∧ (win1_7.index t (0 : Fin 4) = t.val / 16 ∧ win1_7.index t (1 : Fin 4) = t.val / 4 % 4 ∧ win1_7.index t (2 : Fin 4) = 0 ∧ win1_7.index t (3 : Fin 4) = 0)
    ∧ (win1_8.index t (0 : Fin 4) = t.val / 16 ∧ win1_8.index t (1 : Fin 4) = t.val / 4 % 4 ∧ win1_8.index t (2 : Fin 4) = 0 ∧ win1_8.index t (3 : Fin 4) = 0) :=
  (by decide +kernel : ∀ t : Fin grid1.N, _)

section Region1
variable (V : (c : Dev nD) → (b : Ref sig .tc) → Buf (Elt Ideal) ((c : Thread nD τ).loc b))

/-- What the body leaves in the output block at a point: its payload of the nine input blocks. -/
theorem out1_eq (c : Dev nD) (t : Fin cfg1.N) :
    out1 V c t = k1_pay1 (k1_pay2 (iblk1 V c 0 t) (iblk1 V c 1 t) (iblk1 V c 2 t) (iblk1 V c 3 t) (iblk1 V c 4 t)
      (iblk1 V c 7 t) (iblk1 V c 8 t) (iblk1 V c 5 t)) (k1_pay3 (iblk1 V c 6 t)) := by
  unfold out1
  rw [View.read_writes_eq_canon _ _ _ (cover1_9 V c t)]
  unfold run1
  exact canon1 c (grid1.coords t) (ms1_0 t) (hs1_0 t) (ms1_1 t) (hs1_1 t) (ms1_2 t) (hs1_2 t) (ms1_3 t) (hs1_3 t)
    (ms1_4 t) (hs1_4 t) (ms1_5 t) (hs1_5 t) (ms1_6 t) (hs1_6 t) (ms1_7 t) (hs1_7 t) (ms1_8 t) (hs1_8 t) (ms1_9 t) (hs1_9 t)
    (iblk1 V c 0 t) (iblk1 V c 1 t) (iblk1 V c 2 t) (iblk1 V c 3 t) (iblk1 V c 4 t) (iblk1 V c 5 t) (iblk1 V c 6 t)
    (iblk1 V c 7 t) (iblk1 V c 8 t)

/-! ## A point's coordinates and its blocks read at literal coordinates -/

/-- The batch, the head and the first row of point t. -/
def pb (t : Fin cfg1.N) : Fin 2 := ⟨t.val / 16, by have h : t.val < 32 := Nat.lt_of_lt_of_eq t.isLt N_1; omega⟩
def ph (t : Fin cfg1.N) : Fin 4 := ⟨t.val / 4 % 4, by omega⟩
def prow (t : Fin cfg1.N) (n : Fin 4096) : Fin 16384 := ⟨t.val % 4 * 4096 + n.val, by have := n.isLt; omega⟩

/-- The value block at (0, n, e) is the value array at the point's batch, row n of its tile, channel e of its head. -/
theorem blk0_at (c : Dev nD) (t : Fin cfg1.N) (n : Fin 4096) (e : Fin 256) :
    (iblk1 V c 0 t : Vec Ideal S1x4096x256 .f32) (ix3 (0 : Fin 1) n e)
      = (V c main_arg2 : S2x16384x1024.Idx → Elt Ideal .f32) (ix3 (pb t) (prow t n) (ch (ph t) e)) := by
  obtain ⟨⟨e0, e1, e2⟩, -⟩ := idx_facts t
  unfold iblk1
  rw [View.read_apply]
  show V c main_arg2 _ = V c main_arg2 _
  congr 1
  funext a; apply Fin.ext
  match a with
  | ⟨0, _⟩ => show win1_0.index t (0 : Fin 3) * 1 + 1 * 0 = t.val / 16; rw [e0]; omega
  | ⟨1, _⟩ => show win1_0.index t (1 : Fin 3) * 4096 + 1 * n.val = t.val % 4 * 4096 + n.val; rw [e1]; omega
  | ⟨2, _⟩ => show win1_0.index t (2 : Fin 3) * 256 + 1 * e.val = t.val / 4 % 4 * 256 + e.val; rw [e2]; omega

/-- A per-channel vector's block at e is the vector at channel e of the point's head. -/
theorem blk1_at (c : Dev nD) (t : Fin cfg1.N) (e : Fin 256) :
    (iblk1 V c 1 t : Vec Ideal S256 .f32) (ix1 e) = (V c main_arg7 : S1024.Idx → Elt Ideal .f32) (ix1 (ch (ph t) e)) := by
  obtain ⟨-, -, ⟨e1, -⟩, -⟩ := idx_facts t
  unfold iblk1
  rw [View.read_apply]
  show V c main_arg7 _ = V c main_arg7 _
  congr 1
  funext a; apply Fin.ext
  match a with
  | ⟨0, _⟩ => show win1_1.index t (0 : Fin 1) * 256 + 1 * e.val = t.val / 4 % 4 * 256 + e.val; rw [e1]; omega
theorem blk2_at (c : Dev nD) (t : Fin cfg1.N) (e : Fin 256) :
    (iblk1 V c 2 t : Vec Ideal S256 .f32) (ix1 e) = (V c main_arg8 : S1024.Idx → Elt Ideal .f32) (ix1 (ch (ph t) e)) := by
  obtain ⟨-, -, ⟨-, e1, -⟩, -⟩ := idx_facts t
  unfold iblk1
  rw [View.read_apply]
  show V c main_arg8 _ = V c main_arg8 _
  congr 1
  funext a; apply Fin.ext
  match a with
  | ⟨0, _⟩ => show win1_2.index t (0 : Fin 1) * 256 + 1 * e.val = t.val / 4 % 4 * 256 + e.val; rw [e1]; omega
theorem blk3_at (c : Dev nD) (t : Fin cfg1.N) (e : Fin 256) :
    (iblk1 V c 3 t : Vec Ideal S256 .f32) (ix1 e) = (V c main_arg13 : S1024.Idx → Elt Ideal .f32) (ix1 (ch (ph t) e)) := by
  obtain ⟨-, -, ⟨-, -, e1, -⟩, -⟩ := idx_facts t
  unfold iblk1
  rw [View.read_apply]
  show V c main_arg13 _ = V c main_arg13 _
  congr 1
  funext a; apply Fin.ext
  match a with
  | ⟨0, _⟩ => show win1_3.index t (0 : Fin 1) * 256 + 1 * e.val = t.val / 4 % 4 * 256 + e.val; rw [e1]; omega
theorem blk4_at (c : Dev nD) (t : Fin cfg1.N) (e : Fin 256) :
    (iblk1 V c 4 t : Vec Ideal S256 .f32) (ix1 e) = (V c main_arg14 : S1024.Idx → Elt Ideal .f32) (ix1 (ch (ph t) e)) := by
  obtain ⟨-, -, ⟨-, -, -, e1, -⟩, -⟩ := idx_facts t
  unfold iblk1
  rw [View.read_apply]
  show V c main_arg14 _ = V c main_arg14 _
  congr 1
  funext a; apply Fin.ext
  match a with
  | ⟨0, _⟩ => show win1_4.index t (0 : Fin 1) * 256 + 1 * e.val = t.val / 4 % 4 * 256 + e.val; rw [e1]; omega
theorem blk5_at (c : Dev nD) (t : Fin cfg1.N) (e : Fin 256) :
    (iblk1 V c 5 t : Vec Ideal S256 .f32) (ix1 e) = (V c main_arg15 : S1024.Idx → Elt Ideal .f32) (ix1 (ch (ph t) e)) := by
  obtain ⟨-, -, ⟨-, -, -, -, e1, -⟩, -⟩ := idx_facts t
  unfold iblk1
  rw [View.read_apply]
  show V c main_arg15 _ = V c main_arg15 _
  congr 1
  funext a; apply Fin.ext
  match a with
  | ⟨0, _⟩ => show win1_5.index t (0 : Fin 1) * 256 + 1 * e.val = t.val / 4 % 4 * 256 + e.val; rw [e1]; omega
theorem blk6_at (c : Dev nD) (t : Fin cfg1.N) (e : Fin 256) :
    (iblk1 V c 6 t : Vec Ideal S256 .f32) (ix1 e) = (V c main_arg16 : S1024.Idx → Elt Ideal .f32) (ix1 (ch (ph t) e)) := by
  obtain ⟨-, -, ⟨-, -, -, -, -, e1⟩, -⟩ := idx_facts t
  unfold iblk1
  rw [View.read_apply]
  show V c main_arg16 _ = V c main_arg16 _
  congr 1
  funext a; apply Fin.ext
  match a with
  | ⟨0, _⟩ => show win1_6.index t (0 : Fin 1) * 256 + 1 * e.val = t.val / 4 % 4 * 256 + e.val; rw [e1]; omega

/-- An attention block at (0, 0, d, e) is the attention array at the point's batch and head, at (d, e). -/
theorem blk7_at (c : Dev nD) (t : Fin cfg1.N) (d e : Fin 256) :
    (iblk1 V c 7 t : Vec Ideal S1x1x256x256 .f32) (ix4 (0 : Fin 1) (0 : Fin 1) d e)
      = (V c main_v0_0 : S2x4x256x256.Idx → Elt Ideal .f32) (ix4 (pb t) (ph t) d e) := by
  obtain ⟨-, -, -, ⟨e0, e1, e2, e3⟩, -⟩ := idx_facts t
  unfold iblk1
  rw [View.read_apply]
  show V c main_v0_0 _ = V c main_v0_0 _
  congr 1
  funext a; apply Fin.ext
  match a with
  | ⟨0, _⟩ => show win1_7.index t (0 : Fin 4) * 1 + 1 * 0 = t.val / 16; rw [e0]; omega
  | ⟨1, _⟩ => show win1_7.index t (1 : Fin 4) * 1 + 1 * 0 = t.val / 4 % 4; rw [e1]; omega
  | ⟨2, _⟩ => show win1_7.index t (2 : Fin 4) * 256 + 1 * d.val = d.val; rw [e2]; omega
  | ⟨3, _⟩ => show win1_7.index t (3 : Fin 4) * 256 + 1 * e.val = e.val; rw [e3]; omega
theorem blk8_at (c : Dev nD) (t : Fin cfg1.N) (d e : Fin 256) :
    (iblk1 V c 8 t : Vec Ideal S1x1x256x256 .f32) (ix4 (0 : Fin 1) (0 : Fin 1) d e)
      = (V c main_v0_1 : S2x4x256x256.Idx → Elt Ideal .f32) (ix4 (pb t) (ph t) d e) := by
  obtain ⟨-, -, -, -, ⟨e0, e1, e2, e3⟩⟩ := idx_facts t
  unfold iblk1
  rw [View.read_apply]
  show V c main_v0_1 _ = V c main_v0_1 _
  congr 1
  funext a; apply Fin.ext
  match a with
  | ⟨0, _⟩ => show win1_8.index t (0 : Fin 4) * 1 + 1 * 0 = t.val / 16; rw [e0]; omega
  | ⟨1, _⟩ => show win1_8.index t (1 : Fin 4) * 1 + 1 * 0 = t.val / 4 % 4; rw [e1]; omega
  | ⟨2, _⟩ => show win1_8.index t (2 : Fin 4) * 256 + 1 * d.val = d.val; rw [e2]; omega
  | ⟨3, _⟩ => show win1_8.index t (3 : Fin 4) * 256 + 1 * e.val = e.val; rw [e3]; omega

/-! ## What a point writes back -/

/-- The function at literal coordinates. -/
theorem outFn_at (v : Cert.Spec.Act) (wvg bvg wvl bvl wp bp : Cert.Spec.Chan) (Ag Al : (⟨4, ![2, 4, 256, 256]⟩ : Shape).Idx → EReal)
    (bb : Fin 2) (m : Fin 16384) (c : Fin 1024) :
    outFn v wvg bvg wvl bvl wp bp Ag Al (ix3 bb m c)
      = Ideal.ofBits .f32 0x40000000#32
          * ((∑ e : Fin 256, aff v wvg bvg bb m (ch (headOf c) e) * Ag (ix4 bb (headOf c) (subOf c) e))
            + (∑ e : Fin 256, aff v wvl bvl bb m (ch (headOf c) e) * Al (ix4 bb (headOf c) (subOf c) e)))
        * wp (ix1 (ch (headOf c) (subOf c))) + bp (ix1 (ch (headOf c) (subOf c))) := rfl

/-- One point's output at (0, n, d), given what its nine blocks are of the whole arrays: the function at the point's
    batch, row n of its tile and channel d of its head. -/
theorem point_eq (b0 : Vec Ideal S1x4096x256 .f32) (b1 b2 b3 b4 b5 b6 : Vec Ideal S256 .f32) (b7 b8 : Vec Ideal S1x1x256x256 .f32)
    (v : Cert.Spec.Act) (wvg bvg wvl bvl wp bp : Cert.Spec.Chan) (Ag Al : (⟨4, ![2, 4, 256, 256]⟩ : Shape).Idx → EReal)
    (bb : Fin 2) (h : Fin 4) (r : Fin 4096 → Fin 16384)
    (h0 : ∀ n e, b0 (ix3 (0 : Fin 1) n e) = v (ix3 bb (r n) (ch h e)))
    (h1 : ∀ e, b1 (ix1 e) = wvg (ix1 (ch h e))) (h2 : ∀ e, b2 (ix1 e) = bvg (ix1 (ch h e)))
    (h3 : ∀ e, b3 (ix1 e) = wvl (ix1 (ch h e))) (h4 : ∀ e, b4 (ix1 e) = bvl (ix1 (ch h e)))
    (h5 : ∀ e, b5 (ix1 e) = wp (ix1 (ch h e))) (h6 : ∀ e, b6 (ix1 e) = bp (ix1 (ch h e)))
    (h7 : ∀ d e, b7 (ix4 (0 : Fin 1) (0 : Fin 1) d e) = Ag (ix4 bb h d e))
    (h8 : ∀ d e, b8 (ix4 (0 : Fin 1) (0 : Fin 1) d e) = Al (ix4 bb h d e))
    (n : Fin 4096) (d : Fin 256) :
    k1_pay1 (F := Ideal) (k1_pay2 (F := Ideal) b0 b1 b2 b3 b4 b7 b8 b5) (k1_pay3 (F := Ideal) b6) (ix3 (0 : Fin 1) n d)
      = outFn v wvg bvg wvl bvl wp bp Ag Al (ix3 bb (r n) (ch h d)) := by
  rw [outFn_at, headOf_ch, subOf_ch, Pay.pay_out_apply]
  simp only [h0, h1, h2, h3, h4, h5, h6, h7, h8, aff]

/-- What point t writes back is block t of the function of the arrays as the region finds them. -/
theorem flushed_eq (c : Dev nD) (t : Fin cfg1.N) :
    (dat1 V c).flushed 9 t = ((cfg1.win 9).blk t).view.read (Elt Ideal) (outFn (V c main_arg2) (V c main_arg7) (V c main_arg8) (V c main_arg13) (V c main_arg14) (V c main_arg15) (V c main_arg16) (V c main_v0_0) (V c main_v0_1)) := by
  show (cfg1.win 9).cut (grid1.coords t) ((dat1 V c).after 9 t) = _
  rw [after1_9, out1_eq]
  refine funext fun (y : S1x4096x256.Idx) => ?_
  obtain ⟨z, n, d, rfl⟩ : ∃ (z : Fin 1) (n : Fin 4096) (d : Fin 256), y = ix3 z n d := ⟨y 0, y 1, y 2, eq_ix3 y⟩
  obtain rfl : z = 0 := Subsingleton.elim _ _
  obtain ⟨-, ⟨e0, e1, e2⟩, -⟩ := idx_facts t
  have hi : ((cfg1.win 9).blk t).view.emb (ix3 (0 : Fin 1) n d) = ix3 (pb t) (prow t n) (ch (ph t) d) := by
    funext a; apply Fin.ext
    match a with
    | ⟨0, _⟩ => show win1_9.index t (0 : Fin 3) * 1 + 1 * 0 = t.val / 16; rw [e0]; omega
    | ⟨1, _⟩ => show win1_9.index t (1 : Fin 3) * 4096 + 1 * n.val = t.val % 4 * 4096 + n.val; rw [e1]; omega
    | ⟨2, _⟩ => show win1_9.index t (2 : Fin 3) * 256 + 1 * d.val = t.val / 4 % 4 * 256 + d.val; rw [e2]; omega
  show k1_pay1 (F := Ideal) (k1_pay2 (F := Ideal) (iblk1 V c 0 t) (iblk1 V c 1 t) (iblk1 V c 2 t) (iblk1 V c 3 t) (iblk1 V c 4 t)
      (iblk1 V c 7 t) (iblk1 V c 8 t) (iblk1 V c 5 t)) (k1_pay3 (F := Ideal) (iblk1 V c 6 t)) (ix3 (0 : Fin 1) n d)
    = (outFn (V c main_arg2) (V c main_arg7) (V c main_arg8) (V c main_arg13) (V c main_arg14) (V c main_arg15) (V c main_arg16) (V c main_v0_0) (V c main_v0_1)) (((cfg1.win 9).blk t).view.emb (ix3 (0 : Fin 1) n d))
  rw [hi]
  exact point_eq _ _ _ _ _ _ _ _ _ _ _ _ _ _ _ _ _ _ (pb t) (ph t) (prow t) (blk0_at V c t) (blk1_at V c t) (blk2_at V c t)
    (blk3_at V c t) (blk4_at V c t) (blk5_at V c t) (blk6_at V c t) (blk7_at V c t) (blk8_at V c t) n d

/-! ## The blocks tile the result array -/

/-- An index of the result array is in point t's block iff each coordinate is in the block's range on its axis. -/
theorem mem_blk (t : Fin cfg1.N) (i : S2x16384x1024.Idx) :
    i ∈ ((cfg1.win 9).blk t).view.set ↔ ∀ a : Fin 3, win1_9.index t a * S1x4096x256.size a ≤ (i a).val
      ∧ (i a).val < win1_9.index t a * S1x4096x256.size a + S1x4096x256.size a := by
  show i ∈ ((View.whole main_v1).slice (win1_9.rect t)).set ↔ _
  rw [View.set_slice_whole, Rect.mem_set_unit]
  exact Iff.rfl

/-- Every index (b, n, c) of the result array is in the block of the point of batch b, head c / 256 and tile n / 4096. -/
theorem cover (i : S2x16384x1024.Idx) : ∃ t : Fin cfg1.N, (cfg1.win 9).flush t = true ∧ i ∈ ((cfg1.win 9).blk t).view.set := by
  have h0 : (i 0).val < 2 := (i 0).isLt
  have h1 : (i 1).val < 16384 := (i 1).isLt
  have h2 : (i 2).val < 1024 := (i 2).isLt
  obtain ⟨t, ht⟩ : ∃ t : Fin cfg1.N, t.val = ((i 0).val * 4 + (i 2).val / 256) * 4 + (i 1).val / 4096 :=
    ⟨⟨((i 0).val * 4 + (i 2).val / 256) * 4 + (i 1).val / 4096, Nat.lt_of_lt_of_eq (by omega) N_1.symm⟩, rfl⟩
  refine ⟨t, flush1_9 t, ?_⟩
  obtain ⟨-, ⟨e0, e1, e2⟩, -⟩ := idx_facts t
  rw [mem_blk]
  intro a
  match a with
  | ⟨0, _⟩ => show win1_9.index t (0 : Fin 3) * 1 ≤ (i 0).val ∧ (i 0).val < win1_9.index t (0 : Fin 3) * 1 + 1; rw [e0]; omega
  | ⟨1, _⟩ => show win1_9.index t (1 : Fin 3) * 4096 ≤ (i 1).val ∧ (i 1).val < win1_9.index t (1 : Fin 3) * 4096 + 4096; rw [e1]; omega
  | ⟨2, _⟩ => show win1_9.index t (2 : Fin 3) * 256 ≤ (i 2).val ∧ (i 2).val < win1_9.index t (2 : Fin 3) * 256 + 256; rw [e2]; omega

/-! ## The result -/

/-- The result array after the second kernel is the function of the arrays as the region finds them. -/
theorem final1 (c : Dev nD) : (dat1 V c).arrAt 9 cfg1.N = (outFn (V c main_arg2) (V c main_arg7) (V c main_arg8) (V c main_arg13) (V c main_arg14) (V c main_arg15) (V c main_arg16) (V c main_v0_0) (V c main_v0_1)) :=
  (dat1 V c).arrAt_eq_of_cover 9 _ (fun t _ => flushed_eq V c t) cover

end Region1

end Cert.KernelIdeal.Val1

end
-- ==== Proof.RefValue.lean ====
import proofs.«137963_j12481174962634_2_alg».proof.Proof.Gen.ReferenceIdeal.Read
import proofs.«137963_j12481174962634_2_alg».proof.Proof.Spec

noncomputable section

open scoped BigOperators

/-! # The reference program computes the specification's function

The reference is read one operation at a time, at an index given by literal coordinates: the per-channel affine map at
(b, n, c); its head split at (b, h, d, n), where the channel is h · 256 + d; the score at (b, h, d, e) as the sum
over the positions; the scaled row's maximum, exponentials, their sum and the quotient, which is the attention weight;
the second contraction at (b, h, d, n), which is the branch's output; the merge of the heads back to the channel
c, whose head is c / 256 and whose channel within the head is c % 256; and the final sum of the two branches,
doubled and mapped affinely.  The local branch is the same chain of operations applied to other argument arrays. -/

namespace Cert.RefValue

open Cert.ReferenceIdeal Cert.ReferenceIdeal.Gen Cert.ReferenceIdeal.Read Idealize.ShloMosaic Idealize.ShloMosaic.ValueIdx
  Cert.Spec

/-- An activation array and a per-channel vector, as the reference's operations take them. -/
abbrev A3 := (⟨S2x16384x1024, .f32⟩ : BufTy).Contents (Elt Ideal)
abbrev A1 := (⟨S1024, .f32⟩ : BufTy).Contents (Elt Ideal)

/-! ## The affine map and its head split -/

/-- The affine map at a batch, a position and a channel. -/
theorem aff_at (x : A3) (w b : A1) (bb : Fin 2) (n : Fin 16384) (c : Fin 1024) :
    val_main_v5 (F := Ideal) x w b (ix3 bb n c) = aff x w b bb n c := by
  have e0 : idx_main_v0 (idx_main_v1 (ix3 bb n c)) = ix1 c :=
    funext fun a => Fin.ext (by match a with | ⟨0, _⟩ => rfl)
  have e3 : idx_main_v3 (idx_main_v4 (ix3 bb n c)) = ix1 c :=
    funext fun a => Fin.ext (by match a with | ⟨0, _⟩ => rfl)
  rw [val_main_v5_apply, val_main_v2_apply, val_main_v1_apply, val_main_v0_apply, val_main_v4_apply,
    val_main_v3_apply, e0, e3]
  rfl

/-- Channel d of head h at position n sits at flat channel h · 256 + d. -/
theorem split_idx (bb : Fin 2) (h : Fin 4) (d : Fin 256) (n : Fin 16384) :
    idx_main_v18 (idx_main_v19 (ix4 bb h d n)) = ix3 bb n (ch h d) := by
  funext a; apply Fin.ext
  have h0 := bb.isLt; have h1 := n.isLt; have h2 := h.isLt; have h3 := d.isLt
  match a with
  | ⟨0, _⟩ => show (((bb.val * 16384 + n.val) * 4 + h.val) * 256 + d.val) / 16777216 = bb.val; omega
  | ⟨1, _⟩ => show (((bb.val * 16384 + n.val) * 4 + h.val) * 256 + d.val) / 1024 % 16384 = n.val; omega
  | ⟨2, _⟩ => show (((bb.val * 16384 + n.val) * 4 + h.val) * 256 + d.val) % 1024 = h.val * 256 + d.val; omega

/-- The head-split, transposed affine map at (b, h, d, n). -/
theorem head_at (x : A3) (w b : A1) (bb : Fin 2) (h : Fin 4) (d : Fin 256) (n : Fin 16384) :
    val_main_v19 (F := Ideal) x w b (ix4 bb h d n) = aff x w b bb n (ch h d) := by
  rw [val_main_v19_apply, val_main_v18_apply, split_idx, aff_at]

/-- The key's and the value's head splits are the same operations on other arguments. -/
theorem v21_eq (x : A3) (w b : A1) : val_main_v21 (F := Ideal) x w b = val_main_v19 (F := Ideal) x w b := rfl
theorem v23_eq (x : A3) (w b : A1) : val_main_v23 (F := Ideal) x w b = val_main_v19 (F := Ideal) x w b := rfl

/-! ## The score, its scaled row and the softmax -/

/-- The score at (b, h, d, e): the first contraction sums over the positions. -/
theorem score_at (q k : A3) (wq bq wk bk : A1) (bb : Fin 2) (h : Fin 4) (d e : Fin 256) :
    val_main_v24 (F := Ideal) q k wq bq wk bk (ix4 bb h d e) = score q k wq bq wk bk bb h d e := by
  rw [val_main_v24_apply]
  unfold score
  refine Finset.sum_congr rfl fun n _ => ?_
  have el : lidx_main_v24 (ix4 bb h d e) n = ix4 bb h d n :=
    funext fun a => Fin.ext (by match a with | ⟨0, _⟩ => rfl | ⟨1, _⟩ => rfl | ⟨2, _⟩ => rfl | ⟨3, _⟩ => rfl)
  have er : ridx_main_v24 (ix4 bb h d e) n = ix4 bb h e n :=
    funext fun a => Fin.ext (by match a with | ⟨0, _⟩ => rfl | ⟨1, _⟩ => rfl | ⟨2, _⟩ => rfl | ⟨3, _⟩ => rfl)
  rw [el, er, v21_eq, head_at, head_at]

/-- The scaled score at (b, h, d, e). -/
theorem scaled_at (q k : A3) (wq bq wk bk : A1) (bb : Fin 2) (h : Fin 4) (d e : Fin 256) :
    val_main_v26 (F := Ideal) q k wq bq wk bk (ix4 bb h d e)
      = score q k wq bq wk bk bb h d e * Ideal.ofBits .f32 0x3D000000#32 := by
  rw [val_main_v26_apply, score_at, val_main_v25_apply, val_main_cst_apply]
  rfl

/-- A maximum over the last axis of a [2, 4, 256, 256] array, at (b, h, d): the fold of the maximum, from the initial
    value, over the row's 256 entries. -/
theorem hostMax_at (y : FVec Ideal S2x4x256x256 .f32) (init : FVec Ideal S_ .f32) (bb : Fin 2) (h : Fin 4) (d : Fin 256) :
    Host.reduce (FloatOps.maximumf (F := Ideal) (φ := .f32)) y init reducesTo_S2x4x256x256_S2x4x256_d3 h_S_ (ix3 bb h d)
      = (Finset.univ : Finset (Fin 256)).fold max (init ix0) (fun e => y (ix4 bb h d e)) := by
  have hr : S2x4x256x256.Reduces [3] S2x4x256 := by decide
  refine (Host.reduce_eq_fold_single (FloatOps.maximumf (F := Ideal) (φ := .f32)) y init
    reducesTo_S2x4x256x256_S2x4x256_d3 hr h_S_ (ix3 bb h d)).trans ?_
  have e1 : Shape.Idx.first h_S_ = (ix0 : S_.Idx) := eq_ix0 _
  have e2 : (y ∘ hr.lift (ix3 bb h d)) = fun e : Fin 256 => y (ix4 bb h d e) :=
    funext fun e => congrArg y (funext fun a => Fin.ext (by
      match a with | ⟨0, _⟩ => rfl | ⟨1, _⟩ => rfl | ⟨2, _⟩ => rfl | ⟨3, _⟩ => rfl))
  rw [e1, e2]
  rfl

/-- The row maximum at (b, h, d), as the specification spells it. -/
theorem rowMax_at (q k : A3) (wq bq wk bk : A1) (bb : Fin 2) (h : Fin 4) (d : Fin 256) :
    val_main_v29 (F := Ideal) q k wq bq wk bk (ix3 bb h d)
      = rowMax (fun e => score q k wq bq wk bk bb h d e * Ideal.ofBits .f32 0x3D000000#32) := by
  rw [val_main_v29_apply, val_main_v28_apply, val_main_cst_1_apply]
  unfold val_main_v27
  rw [hostMax_at]
  simp only [scaled_at, val_main_cst_0_apply]
  unfold rowMax
  simp only [Ideal.maximumf_def, Ideal.ofBits_def]

/-- The same maximum, broadcast back along the row. -/
theorem rowMaxB_at (q k : A3) (wq bq wk bk : A1) (bb : Fin 2) (h : Fin 4) (d e : Fin 256) :
    val_main_v31 (F := Ideal) q k wq bq wk bk (ix4 bb h d e)
      = rowMax (fun e => score q k wq bq wk bk bb h d e * Ideal.ofBits .f32 0x3D000000#32) := by
  have ei : idx_main_v30 (idx_main_v31 (ix4 bb h d e)) = ix3 bb h d :=
    funext fun a => Fin.ext (by match a with | ⟨0, _⟩ => rfl | ⟨1, _⟩ => rfl | ⟨2, _⟩ => rfl)
  rw [val_main_v31_apply, val_main_v30_apply, ei, rowMax_at]

/-- The exponential of the scaled score less the row maximum. -/
theorem exp_at (q k : A3) (wq bq wk bk : A1) (bb : Fin 2) (h : Fin 4) (d e : Fin 256) :
    val_main_v33 (F := Ideal) q k wq bq wk bk (ix4 bb h d e)
      = Ideal.exp (score q k wq bq wk bk bb h d e * Ideal.ofBits .f32 0x3D000000#32
          - rowMax (fun e => score q k wq bq wk bk bb h d e * Ideal.ofBits .f32 0x3D000000#32)) := by
  rw [val_main_v33_apply, val_main_v32_apply, scaled_at, rowMaxB_at, Ideal.hostUnary_exp_def, Ideal.subf_def]

/-- The sum of the row's exponentials: the initial value is the zero word. -/
theorem sum_at (q k : A3) (wq bq wk bk : A1) (bb : Fin 2) (h : Fin 4) (d : Fin 256) :
    val_main_v34 (F := Ideal) q k wq bq wk bk (ix3 bb h d)
      = ∑ e' : Fin 256, Ideal.exp (score q k wq bq wk bk bb h d e' * Ideal.ofBits .f32 0x3D000000#32
          - rowMax (fun e => score q k wq bq wk bk bb h d e * Ideal.ofBits .f32 0x3D000000#32)) := by
  rw [val_main_v34_apply, val_main_cst_2_apply]
  show Ideal.ofBits .f32 0x00000000#32 + _ = _
  rw [Ideal.ofBits_zero_f32, zero_add]
  refine Finset.sum_congr rfl fun e' _ => ?_
  have ei : idx_main_v34 (ix3 bb h d) e' = ix4 bb h d e' :=
    funext fun a => Fin.ext (by match a with | ⟨0, _⟩ => rfl | ⟨1, _⟩ => rfl | ⟨2, _⟩ => rfl | ⟨3, _⟩ => rfl)
  rw [ei, exp_at]

/-- The attention weight at (b, h, d, e). -/
theorem attn_at (q k : A3) (wq bq wk bk : A1) (bb : Fin 2) (h : Fin 4) (d e : Fin 256) :
    val_main_v37 (F := Ideal) q k wq bq wk bk (ix4 bb h d e) = attn q k wq bq wk bk bb h d e := by
  have ei : idx_main_v35 (idx_main_v36 (ix4 bb h d e)) = ix3 bb h d :=
    funext fun a => Fin.ext (by match a with | ⟨0, _⟩ => rfl | ⟨1, _⟩ => rfl | ⟨2, _⟩ => rfl)
  rw [val_main_v37_apply, val_main_v36_apply, val_main_v35_apply, ei, sum_at, exp_at, Ideal.hostDivf_def]
  simp only [attn, softmaxRow]

/-! ## The branch's output and the merge of the heads -/

/-- The second contraction at (b, h, d, n): the sum over the head's channels e of the attention weight at (d, e) times
    the value at e. -/
theorem branch_at (q k v : A3) (wq bq wk bk wv bv : A1) (bb : Fin 2) (h : Fin 4) (d : Fin 256) (n : Fin 16384) :
    val_main_v38 (F := Ideal) q k v wq bq wk bk wv bv (ix4 bb h d n) = branch q k v wq bq wk bk wv bv bb n h d := by
  rw [val_main_v38_apply]
  unfold branch
  refine Finset.sum_congr rfl fun e _ => ?_
  have el : lidx_main_v38 (ix4 bb h d n) e = ix4 bb h d e :=
    funext fun a => Fin.ext (by match a with | ⟨0, _⟩ => rfl | ⟨1, _⟩ => rfl | ⟨2, _⟩ => rfl | ⟨3, _⟩ => rfl)
  have er : ridx_main_v38 (ix4 bb h d n) e = ix4 bb h e n :=
    funext fun a => Fin.ext (by match a with | ⟨0, _⟩ => rfl | ⟨1, _⟩ => rfl | ⟨2, _⟩ => rfl | ⟨3, _⟩ => rfl)
  rw [el, er, attn_at, v23_eq, head_at, mul_comm]

/-- Flat channel c at position n comes from head c / 256, channel c % 256. -/
theorem merge_idx (bb : Fin 2) (n : Fin 16384) (c : Fin 1024) :
    idx_main_v39 (idx_main_v40 (ix3 bb n c)) = ix4 bb (headOf c) (subOf c) n := by
  funext a; apply Fin.ext
  have h0 := bb.isLt; have h1 := n.isLt; have h2 := c.isLt
  match a with
  | ⟨0, _⟩ => show ((bb.val * 16384 + n.val) * 1024 + c.val) / 16777216 = bb.val; omega
  | ⟨1, _⟩ => show ((bb.val * 16384 + n.val) * 1024 + c.val) / 256 % 4 = c.val / 256; omega
  | ⟨2, _⟩ => show ((bb.val * 16384 + n.val) * 1024 + c.val) % 256 = c.val % 256; omega
  | ⟨3, _⟩ => show ((bb.val * 16384 + n.val) * 1024 + c.val) / 1024 % 16384 = n.val; omega

/-- The branch's output at (b, n, c). -/
theorem branchOut_at (q k v : A3) (wq bq wk bk wv bv : A1) (bb : Fin 2) (n : Fin 16384) (c : Fin 1024) :
    val_main_v40 (F := Ideal) q k v wq bq wk bk wv bv (ix3 bb n c)
      = branch q k v wq bq wk bk wv bv bb n (headOf c) (subOf c) := by
  rw [val_main_v40_apply, val_main_v39_apply, merge_idx, branch_at]

/-- The local branch is the same chain of operations on other arguments. -/
theorem v81_eq (q k v : A3) (wq bq wk bk wv bv : A1) :
    val_main_v81 (F := Ideal) q k v wq bq wk bk wv bv = val_main_v40 (F := Ideal) q k v wq bq wk bk wv bv := rfl

/-! ## The result -/

/-- The reference's result is the specification's function of the seventeen argument arrays. -/
theorem ref_eq_G (x0 x1 x2 : (⟨S2x16384x1024, .f32⟩ : BufTy).Contents (Elt Ideal))
    (x3 x4 x5 x6 x7 x8 x9 x10 x11 x12 x13 x14 x15 x16 : (⟨S1024, .f32⟩ : BufTy).Contents (Elt Ideal)) :
    Cert.ReferenceIdeal.Read.val_main_v90 (F := Ideal) x0 x1 x2 x3 x4 x5 x6 x7 x8 x9 x10 x11 x12 x13 x14 x15 x16
      = Cert.Spec.G x0 x1 x2 x3 x4 x5 x6 x7 x8 x9 x10 x11 x12 x13 x14 x15 x16 := by
  funext j
  obtain ⟨bb, n, c, rfl⟩ : ∃ (bb : Fin 2) (n : Fin 16384) (c : Fin 1024), j = ix3 bb n c := ⟨j 0, j 1, j 2, eq_ix3 j⟩
  have e85 : idx_main_v85 (idx_main_v86 (ix3 bb n c)) = ix1 c :=
    funext fun a => Fin.ext (by match a with | ⟨0, _⟩ => rfl)
  have e88 : idx_main_v88 (idx_main_v89 (ix3 bb n c)) = ix1 c :=
    funext fun a => Fin.ext (by match a with | ⟨0, _⟩ => rfl)
  rw [val_main_v90_apply, val_main_v87_apply, val_main_v84_apply, val_main_v83_apply, val_main_cst_7_apply,
    val_main_v82_apply, branchOut_at, v81_eq, branchOut_at, val_main_v86_apply, val_main_v85_apply, e85,
    val_main_v89_apply, val_main_v88_apply, e88]
  show _ = outAt x0 x1 x2 x3 x4 x5 x6 x7 x8 x9 x10 x11 x12 x13 x14 x15 x16 bb n (headOf c) (subOf c)
  unfold outAt
  rw [ch_headOf_subOf]
  simp only [Ideal.addf_def, Ideal.mulf_def, Ideal.ofBits_def]

end Cert.RefValue

end
-- ==== Proof.Claims.lean ====
import proofs.«137963_j12481174962634_2_alg».proof.Defs
import proofs.«137963_j12481174962634_2_alg».proof.Proof.Gen.Pre_finite_inputs
import proofs.«137963_j12481174962634_2_alg».proof.Proof.Gen.ReferenceIdeal
import proofs.«137963_j12481174962634_2_alg».proof.Proof.BitsMain
import proofs.«137963_j12481174962634_2_alg».proof.Proof.IdealMain
import proofs.«137963_j12481174962634_2_alg».proof.Proof.IdealValue0d
import proofs.«137963_j12481174962634_2_alg».proof.Proof.IdealValue1
import proofs.«137963_j12481174962634_2_alg».proof.Proof.RefValue

set_option maxRecDepth 16384

noncomputable section

/-! # The five claims

The three frames: each kernel program is its two regions run one after the other, the reference its straight-line
run.  The idealization rewrote nothing.  At the ideal instance the kernel's result array is, index by index, the
channel-attention function of the seventeen argument arrays that the reference computes: the first region leaves the two
attention arrays (the softmax of the scaled scores, the scores summed tile by tile), the second the doubled sum of the
two branches mapped affinely. -/

namespace Cert.Proof.Claims

open Idealize.ShloMosaic Idealize.ShloMosaic.TcCoe Idealize.SL.Sem

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

section
open Cert.KernelIdeal Cert.KernelIdeal.Gen Cert.KernelIdeal.Hand

/-- The kernel's result array after the run is the specification's function of the launch contents. -/
theorem kernel_value (m : (ℓ : Loc nD τ sig) → Buf (Elt Ideal) ℓ) (ρ : Dev nD → PrngReg) (c : Dev nD) :
    (dat1 (V2 m ρ) c).arrAt 9 cfg1.N
      = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  refine (Cert.KernelIdeal.Val1.final1 (V2 m ρ) c).trans ?_
  have hg : V2 m ρ c main_v0_0 = Cert.KernelIdeal.Val0.AttnG (V1 m ρ) c := (W2_arr m ρ c 10).trans (Cert.KernelIdeal.Val0.final10 (V1 m ρ) c)
  have hl : V2 m ρ c main_v0_1 = Cert.KernelIdeal.Val0.AttnL (V1 m ρ) c := (W2_arr m ρ c 11).trans (Cert.KernelIdeal.Val0.final11 (V1 m ρ) c)
  have h2 : V2 m ρ c main_arg2 = m ((c.tc : Thread nD τ).loc main_arg2) := W2_of_ne m ρ c main_arg2 (by decide)
  have h7 : V2 m ρ c main_arg7 = m ((c.tc : Thread nD τ).loc main_arg7) := W2_of_ne m ρ c main_arg7 (by decide)
  have h8 : V2 m ρ c main_arg8 = m ((c.tc : Thread nD τ).loc main_arg8) := W2_of_ne m ρ c main_arg8 (by decide)
  have h13 : V2 m ρ c main_arg13 = m ((c.tc : Thread nD τ).loc main_arg13) := W2_of_ne m ρ c main_arg13 (by decide)
  have h14 : V2 m ρ c main_arg14 = m ((c.tc : Thread nD τ).loc main_arg14) := W2_of_ne m ρ c main_arg14 (by decide)
  have h15 : V2 m ρ c main_arg15 = m ((c.tc : Thread nD τ).loc main_arg15) := W2_of_ne m ρ c main_arg15 (by decide)
  have h16 : V2 m ρ c main_arg16 = m ((c.tc : Thread nD τ).loc main_arg16) := W2_of_ne m ρ c main_arg16 (by decide)
  rw [hg, hl, h2, h7, h8, h13, h14, h15, h16]
  rfl
end

theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)), ?_, ?_⟩
  · exact (θ_run Cert.KernelIdeal.defs _ _).mono (fun r h c => ⟨(h c).1.trans (kernel_value m ρ c), (h c).2⟩)
      (Cert.KernelIdeal.Hand.run_value (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8, a9, a10, a11, a12, a13, a14, a15, a16⟩ := hagree c
    rw [Cert.ReferenceIdeal.Read.val_main_v90_eq, Cert.RefValue.ref_eq_G, a0, a1, a2, a3, a4, a5, a6, a7, a8, a9, a10, a11, a12, a13, a14, a15, a16]

end Cert.Proof.Claims

end
-- ==== Proof.lean ====
import proofs.«137963_j12481174962634_2_alg».proof.Defs
import proofs.«137963_j12481174962634_2_alg».proof.Proof.Gen.Kernel
import proofs.«137963_j12481174962634_2_alg».proof.Proof.Gen.KernelIdeal
import proofs.«137963_j12481174962634_2_alg».proof.Proof.Gen.ReferenceIdeal
import proofs.«137963_j12481174962634_2_alg».proof.Proof.Gen.Pre_finite_inputs
import proofs.«137963_j12481174962634_2_alg».proof.Proof.Claims
import Idealize.ShloMosaic.Adequacy
import Idealize.ShloMosaic.Init

noncomputable section

/-! The certificate's claim: the programs' stated facts, then the three frames, the (empty) idealization ledger and
    the equality of the two idealized programs' results (Proof/Claims.lean). -/

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
